-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S100000x16 : Shape := ⟨2, ![100000, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x16 .f32) (main_arg1 : FVec F S100000x16 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S1024x16 : Shape := ⟨2, ![1024, 16]⟩
abbrev S100000x16 : Shape := ⟨2, ![100000, 16]⟩
abbrev S16x100000 : Shape := ⟨2, ![16, 100000]⟩
abbrev S1024x100000 : Shape := ⟨2, ![1024, 100000]⟩
abbrev S16x24576 : Shape := ⟨2, ![16, 24576]⟩
abbrev S1024x24576 : Shape := ⟨2, ![1024, 24576]⟩
abbrev S_ : Shape := ⟨0, ![]⟩
abbrev S16x1664 : Shape := ⟨2, ![16, 1664]⟩
abbrev S1024x1664 : Shape := ⟨2, ![1024, 1664]⟩
abbrev S16x128 : Shape := ⟨2, ![16, 128]⟩
abbrev S1024x128 : Shape := ⟨2, ![1024, 128]⟩
abbrev S16x4096 : Shape := ⟨2, ![16, 4096]⟩
abbrev S1024x4096 : Shape := ⟨2, ![1024, 4096]⟩

abbrev nBuf : Space → Nat
  | .hbm => 29
  | .vmem => 26
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S16x100000, .f32⟩
  | .hbm, ⟨3, _⟩ => ⟨S1024x100000, .f32⟩
  | .hbm, ⟨4, _⟩ => ⟨S16x24576, .f32⟩
  | .hbm, ⟨5, _⟩ => ⟨S1024x24576, .f32⟩
  | .hbm, ⟨6, _⟩ => ⟨S_, .i32⟩
  | .hbm, ⟨7, _⟩ => ⟨S_, .i32⟩
  | .hbm, ⟨8, _⟩ => ⟨S1024x100000, .f32⟩
  | .hbm, ⟨9, _⟩ => ⟨S16x24576, .f32⟩
  | .hbm, ⟨10, _⟩ => ⟨S1024x24576, .f32⟩
  | .hbm, ⟨11, _⟩ => ⟨S_, .i32⟩
  | .hbm, ⟨12, _⟩ => ⟨S_, .i32⟩
  | .hbm, ⟨13, _⟩ => ⟨S1024x100000, .f32⟩
  | .hbm, ⟨14, _⟩ => ⟨S16x24576, .f32⟩
  | .hbm, ⟨15, _⟩ => ⟨S1024x24576, .f32⟩
  | .hbm, ⟨16, _⟩ => ⟨S_, .i32⟩
  | .hbm, ⟨17, _⟩ => ⟨S_, .i32⟩
  | .hbm, ⟨18, _⟩ => ⟨S1024x100000, .f32⟩
  | .hbm, ⟨19, _⟩ => ⟨S16x24576, .f32⟩
  | .hbm, ⟨20, _⟩ => ⟨S1024x24576, .f32⟩
  | .hbm, ⟨21, _⟩ => ⟨S_, .i32⟩
  | .hbm, ⟨22, _⟩ => ⟨S_, .i32⟩
  | .hbm, ⟨23, _⟩ => ⟨S1024x100000, .f32⟩
  | .hbm, ⟨24, _⟩ => ⟨S16x1664, .f32⟩
  | .hbm, ⟨25, _⟩ => ⟨S1024x1664, .f32⟩
  | .hbm, ⟨26, _⟩ => ⟨S_, .i32⟩
  | .hbm, ⟨27, _⟩ => ⟨S_, .i32⟩
  | .hbm, ⟨28, _⟩ => ⟨S1024x100000, .f32⟩
  | .local _ .vmem, ⟨0, _⟩ => ⟨S1024x16, .f32⟩
  | .local _ .vmem, ⟨1, _⟩ => ⟨S16x128, .f32⟩
  | .local _ .vmem, ⟨2, _⟩ => ⟨S1024x128, .f32⟩
  | .local _ .vmem, ⟨3, _⟩ => ⟨S1024x16, .f32⟩
  | .local _ .vmem, ⟨4, _⟩ => ⟨S16x4096, .f32⟩
  | .local _ .vmem, ⟨5, _⟩ => ⟨S16x4096, .f32⟩
  | .local _ .vmem, ⟨6, _⟩ => ⟨S1024x4096, .f32⟩
  | .local _ .vmem, ⟨7, _⟩ => ⟨S1024x4096, .f32⟩
  | .local _ .vmem, ⟨8, _⟩ => ⟨S1024x16, .f32⟩
  | .local _ .vmem, ⟨9, _⟩ => ⟨S16x4096, .f32⟩
  | .local _ .vmem, ⟨10, _⟩ => ⟨S16x4096, .f32⟩
  | .local _ .vmem, ⟨11, _⟩ => ⟨S1024x4096, .f32⟩
  | .local _ .vmem, ⟨12, _⟩ => ⟨S1024x4096, .f32⟩
  | .local _ .vmem, ⟨13, _⟩ => ⟨S1024x16, .f32⟩
  | .local _ .vmem, ⟨14, _⟩ => ⟨S16x4096, .f32⟩
  | .local _ .vmem, ⟨15, _⟩ => ⟨S16x4096, .f32⟩
  | .local _ .vmem, ⟨16, _⟩ => ⟨S1024x4096, .f32⟩
  | .local _ .vmem, ⟨17, _⟩ => ⟨S1024x4096, .f32⟩
  | .local _ .vmem, ⟨18, _⟩ => ⟨S1024x16, .f32⟩
  | .local _ .vmem, ⟨19, _⟩ => ⟨S16x4096, .f32⟩
  | .local _ .vmem, ⟨20, _⟩ => ⟨S16x4096, .f32⟩
  | .local _ .vmem, ⟨21, _⟩ => ⟨S1024x4096, .f32⟩
  | .local _ .vmem, ⟨22, _⟩ => ⟨S1024x4096, .f32⟩
  | .local _ .vmem, ⟨23, _⟩ => ⟨S1024x16, .f32⟩
  | .local _ .vmem, ⟨24, _⟩ => ⟨S16x1664, .f32⟩
  | .local _ .vmem, ⟨25, _⟩ => ⟨S1024x1664, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_c : Ref sig .tc := ⟨.hbm, 6, rfl⟩
abbrev main_call0_c_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_1 : Ref sig .tc := ⟨.hbm, 11, rfl⟩
abbrev main_call0_c_2 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_c_3 : Ref sig .tc := ⟨.hbm, 16, rfl⟩
abbrev main_call0_c_4 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_c_5 : Ref sig .tc := ⟨.hbm, 21, rfl⟩
abbrev main_call0_c_6 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_c_7 : Ref sig .tc := ⟨.hbm, 26, rfl⟩
abbrev main_call0_c_8 : Ref sig .tc := ⟨.hbm, 27, rfl⟩
abbrev main_v0 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg1_1 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc4_sem0_0 : DmaSem sig := 18
abbrev cc4_sem1_0 : DmaSem sig := 19
abbrev cc4_sem1_1 : DmaSem sig := 20
abbrev cc4_sem2_0 : DmaSem sig := 21
abbrev cc4_sem2_1 : DmaSem sig := 22
abbrev cc5_sem0_0 : DmaSem sig := 23
abbrev cc5_sem1_0 : DmaSem sig := 24
abbrev cc5_sem2_0 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c781_i32 : BitVec 32 := 781#32
  let c0_i32_0 : BitVec 32 := 0#32
  ![c0_i32.toNat, c781_i32.toNat]

def cc0_transform_2 (i : grid0.Coords) : Fin 2 → Nat :=
  let arg0 : BitVec 32 := BitVec.ofNat 32 (i 0).val
  let c0_i32 : BitVec 32 := 0#32
  let c781_i32 : BitVec 32 := 781#32
  let c0_i32_0 : BitVec 32 := 0#32
  ![c0_i32.toNat, c781_i32.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S16x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S16x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1024x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S16x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1024x16 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S16x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1024x16 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S16x1664 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1024x1664 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

class Facts₀ : Prop where
  transposes_S100000x16_S16x100000_1_0 : S100000x16.Transposes [1, 0] S16x100000
  slices_S16x100000_S16x24576_0_0 : S16x100000.Slices ![0, 0] S16x24576
  updateFits_S1024x100000_S1024x24576 : S1024x100000.Slices (fun _ => 0) S1024x24576
  h_S_ : 0 < S_.numel
  slices_S16x100000_S16x24576_0_24576 : S16x100000.Slices ![0, 24576] S16x24576
  slices_S16x100000_S16x24576_0_49152 : S16x100000.Slices ![0, 49152] S16x24576
  slices_S16x100000_S16x24576_0_73728 : S16x100000.Slices ![0, 73728] S16x24576
  slices_S16x100000_S16x1664_0_98304 : S16x100000.Slices ![0, 98304] S16x1664
  updateFits_S1024x100000_S1024x1664 : S1024x100000.Slices (fun _ => 0) S1024x1664
  inb_S1024x16_S1024x16_0_0 : ∀ a, (![0, 0] : Fin 2 → Nat) a + S1024x16.size a ≤ S1024x16.size a
  h_S1024x16 : 0 < S1024x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1024x128_S1024x128_0_0 : ∀ a, (![0, 0] : Fin 2 → Nat) a + S1024x128.size a ≤ S1024x128.size a
  h_S1024x128 : 0 < S1024x128.numel
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S1024x4096_S1024x4096_0_0 : ∀ a, (![0, 0] : Fin 2 → Nat) a + S1024x4096.size a ≤ S1024x4096.size a
  h_S1024x4096 : 0 < S1024x4096.numel
  inb_S16x1664_S16x1664_0_0 : ∀ a, (![0, 0] : Fin 2 → Nat) a + S16x1664.size a ≤ S16x1664.size a
  h_S16x1664 : 0 < S16x1664.numel
  shapeCasts_S16x1664_S16x1664 : S16x1664.ShapeCasts S16x1664
  inb_S1024x1664_S1024x1664_0_0 : ∀ a, (![0, 0] : Fin 2 → Nat) a + S1024x1664.size a ≤ S1024x1664.size a
  h_S1024x1664 : 0 < S1024x1664.numel
  dot_S1024x16_S16x128_S1024x128_1_0_0_1_n_n_wf : DotDims.WF S1024x16 S16x128 S1024x128 [1] [0] [0] [1] [] []
  dot_S1024x16_S16x4096_S1024x4096_1_0_0_1_n_n_wf : DotDims.WF S1024x16 S16x4096 S1024x4096 [1] [0] [0] [1] [] []
  dot_S1024x16_S16x1664_S1024x1664_1_0_0_1_n_n_wf : DotDims.WF S1024x16 S16x1664 S1024x1664 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1024x16.size a
  hwx0_0 : ∀ i : grid0.Coords, EltTy.bits .f32 = 32 ∨ (Rect.block (s := S1024x16) S1024x16.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hstart0_1 : ∀ (i : grid0.Coords) a, cc0_transform_1 i a * S16x128.size a < S16x100000.size a
  hwx0_1 : ∀ i : grid0.Coords, EltTy.bits .f32 = 32 ∨ (Rect.unit (s := S16x100000) (fun a => cc0_transform_1 i a * S16x128.size a) (fun a => (Pipeline.Clip.of (cc0_transform_1 i a) (S16x128.size a) (S16x100000.size a)).extent (S16x128.size a)) fun a => Pipeline.Clip.inb (Pipeline.Clip.ok_of (hstart0_1 i a))).WholeWords (EltTy.packing .f32)
  hwxs0_1 : ∀ i : grid0.Coords, EltTy.bits .f32 = 32 ∨ (Rect.unit (s := S16x128) (fun _ => 0) (fun a => (Pipeline.Clip.of (cc0_transform_1 i a) (S16x128.size a) (S16x100000.size a)).extent (S16x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hstart0_2 : ∀ (i : grid0.Coords) a, cc0_transform_2 i a * S1024x128.size a < S1024x100000.size a
  hwx0_2 : ∀ i : grid0.Coords, EltTy.bits .f32 = 32 ∨ (Rect.unit (s := S1024x100000) (fun a => cc0_transform_2 i a * S1024x128.size a) (fun a => (Pipeline.Clip.of (cc0_transform_2 i a) (S1024x128.size a) (S1024x100000.size a)).extent (S1024x128.size a)) fun a => Pipeline.Clip.inb (Pipeline.Clip.ok_of (hstart0_2 i a))).WholeWords (EltTy.packing .f32)
  hwxs0_2 : ∀ i : grid0.Coords, EltTy.bits .f32 = 32 ∨ (Rect.unit (s := S1024x128) (fun _ => 0) (fun a => (Pipeline.Clip.of (cc0_transform_2 i a) (S1024x128.size a) (S1024x100000.size a)).extent (S1024x128.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x16.size a ≤ S1024x16.size a
  hwx1_0 : ∀ i : grid1.Coords, EltTy.bits .f32 = 32 ∨ (Rect.block (s := S1024x16) S1024x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x4096.size a ≤ S16x24576.size a
  hwx1_1 : ∀ i : grid1.Coords, EltTy.bits .f32 = 32 ∨ (Rect.block (s := S16x24576) S16x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S1024x24576.size a
  hwx1_2 : ∀ i : grid1.Coords, EltTy.bits .f32 = 32 ∨ (Rect.block (s := S1024x24576) S1024x4096.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x16.size a ≤ S1024x16.size a
  hwx2_0 : ∀ i : grid2.Coords, EltTy.bits .f32 = 32 ∨ (Rect.block (s := S1024x16) S1024x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x4096.size a ≤ S16x24576.size a
  hwx2_1 : ∀ i : grid2.Coords, EltTy.bits .f32 = 32 ∨ (Rect.block (s := S16x24576) S16x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x4096.size a ≤ S1024x24576.size a
  hwx2_2 : ∀ i : grid2.Coords, EltTy.bits .f32 = 32 ∨ (Rect.block (s := S1024x24576) S1024x4096.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x16.size a ≤ S1024x16.size a
  hwx3_0 : ∀ i : grid3.Coords, EltTy.bits .f32 = 32 ∨ (Rect.block (s := S1024x16) S1024x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16x4096.size a ≤ S16x24576.size a
  hwx3_1 : ∀ i : grid3.Coords, EltTy.bits .f32 = 32 ∨ (Rect.block (s := S16x24576) S16x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x4096.size a ≤ S1024x24576.size a
  hwx3_2 : ∀ i : grid3.Coords, EltTy.bits .f32 = 32 ∨ (Rect.block (s := S1024x24576) S1024x4096.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x16.size a ≤ S1024x16.size a
  hwx4_0 : ∀ i : grid4.Coords, EltTy.bits .f32 = 32 ∨ (Rect.block (s := S1024x16) S1024x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S16x4096.size a ≤ S16x24576.size a
  hwx4_1 : ∀ i : grid4.Coords, EltTy.bits .f32 = 32 ∨ (Rect.block (s := S16x24576) S16x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x4096.size a ≤ S1024x24576.size a
  hwx4_2 : ∀ i : grid4.Coords, EltTy.bits .f32 = 32 ∨ (Rect.block (s := S1024x24576) S1024x4096.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1024x16.size a ≤ S1024x16.size a
  hwx5_0 : ∀ i : grid5.Coords, EltTy.bits .f32 = 32 ∨ (Rect.block (s := S1024x16) S1024x16.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S16x1664.size a ≤ S16x1664.size a
  hwx5_1 : ∀ i : grid5.Coords, EltTy.bits .f32 = 32 ∨ (Rect.block (s := S16x1664) S16x1664.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1024x1664.size a ≤ S1024x1664.size a
  hwx5_2 : ∀ i : grid5.Coords, EltTy.bits .f32 = 32 ∨ (Rect.block (s := S1024x1664) S1024x1664.size (cc5_transform_2 i) (hinb5_2 i)).WholeWords (EltTy.packing .f32)

variable [Facts₀]

def dot_S1024x16_S16x128_S1024x128_1_0_0_1_n_n : DotDims S1024x16 S16x128 S1024x128 where
  lhsContracting := [1]
  rhsContracting := [0]
  lhsNonContracting := [0]
  rhsNonContracting := [1]
  lhsBatch := []
  rhsBatch := []
  wf := dot_S1024x16_S16x128_S1024x128_1_0_0_1_n_n_wf
def dot_S1024x16_S16x4096_S1024x4096_1_0_0_1_n_n : DotDims S1024x16 S16x4096 S1024x4096 where
  lhsContracting := [1]
  rhsContracting := [0]
  lhsNonContracting := [0]
  rhsNonContracting := [1]
  lhsBatch := []
  rhsBatch := []
  wf := dot_S1024x16_S16x4096_S1024x4096_1_0_0_1_n_n_wf
def dot_S1024x16_S16x1664_S1024x1664_1_0_0_1_n_n : DotDims S1024x16 S16x1664 S1024x1664 where
  lhsContracting := [1]
  rhsContracting := [0]
  lhsNonContracting := [0]
  rhsNonContracting := [1]
  lhsBatch := []
  rhsBatch := []
  wf := dot_S1024x16_S16x1664_S1024x1664_1_0_0_1_n_n_wf

abbrev win0_0 : Pipeline.Window sig grid0 :=
  Pipeline.Window.ofSpec (Memref.whole main_arg0) S1024x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_call0_v0) S16x128.size cc0_transform_1 reads0_1 false false 1 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_call0_v1) S1024x128.size cc0_transform_2 reads0_2 true false 1 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S16x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v3) S1024x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S1024x16.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v5) S16x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v6) S1024x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S1024x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_call0_v8) S16x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v9) S1024x4096.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S1024x16.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_call0_v11) S16x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v12) S1024x4096.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg0) S1024x16.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_call0_v14) S16x1664.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v15) S1024x1664.size cc5_transform_2 reads5_2 true false 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S1024x16 : Shape := ⟨2, ![1024, 16]⟩
abbrev S100000x16 : Shape := ⟨2, ![100000, 16]⟩
abbrev S16x100000 : Shape := ⟨2, ![16, 100000]⟩
abbrev S1024x100000 : Shape := ⟨2, ![1024, 100000]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S16x100000, .f32⟩
  | .hbm, ⟨3, _⟩ => ⟨S1024x100000, .f32⟩
  | .hbm, ⟨4, _⟩ => ⟨S_, .f32⟩
  | .hbm, ⟨5, _⟩ => ⟨S1024x100000, .f32⟩
  | .hbm, ⟨6, _⟩ => ⟨S1024x100000, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S100000x16_S16x100000_1_0 : S100000x16.Transposes [1, 0] S16x100000
  bcast_S_S1024x100000 : S_.BroadcastsInDim S1024x100000 (![] : Fin 0 → Fin S1024x100000.rank)
  dot_S1024x16_S16x100000_S1024x100000_1_0_0_1_n_n_wf : DotDims.WF S1024x16 S16x100000 S1024x100000 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf

class Facts : Prop extends Facts₀ where

variable [Facts]
-- ==== Proof.BitsSide.Tail.lean ====
/-
  The tail region of the product: one grid point, whose body multiplies the whole 1024 × 16 left factor by the 16 × 128
  column block of the transposed right factor that starts at column 99968 — of which only the first 32 columns lie
  inside the 100000-column array — divides by the temperature, and stores the 1024 × 128 block, whose first 32 columns
  the write-back lands in the output array. This module proves the body's triple and the region's body obligation,
  for any float values, over data that constrain the staging contents without naming the columns past the array's end.
-/
import proofs.«177054_g53008486367263_cont_8to1_c_744_45_alg».proof.Proof.Gen.Kernel.Launch
import proofs.«177054_g53008486367263_cont_8to1_c_744_45_alg».proof.Proof.Gen.Kernel.Skeleton
import proofs.«177054_g53008486367263_cont_8to1_c_744_45_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 0: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three whole-buffer rectangles the body reads and writes through. -/
abbrev rx0 : Rect S1024x16 := Rect.unit (s := S1024x16) ![0, 0] S1024x16.size inb_S1024x16_S1024x16_0_0
abbrev rm0 : Rect S16x128 := Rect.unit (s := S16x128) ![0, 0] S16x128.size inb_S16x128_S16x128_0_0
abbrev ro0 : Rect S1024x128 := Rect.unit (s := S1024x128) ![0, 0] S1024x128.size inb_S1024x128_S1024x128_0_0

/-- What the body leaves in the output's staging buffer: its one store of the scaled product of the two input blocks. -/
def out0_2 (x0 : Vec F S1024x16 .f32) (x1 : Vec F S16x128 .f32) : Vec F S1024x128 .f32 :=
  View.canon [⟨ro0, k0_pay1 (View.ld x0 rx0) (View.ld x1 rm0)⟩]

/-- That one store covers the whole buffer. -/
theorem cover0_2 (p0 : Vec F S1024x128 .f32) (y : S1024x128.Idx) :
    ∃ pc ∈ ([⟨ro0, p0⟩] : List (View.Piece (Elt F) S1024x128 .f32)), y ∈ pc.1.set :=
  View.cover_of_tiled [⟨ro0, p0⟩] S1024x128.size (by rfl) y

set_option maxHeartbeats 1000000 in
/-- The body on whole staging memrefs: the inputs' at contents `x0`, `x1`, the output's at anything, runs to the
    inputs' as they were and the output's at `out0_2 x0 x1`. -/
theorem sound_kernel0 (c : Dev nD) (E : Set ℕ) (i : grid0.Coords) (arg1 : Memref sig .tc .vmem S1024x16 .f32) (harg1 : arg1.IsWhole)
    (arg2 : Memref sig .tc .vmem S16x128 .f32) (harg2 : arg2.IsWhole) (arg3 : Memref sig .tc .vmem S1024x128 .f32) (harg3 : arg3.IsWhole)
    (x0 : Vec F S1024x16 .f32) (x1 : Vec F S16x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The relational proof data of the tail region

The right factor's block and the output's block overhang their arrays by 96 columns, so the fetch fills only the
32 leading columns of the staging buffer and the rest holds words nothing names. The data therefore CONSTRAIN what
the body leaves: each input buffer as found, the output buffer at the scaled product of the left factor with the
right block filled out by SOME contents past the array's end. -/

/-- The tail region's data on core `c`. -/
def tailR (c : Dev nD) : Pipeline.RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun _ X => ∃ d : S16x128.Idx → Elt F .f32,
        X = out0_2 (iblk0 V c 0 t) (win0_1.fill (grid0.coords t) d (iblk0 V c 1 t))
  Φ _ := Pipeline.ΦA spec0 c
  q _ := fullShare
  owed _ := 0

theorem tailR_A (c : Dev nD) (w : Fin cfg0.W) : (tailR V c).A w = V c (Pipeline.arrRef spec0 w) := by
  dsimp only [tailR]

/-- What the left factor's buffer holds when the body runs: the whole left factor (the window is not cut). -/
theorem tail_finds_0 (c : Dev nD) (t : Fin cfg0.N) (Y) (h : (tailR V c).Finds 0 t Y) : Y = iblk0 V c 0 t := by
  obtain ⟨d, hd⟩ := ((tailR V c).finds_of_fetch (fetch0_0 t) Y).mp h
  rw [hd]; unfold Pipeline.RDat.fetched Pipeline.RDat.blockOf iblk0; rw [tailR_A]; try rfl

/-- What the right factor's buffer holds: its block on the columns inside the array, anything past them. -/
theorem tail_finds_1 (c : Dev nD) (t : Fin cfg0.N) (Y) (h : (tailR V c).Finds 1 t Y) :
    ∃ d, Y = win0_1.fill (grid0.coords t) d (iblk0 V c 1 t) := by
  obtain ⟨d, hd⟩ := ((tailR V c).finds_of_fetch (fetch0_1 t) Y).mp h
  refine ⟨d, ?_⟩
  rw [hd]; unfold Pipeline.RDat.fetched Pipeline.RDat.blockOf iblk0; rw [tailR_A]; try rfl

/-- The body at the region's one point, on the buffers at any contents they may hold there. -/
theorem tail_body (c : Dev nD) (t : Fin cfg0.N) (Y : (w : Fin cfg0.W) → (cfg0.win w).block.Idx → Elt F (cfg0.win w).elt)
    (hY : ∀ w, (tailR V c).Finds w t (Y w)) :
    iprop((tailR V c).Φ t.castSucc ∗ (tailR V c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((tailR V c).Φ t.succ ∗ (tailR V c).owesAt () t.succ
            ∗ (∃ X, ⌜(tailR V c).after 0 t (Y 0) X⌝ ∗ owns (c : Thread nD τ) (st0_0 t) fullShare X)
            ∗ (∃ X, ⌜(tailR V c).after 1 t (Y 1) X⌝ ∗ owns (c : Thread nD τ) (st0_1 t) fullShare X)
            ∗ (∃ X, ⌜(tailR V c).after 2 t (Y 2) X⌝ ∗ owns (c : Thread nD τ) (st0_2 t) fullShare X))) := by
  have h0 := tail_finds_0 V c t (Y 0) (hY 0)
  obtain ⟨d1, h1⟩ := tail_finds_1 V c t (Y 1) (hY 1)
  unfold bodyAt0
  rw [show (tailR V c).Φ t.succ = (tailR V c).Φ t.castSucc from rfl,
    show (tailR V c).owesAt () t.succ = (tailR V c).owesAt () t.castSucc from rfl]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  swap; · iexact H2
  ipureintro
  exact ⟨d1, by rw [h0, h1]⟩

/-- The body obligation of the relational data, at every point. -/
theorem tail_obligation (c : Dev nD) :
    (tailR (F := F) V c).BodyObligation (defs₀ (F := F)) Variants.none () Set.univ := fun t Y hY => by
  rw [bigSep_W0, bigSep_W0]
  exact tail_body V c t Y hY

end Cert.Kernel.Tiles

end
-- ==== Proof.BitsSide.Chunk1.lean ====
/-
  Column chunk 1 of the product, as one pipelined region: at each grid point the body multiplies the whole 1024 × 16
  left factor by one 16 × 4096 column block of the transposed right factor and divides by the temperature, and stores
  the 1024 × 4096 result block. This module states what each staging buffer holds around the body at every point and
  proves the body's triple and the pipeline's body obligation, for any float values, at the contents the region is
  entered from.
-/
import proofs.«177054_g53008486367263_cont_8to1_c_744_45_alg».proof.Proof.Gen.Kernel.Launch
import proofs.«177054_g53008486367263_cont_8to1_c_744_45_alg».proof.Proof.Gen.Kernel.Skeleton
import proofs.«177054_g53008486367263_cont_8to1_c_744_45_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 1: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds the whole left factor at every point: it is fetched once, and its block
    index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right factor's current staging buffer holds column block `t` of it at point `t`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-buffer rectangles the body reads and writes through. -/
abbrev rx1 : Rect S1024x16 := Rect.unit (s := S1024x16) ![0, 0] S1024x16.size inb_S1024x16_S1024x16_0_0
abbrev rm1 : Rect S16x4096 := Rect.unit (s := S16x4096) ![0, 0] S16x4096.size inb_S16x4096_S16x4096_0_0
abbrev ro1 : Rect S1024x4096 := Rect.unit (s := S1024x4096) ![0, 0] S1024x4096.size inb_S1024x4096_S1024x4096_0_0

/-- What the body leaves in the output's staging buffer: its one store of the scaled product of the two input blocks. -/
def out1_2 (x0 : Vec F S1024x16 .f32) (x1 : Vec F S16x4096 .f32) : Vec F S1024x4096 .f32 :=
  View.canon [⟨ro1, k1_pay1 (View.ld x0 rx1) (View.ld x1 rm1)⟩]

/-- That one store covers the whole buffer. -/
theorem cover1_2 (p0 : Vec F S1024x4096 .f32) (y : S1024x4096.Idx) :
    ∃ pc ∈ ([⟨ro1, p0⟩] : List (View.Piece (Elt F) S1024x4096 .f32)), y ∈ pc.1.set :=
  View.cover_of_tiled [⟨ro1, p0⟩] S1024x4096.size (by rfl) y

set_option maxHeartbeats 1000000 in
/-- The body on whole staging memrefs: the inputs' at contents `x0`, `x1`, the output's at anything, runs to the
    inputs' as they were and the output's at `out1_2 x0 x1`. -/
theorem sound_kernel1 (c : Dev nD) (E : Set ℕ) (i : grid1.Coords) (arg1 : Memref sig .tc .vmem S1024x16 .f32) (harg1 : arg1.IsWhole)
    (arg2 : Memref sig .tc .vmem S16x4096 .f32) (harg2 : arg2.IsWhole) (arg3 : Memref sig .tc .vmem S1024x4096 .f32) (harg3 : arg3.IsWhole)
    (x0 : Vec F S1024x16 .f32) (x1 : Vec F S16x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Tiles

end
-- ==== Proof.BitsSide.Chunk2.lean ====
/-
  Column chunk 2 of the product, as one pipelined region: at each grid point the body multiplies the whole 1024 × 16
  left factor by one 16 × 4096 column block of the transposed right factor and divides by the temperature, and stores
  the 1024 × 4096 result block. This module states what each staging buffer holds around the body at every point and
  proves the body's triple and the pipeline's body obligation, for any float values, at the contents the region is
  entered from.
-/
import proofs.«177054_g53008486367263_cont_8to1_c_744_45_alg».proof.Proof.Gen.Kernel.Launch
import proofs.«177054_g53008486367263_cont_8to1_c_744_45_alg».proof.Proof.Gen.Kernel.Skeleton
import proofs.«177054_g53008486367263_cont_8to1_c_744_45_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 2: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer holds the whole left factor at every point: it is fetched once, and its block
    index never moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's current staging buffer holds column block `t` of it at point `t`. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-buffer rectangles the body reads and writes through. -/
abbrev rx2 : Rect S1024x16 := Rect.unit (s := S1024x16) ![0, 0] S1024x16.size inb_S1024x16_S1024x16_0_0
abbrev rm2 : Rect S16x4096 := Rect.unit (s := S16x4096) ![0, 0] S16x4096.size inb_S16x4096_S16x4096_0_0
abbrev ro2 : Rect S1024x4096 := Rect.unit (s := S1024x4096) ![0, 0] S1024x4096.size inb_S1024x4096_S1024x4096_0_0

/-- What the body leaves in the output's staging buffer: its one store of the scaled product of the two input blocks. -/
def out2_2 (x0 : Vec F S1024x16 .f32) (x1 : Vec F S16x4096 .f32) : Vec F S1024x4096 .f32 :=
  View.canon [⟨ro2, k2_pay1 (View.ld x0 rx2) (View.ld x1 rm2)⟩]

/-- That one store covers the whole buffer. -/
theorem cover2_2 (p0 : Vec F S1024x4096 .f32) (y : S1024x4096.Idx) :
    ∃ pc ∈ ([⟨ro2, p0⟩] : List (View.Piece (Elt F) S1024x4096 .f32)), y ∈ pc.1.set :=
  View.cover_of_tiled [⟨ro2, p0⟩] S1024x4096.size (by rfl) y

set_option maxHeartbeats 1000000 in
/-- The body on whole staging memrefs: the inputs' at contents `x0`, `x1`, the output's at anything, runs to the
    inputs' as they were and the output's at `out2_2 x0 x1`. -/
theorem sound_kernel2 (c : Dev nD) (E : Set ℕ) (i : grid2.Coords) (arg1 : Memref sig .tc .vmem S1024x16 .f32) (harg1 : arg1.IsWhole)
    (arg2 : Memref sig .tc .vmem S16x4096 .f32) (harg2 : arg2.IsWhole) (arg3 : Memref sig .tc .vmem S1024x4096 .f32) (harg3 : arg3.IsWhole)
    (x0 : Vec F S1024x16 .f32) (x1 : Vec F S16x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Tiles

end
-- ==== Proof.BitsSide.Chunk3.lean ====
/-
  Column chunk 3 of the product, as one pipelined region: at each grid point the body multiplies the whole 1024 × 16
  left factor by one 16 × 4096 column block of the transposed right factor and divides by the temperature, and stores
  the 1024 × 4096 result block. This module states what each staging buffer holds around the body at every point and
  proves the body's triple and the pipeline's body obligation, for any float values, at the contents the region is
  entered from.
-/
import proofs.«177054_g53008486367263_cont_8to1_c_744_45_alg».proof.Proof.Gen.Kernel.Launch
import proofs.«177054_g53008486367263_cont_8to1_c_744_45_alg».proof.Proof.Gen.Kernel.Skeleton
import proofs.«177054_g53008486367263_cont_8to1_c_744_45_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 3: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's staging buffer holds the whole left factor at every point: it is fetched once, and its block
    index never moves. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right factor's current staging buffer holds column block `t` of it at point `t`. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The three whole-buffer rectangles the body reads and writes through. -/
abbrev rx3 : Rect S1024x16 := Rect.unit (s := S1024x16) ![0, 0] S1024x16.size inb_S1024x16_S1024x16_0_0
abbrev rm3 : Rect S16x4096 := Rect.unit (s := S16x4096) ![0, 0] S16x4096.size inb_S16x4096_S16x4096_0_0
abbrev ro3 : Rect S1024x4096 := Rect.unit (s := S1024x4096) ![0, 0] S1024x4096.size inb_S1024x4096_S1024x4096_0_0

/-- What the body leaves in the output's staging buffer: its one store of the scaled product of the two input blocks. -/
def out3_2 (x0 : Vec F S1024x16 .f32) (x1 : Vec F S16x4096 .f32) : Vec F S1024x4096 .f32 :=
  View.canon [⟨ro3, k3_pay1 (View.ld x0 rx3) (View.ld x1 rm3)⟩]

/-- That one store covers the whole buffer. -/
theorem cover3_2 (p0 : Vec F S1024x4096 .f32) (y : S1024x4096.Idx) :
    ∃ pc ∈ ([⟨ro3, p0⟩] : List (View.Piece (Elt F) S1024x4096 .f32)), y ∈ pc.1.set :=
  View.cover_of_tiled [⟨ro3, p0⟩] S1024x4096.size (by rfl) y

set_option maxHeartbeats 1000000 in
/-- The body on whole staging memrefs: the inputs' at contents `x0`, `x1`, the output's at anything, runs to the
    inputs' as they were and the output's at `out3_2 x0 x1`. -/
theorem sound_kernel3 (c : Dev nD) (E : Set ℕ) (i : grid3.Coords) (arg1 : Memref sig .tc .vmem S1024x16 .f32) (harg1 : arg1.IsWhole)
    (arg2 : Memref sig .tc .vmem S16x4096 .f32) (harg2 : arg2.IsWhole) (arg3 : Memref sig .tc .vmem S1024x4096 .f32) (harg3 : arg3.IsWhole)
    (x0 : Vec F S1024x16 .f32) (x1 : Vec F S16x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Tiles

end
-- ==== Proof.BitsSide.Chunk4.lean ====
/-
  Column chunk 4 of the product, as one pipelined region: at each grid point the body multiplies the whole 1024 × 16
  left factor by one 16 × 4096 column block of the transposed right factor and divides by the temperature, and stores
  the 1024 × 4096 result block. This module states what each staging buffer holds around the body at every point and
  proves the body's triple and the pipeline's body obligation, for any float values, at the contents the region is
  entered from.
-/
import proofs.«177054_g53008486367263_cont_8to1_c_744_45_alg».proof.Proof.Gen.Kernel.Launch
import proofs.«177054_g53008486367263_cont_8to1_c_744_45_alg».proof.Proof.Gen.Kernel.Skeleton
import proofs.«177054_g53008486367263_cont_8to1_c_744_45_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 4: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left factor's staging buffer holds the whole left factor at every point: it is fetched once, and its block
    index never moves. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right factor's current staging buffer holds column block `t` of it at point `t`. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The three whole-buffer rectangles the body reads and writes through. -/
abbrev rx4 : Rect S1024x16 := Rect.unit (s := S1024x16) ![0, 0] S1024x16.size inb_S1024x16_S1024x16_0_0
abbrev rm4 : Rect S16x4096 := Rect.unit (s := S16x4096) ![0, 0] S16x4096.size inb_S16x4096_S16x4096_0_0
abbrev ro4 : Rect S1024x4096 := Rect.unit (s := S1024x4096) ![0, 0] S1024x4096.size inb_S1024x4096_S1024x4096_0_0

/-- What the body leaves in the output's staging buffer: its one store of the scaled product of the two input blocks. -/
def out4_2 (x0 : Vec F S1024x16 .f32) (x1 : Vec F S16x4096 .f32) : Vec F S1024x4096 .f32 :=
  View.canon [⟨ro4, k4_pay1 (View.ld x0 rx4) (View.ld x1 rm4)⟩]

/-- That one store covers the whole buffer. -/
theorem cover4_2 (p0 : Vec F S1024x4096 .f32) (y : S1024x4096.Idx) :
    ∃ pc ∈ ([⟨ro4, p0⟩] : List (View.Piece (Elt F) S1024x4096 .f32)), y ∈ pc.1.set :=
  View.cover_of_tiled [⟨ro4, p0⟩] S1024x4096.size (by rfl) y

set_option maxHeartbeats 1000000 in
/-- The body on whole staging memrefs: the inputs' at contents `x0`, `x1`, the output's at anything, runs to the
    inputs' as they were and the output's at `out4_2 x0 x1`. -/
theorem sound_kernel4 (c : Dev nD) (E : Set ℕ) (i : grid4.Coords) (arg1 : Memref sig .tc .vmem S1024x16 .f32) (harg1 : arg1.IsWhole)
    (arg2 : Memref sig .tc .vmem S16x4096 .f32) (harg2 : arg2.IsWhole) (arg3 : Memref sig .tc .vmem S1024x4096 .f32) (harg3 : arg3.IsWhole)
    (x0 : Vec F S1024x16 .f32) (x1 : Vec F S16x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Tiles

end
-- ==== Proof.BitsSide.Chunk5.lean ====
/-
  Column chunk 5 of the product, as one pipelined region: at each grid point the body multiplies the whole 1024 × 16
  left factor by one 16 × 1664 column block of the transposed right factor and divides by the temperature, and stores
  the 1024 × 1664 result block. This module states what each staging buffer holds around the body at every point and
  proves the body's triple and the pipeline's body obligation, for any float values, at the contents the region is
  entered from.
-/
import proofs.«177054_g53008486367263_cont_8to1_c_744_45_alg».proof.Proof.Gen.Kernel.Launch
import proofs.«177054_g53008486367263_cont_8to1_c_744_45_alg».proof.Proof.Gen.Kernel.Skeleton
import proofs.«177054_g53008486367263_cont_8to1_c_744_45_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 5: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left factor's staging buffer holds the whole left factor at every point: it is fetched once, and its block
    index never moves. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The right factor's current staging buffer holds column block `t` of it at point `t`. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The three whole-buffer rectangles the body reads and writes through. -/
abbrev rx5 : Rect S1024x16 := Rect.unit (s := S1024x16) ![0, 0] S1024x16.size inb_S1024x16_S1024x16_0_0
abbrev rm5 : Rect S16x1664 := Rect.unit (s := S16x1664) ![0, 0] S16x1664.size inb_S16x1664_S16x1664_0_0
abbrev ro5 : Rect S1024x1664 := Rect.unit (s := S1024x1664) ![0, 0] S1024x1664.size inb_S1024x1664_S1024x1664_0_0

/-- What the body leaves in the output's staging buffer: its one store of the scaled product of the two input blocks. -/
def out5_2 (x0 : Vec F S1024x16 .f32) (x1 : Vec F S16x1664 .f32) : Vec F S1024x1664 .f32 :=
  View.canon [⟨ro5, k5_pay1 (View.ld x0 rx5) (View.ld x1 rm5)⟩]

/-- That one store covers the whole buffer. -/
theorem cover5_2 (p0 : Vec F S1024x1664 .f32) (y : S1024x1664.Idx) :
    ∃ pc ∈ ([⟨ro5, p0⟩] : List (View.Piece (Elt F) S1024x1664 .f32)), y ∈ pc.1.set :=
  View.cover_of_tiled [⟨ro5, p0⟩] S1024x1664.size (by rfl) y

set_option maxHeartbeats 1000000 in
/-- The body on whole staging memrefs: the inputs' at contents `x0`, `x1`, the output's at anything, runs to the
    inputs' as they were and the output's at `out5_2 x0 x1`. -/
theorem sound_kernel5 (c : Dev nD) (E : Set ℕ) (i : grid5.Coords) (arg1 : Memref sig .tc .vmem S1024x16 .f32) (harg1 : arg1.IsWhole)
    (arg2 : Memref sig .tc .vmem S16x1664 .f32) (harg2 : arg2.IsWhole) (arg3 : Memref sig .tc .vmem S1024x1664 .f32) (harg3 : arg3.IsWhole)
    (x0 : Vec F S1024x16 .f32) (x1 : Vec F S16x1664 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Tiles

end
-- ==== Proof.BitsSide.Fold.lean ====
/-
  The contents of every buffer between the items of @main — the transpose, the tail region, and five times a column
  slice, a column chunk's region and the update of the running result by the previous chunk — as a fold from the launch
  memory, written over the one thing the data do not name: what the tail region leaves in its output array.
-/
import proofs.«177054_g53008486367263_cont_8to1_c_744_45_alg».proof.Proof.BitsSide.Tail
import proofs.«177054_g53008486367263_cont_8to1_c_744_45_alg».proof.Proof.BitsSide.Chunk1
import proofs.«177054_g53008486367263_cont_8to1_c_744_45_alg».proof.Proof.BitsSide.Chunk2
import proofs.«177054_g53008486367263_cont_8to1_c_744_45_alg».proof.Proof.BitsSide.Chunk3
import proofs.«177054_g53008486367263_cont_8to1_c_744_45_alg».proof.Proof.BitsSide.Chunk4
import proofs.«177054_g53008486367263_cont_8to1_c_744_45_alg».proof.Proof.BitsSide.Chunk5
import proofs.«177054_g53008486367263_cont_8to1_c_744_45_alg».proof.Proof.Gen.Kernel.Regions
import Idealize.ShloMosaic.Lib.StableHlo.Run

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between the items of @main, as a function of what the tail region leaves

The tail region's output array ends at contents the data constrain but do not name (`o` below). Every later item is
read from it: the host stretches fold over it, and each column chunk's region replaces its own arrays by what its
write-backs leave. No column chunk reads an array that depends on `o`: its operands are the left factor, a column
slice of the transposed right factor, and an output array no earlier item wrote. -/

/-- The contents of the tail region's output array. -/
abbrev TailArr (c : Dev nD) : Type := Buf (Elt F) ((c : Thread nD τ).loc main_call0_v1)

/-- Core `c`'s buffers at launch, -/
abbrev B0 (c : Dev nD) : Valuation τ sig (Elt F) := fun b => m (c, b)
/-- after the transpose (the tail region's entry), -/
abbrev B1 (c : Dev nD) : Valuation τ sig (Elt F) := StableHlo.after hostOps0 (B0 m c)
abbrev R1 (c : Dev nD) (b : Ref sig .tc) : Buf (Elt F) ((c : Thread nD τ).loc b) := B1 m c b
/-- after the tail region, its output array at `o`, -/
abbrev B2 (c : Dev nD) (o : TailArr (F := F) c) : Valuation τ sig (Elt F) := Function.update (B1 m c) main_call0_v1 o
/-- after the first column slice (chunk 1's entry). -/
abbrev B3 (c : Dev nD) (o : TailArr (F := F) c) : Valuation τ sig (Elt F) := StableHlo.after hostOps1 (B2 m c o)
/-- The launch contents of the tail's array: they stand in for `o` where a later region's data must be fixed
    before the run (nothing such data read depends on `o`). -/
abbrev o₀ (c : Dev nD) : TailArr (F := F) c := m ((c : Thread nD τ).loc main_call0_v1)

/-- The contents chunk 1's data are stated at. -/
abbrev E1 (c : Dev nD) (b : Ref sig .tc) : Buf (Elt F) ((c : Thread nD τ).loc b) := B3 m c (o₀ m c) b
/-- After chunk 1's region: its arrays at what its write-backs leave, every other buffer as entered. -/
def B4 (c : Dev nD) (o : TailArr (F := F) c) : Valuation τ sig (Elt F) :=
  Pipeline.withArrays spec1 c (B3 m c o) fun w => (dat1 (E1 m) c).arrAt w cfg1.N
theorem B4_arr (c : Dev nD) (o : TailArr (F := F) c) (w : Fin cfg1.W) :
    B4 m c o (Proc.devRef .tc (Pipeline.arrRef spec1 w)) = (dat1 (E1 m) c).arrAt w cfg1.N := by
  unfold B4; exact Pipeline.withArrays_arr spec1 launch1.win.arr_inj c _ _ w
theorem B4_of (c : Dev nD) (o : TailArr (F := F) c) (b : Ref sig .tc) (hb : ∀ w, Pipeline.arrRef spec1 w ≠ b) :
    B4 m c o (Proc.devRef .tc b) = B3 m c o (Proc.devRef .tc b) := by
  unfold B4; exact Pipeline.withArrays_of_ne spec1 c _ _ b hb
/-- After the host stretch that follows it. -/
abbrev B5 (c : Dev nD) (o : TailArr (F := F) c) : Valuation τ sig (Elt F) := StableHlo.after hostOps2 (B4 m c o)

/-- The contents chunk 2's data are stated at. -/
abbrev E2 (c : Dev nD) (b : Ref sig .tc) : Buf (Elt F) ((c : Thread nD τ).loc b) := B5 m c (o₀ m c) b
/-- After chunk 2's region: its arrays at what its write-backs leave, every other buffer as entered. -/
def B6 (c : Dev nD) (o : TailArr (F := F) c) : Valuation τ sig (Elt F) :=
  Pipeline.withArrays spec2 c (B5 m c o) fun w => (dat2 (E2 m) c).arrAt w cfg2.N
theorem B6_arr (c : Dev nD) (o : TailArr (F := F) c) (w : Fin cfg2.W) :
    B6 m c o (Proc.devRef .tc (Pipeline.arrRef spec2 w)) = (dat2 (E2 m) c).arrAt w cfg2.N := by
  unfold B6; exact Pipeline.withArrays_arr spec2 launch2.win.arr_inj c _ _ w
theorem B6_of (c : Dev nD) (o : TailArr (F := F) c) (b : Ref sig .tc) (hb : ∀ w, Pipeline.arrRef spec2 w ≠ b) :
    B6 m c o (Proc.devRef .tc b) = B5 m c o (Proc.devRef .tc b) := by
  unfold B6; exact Pipeline.withArrays_of_ne spec2 c _ _ b hb
/-- After the host stretch that follows it. -/
abbrev B7 (c : Dev nD) (o : TailArr (F := F) c) : Valuation τ sig (Elt F) := StableHlo.after hostOps3 (B6 m c o)

/-- The contents chunk 3's data are stated at. -/
abbrev E3 (c : Dev nD) (b : Ref sig .tc) : Buf (Elt F) ((c : Thread nD τ).loc b) := B7 m c (o₀ m c) b
/-- After chunk 3's region: its arrays at what its write-backs leave, every other buffer as entered. -/
def B8 (c : Dev nD) (o : TailArr (F := F) c) : Valuation τ sig (Elt F) :=
  Pipeline.withArrays spec3 c (B7 m c o) fun w => (dat3 (E3 m) c).arrAt w cfg3.N
theorem B8_arr (c : Dev nD) (o : TailArr (F := F) c) (w : Fin cfg3.W) :
    B8 m c o (Proc.devRef .tc (Pipeline.arrRef spec3 w)) = (dat3 (E3 m) c).arrAt w cfg3.N := by
  unfold B8; exact Pipeline.withArrays_arr spec3 launch3.win.arr_inj c _ _ w
theorem B8_of (c : Dev nD) (o : TailArr (F := F) c) (b : Ref sig .tc) (hb : ∀ w, Pipeline.arrRef spec3 w ≠ b) :
    B8 m c o (Proc.devRef .tc b) = B7 m c o (Proc.devRef .tc b) := by
  unfold B8; exact Pipeline.withArrays_of_ne spec3 c _ _ b hb
/-- After the host stretch that follows it. -/
abbrev B9 (c : Dev nD) (o : TailArr (F := F) c) : Valuation τ sig (Elt F) := StableHlo.after hostOps4 (B8 m c o)

/-- The contents chunk 4's data are stated at. -/
abbrev E4 (c : Dev nD) (b : Ref sig .tc) : Buf (Elt F) ((c : Thread nD τ).loc b) := B9 m c (o₀ m c) b
/-- After chunk 4's region: its arrays at what its write-backs leave, every other buffer as entered. -/
def B10 (c : Dev nD) (o : TailArr (F := F) c) : Valuation τ sig (Elt F) :=
  Pipeline.withArrays spec4 c (B9 m c o) fun w => (dat4 (E4 m) c).arrAt w cfg4.N
theorem B10_arr (c : Dev nD) (o : TailArr (F := F) c) (w : Fin cfg4.W) :
    B10 m c o (Proc.devRef .tc (Pipeline.arrRef spec4 w)) = (dat4 (E4 m) c).arrAt w cfg4.N := by
  unfold B10; exact Pipeline.withArrays_arr spec4 launch4.win.arr_inj c _ _ w
theorem B10_of (c : Dev nD) (o : TailArr (F := F) c) (b : Ref sig .tc) (hb : ∀ w, Pipeline.arrRef spec4 w ≠ b) :
    B10 m c o (Proc.devRef .tc b) = B9 m c o (Proc.devRef .tc b) := by
  unfold B10; exact Pipeline.withArrays_of_ne spec4 c _ _ b hb
/-- After the host stretch that follows it. -/
abbrev B11 (c : Dev nD) (o : TailArr (F := F) c) : Valuation τ sig (Elt F) := StableHlo.after hostOps5 (B10 m c o)

/-- The contents chunk 5's data are stated at. -/
abbrev E5 (c : Dev nD) (b : Ref sig .tc) : Buf (Elt F) ((c : Thread nD τ).loc b) := B11 m c (o₀ m c) b
/-- After chunk 5's region: its arrays at what its write-backs leave, every other buffer as entered. -/
def B12 (c : Dev nD) (o : TailArr (F := F) c) : Valuation τ sig (Elt F) :=
  Pipeline.withArrays spec5 c (B11 m c o) fun w => (dat5 (E5 m) c).arrAt w cfg5.N
theorem B12_arr (c : Dev nD) (o : TailArr (F := F) c) (w : Fin cfg5.W) :
    B12 m c o (Proc.devRef .tc (Pipeline.arrRef spec5 w)) = (dat5 (E5 m) c).arrAt w cfg5.N := by
  unfold B12; exact Pipeline.withArrays_arr spec5 launch5.win.arr_inj c _ _ w
theorem B12_of (c : Dev nD) (o : TailArr (F := F) c) (b : Ref sig .tc) (hb : ∀ w, Pipeline.arrRef spec5 w ≠ b) :
    B12 m c o (Proc.devRef .tc b) = B11 m c o (Proc.devRef .tc b) := by
  unfold B12; exact Pipeline.withArrays_of_ne spec5 c _ _ b hb
/-- After the host stretch that follows it. -/
abbrev B13 (c : Dev nD) (o : TailArr (F := F) c) : Valuation τ sig (Elt F) := StableHlo.after hostOps6 (B12 m c o)

/-! ## What each host stretch and the tail region leave unchanged -/

theorem B1_of (c : Dev nD) (r : Ref sig .tc) (h : r ∉ hostOps0_W) : B1 m c (Proc.devRef .tc r) = B0 m c (Proc.devRef .tc r) :=
  StableHlo.after_of_writes_sub hostOps0 _ hostOps0_writes h
theorem B2_of (c : Dev nD) (o : TailArr (F := F) c) (r : Ref sig .tc) (h : r ≠ main_call0_v1) :
    B2 m c o (Proc.devRef .tc r) = B1 m c (Proc.devRef .tc r) := by
  simp only [B2, Function.update_of_ne (StableHlo.devRef_ne_of_ne h : (Proc.devRef .tc r : DevRef τ sig) ≠ Proc.devRef .tc main_call0_v1)]
theorem B2_tail (c : Dev nD) (o : TailArr (F := F) c) : B2 m c o (Proc.devRef .tc main_call0_v1) = o := by
  simp only [B2, Function.update_self]
theorem B3_of (c : Dev nD) (o : TailArr (F := F) c) (r : Ref sig .tc) (h : r ∉ hostOps1_W) :
    B3 m c o (Proc.devRef .tc r) = B2 m c o (Proc.devRef .tc r) :=
  StableHlo.after_of_writes_sub hostOps1 _ hostOps1_writes h
theorem B5_of (c : Dev nD) (o : TailArr (F := F) c) (r : Ref sig .tc) (h : r ∉ hostOps2_W) :
    B5 m c o (Proc.devRef .tc r) = B4 m c o (Proc.devRef .tc r) :=
  StableHlo.after_of_writes_sub hostOps2 _ hostOps2_writes h
theorem B7_of (c : Dev nD) (o : TailArr (F := F) c) (r : Ref sig .tc) (h : r ∉ hostOps3_W) :
    B7 m c o (Proc.devRef .tc r) = B6 m c o (Proc.devRef .tc r) :=
  StableHlo.after_of_writes_sub hostOps3 _ hostOps3_writes h
theorem B9_of (c : Dev nD) (o : TailArr (F := F) c) (r : Ref sig .tc) (h : r ∉ hostOps4_W) :
    B9 m c o (Proc.devRef .tc r) = B8 m c o (Proc.devRef .tc r) :=
  StableHlo.after_of_writes_sub hostOps4 _ hostOps4_writes h
theorem B11_of (c : Dev nD) (o : TailArr (F := F) c) (r : Ref sig .tc) (h : r ∉ hostOps5_W) :
    B11 m c o (Proc.devRef .tc r) = B10 m c o (Proc.devRef .tc r) :=
  StableHlo.after_of_writes_sub hostOps5 _ hostOps5_writes h
theorem B13_of (c : Dev nD) (o : TailArr (F := F) c) (r : Ref sig .tc) (h : r ∉ hostOps6_W) :
    B13 m c o (Proc.devRef .tc r) = B12 m c o (Proc.devRef .tc r) :=
  StableHlo.after_of_writes_sub hostOps6 _ hostOps6_writes h

/-- What the data say of the tail region's output array after its one write-back: the entry contents with the
    block's columns inside the array overwritten by the leading columns of some contents the body may leave. -/
def TailOut (c : Dev nD) (o : TailArr (F := F) c) : Prop := (tailR (R1 m) c).ArrAt 2 cfg0.N o

/-! ## What each region is entered from: the left factor, the transposed right factor and its column slices, and the
    column chunks' output arrays, whatever the tail region left -/

/-- The transpose's result. -/
theorem B1_v0 (c : Dev nD) : B1 m c (Proc.devRef .tc main_call0_v0)
    = transpose S16x100000 [1, 0] (m ((c : Thread nD τ).loc main_arg1)) transposes_S100000x16_S16x100000_1_0 := by
  show StableHlo.after hostOps0 (B0 m c) (Proc.devRef .tc main_call0_v0) = _
  after_results
  rfl

/-- The left factor is as launched at the tail's entry, -/
theorem B1_x (c : Dev nD) : B1 m c (Proc.devRef .tc main_arg0) = m ((c : Thread nD τ).loc main_arg0) :=
  (B1_of m c main_arg0 (by decide)).trans rfl
/-- and the tail's output array too. -/
theorem B1_tail (c : Dev nD) : B1 m c (Proc.devRef .tc main_call0_v1) = o₀ m c :=
  (B1_of m c main_call0_v1 (by decide)).trans rfl
theorem B2_x (c : Dev nD) (o : TailArr (F := F) c) : B2 m c o (Proc.devRef .tc main_arg0) = m ((c : Thread nD τ).loc main_arg0) :=
  (B2_of m c o main_arg0 (by decide)).trans (B1_x m c)
theorem B2_v0 (c : Dev nD) (o : TailArr (F := F) c) : B2 m c o (Proc.devRef .tc main_call0_v0) = B1 m c (Proc.devRef .tc main_call0_v0) :=
  B2_of m c o main_call0_v0 (by decide)

theorem B3_x (c : Dev nD) (o : TailArr (F := F) c) : B3 m c o (Proc.devRef .tc main_arg0) = m ((c : Thread nD τ).loc main_arg0) :=
  (B3_of m c o main_arg0 (by decide)).trans (B2_x m c o)
theorem B3_v0 (c : Dev nD) (o : TailArr (F := F) c) : B3 m c o (Proc.devRef .tc main_call0_v0) = B1 m c (Proc.devRef .tc main_call0_v0) :=
  (B3_of m c o main_call0_v0 (by decide)).trans (B2_v0 m c o)
/-- Chunk 1's column slice of the transposed right factor. -/
theorem B3_sl (c : Dev nD) (o : TailArr (F := F) c) : B3 m c o (Proc.devRef .tc main_call0_v2)
    = extractStridedSlice S16x24576 ![0, 0] (B1 m c (Proc.devRef .tc main_call0_v0)) slices_S16x100000_S16x24576_0_0 := by
  rw [← B2_v0 m c o]
  show StableHlo.after hostOps1 (B2 m c o) (Proc.devRef .tc main_call0_v2) = _
  after_results
  rfl
/-- Chunk 1's output array is as launched when its region is entered: nothing before it writes it. -/
theorem B3_out (c : Dev nD) (o : TailArr (F := F) c) : B3 m c o (Proc.devRef .tc main_call0_v3) = m ((c : Thread nD τ).loc main_call0_v3) :=
  (B3_of m c o main_call0_v3 (by decide)).trans <| (B2_of m c o main_call0_v3 (by decide)).trans <| (B1_of m c main_call0_v3 (by decide)).trans rfl
/-- The arrays chunk 1's region touches do not depend on what the tail region left. -/
theorem indep1 (c : Dev nD) (o : TailArr (F := F) c) (w : Fin cfg1.W) :
    (dat1 (E1 m) c).A w = B3 m c o (Proc.devRef .tc (Pipeline.arrRef spec1 w)) := by
  rw [A_eq1]
  match w with
  | ⟨0, _⟩ => exact (B3_x m c (o₀ m c)).trans (B3_x m c o).symm
  | ⟨1, _⟩ => exact (B3_sl m c (o₀ m c)).trans (B3_sl m c o).symm
  | ⟨2, _⟩ => exact (B3_out m c (o₀ m c)).trans (B3_out m c o).symm
/-- After chunk 1's region the left factor and the transposed right factor are still as they were. -/
theorem B4_x (c : Dev nD) (o : TailArr (F := F) c) : B4 m c o (Proc.devRef .tc main_arg0) = m ((c : Thread nD τ).loc main_arg0) :=
  (B4_arr m c o 0).trans <| ((dat1 (E1 m) c).arrAt_in 0 rfl _).trans <| (A_eq1 (E1 m) c 0).trans (B3_x m c (o₀ m c))
theorem B4_v0 (c : Dev nD) (o : TailArr (F := F) c) : B4 m c o (Proc.devRef .tc main_call0_v0) = B1 m c (Proc.devRef .tc main_call0_v0) :=
  (B4_of m c o main_call0_v0 (by decide)).trans (B3_v0 m c o)

theorem B5_x (c : Dev nD) (o : TailArr (F := F) c) : B5 m c o (Proc.devRef .tc main_arg0) = m ((c : Thread nD τ).loc main_arg0) :=
  (B5_of m c o main_arg0 (by decide)).trans (B4_x m c o)
theorem B5_v0 (c : Dev nD) (o : TailArr (F := F) c) : B5 m c o (Proc.devRef .tc main_call0_v0) = B1 m c (Proc.devRef .tc main_call0_v0) :=
  (B5_of m c o main_call0_v0 (by decide)).trans (B4_v0 m c o)
/-- Chunk 2's column slice of the transposed right factor. -/
theorem B5_sl (c : Dev nD) (o : TailArr (F := F) c) : B5 m c o (Proc.devRef .tc main_call0_v5)
    = extractStridedSlice S16x24576 ![0, 24576] (B1 m c (Proc.devRef .tc main_call0_v0)) slices_S16x100000_S16x24576_0_24576 := by
  rw [← B4_v0 m c o]
  show StableHlo.after hostOps2 (B4 m c o) (Proc.devRef .tc main_call0_v5) = _
  after_results
  rfl
/-- Chunk 2's output array is as launched when its region is entered: nothing before it writes it. -/
theorem B5_out (c : Dev nD) (o : TailArr (F := F) c) : B5 m c o (Proc.devRef .tc main_call0_v6) = m ((c : Thread nD τ).loc main_call0_v6) :=
  (B5_of m c o main_call0_v6 (by decide)).trans <| (B4_of m c o main_call0_v6 (by decide)).trans <| (B3_of m c o main_call0_v6 (by decide)).trans <| (B2_of m c o main_call0_v6 (by decide)).trans <| (B1_of m c main_call0_v6 (by decide)).trans rfl
/-- The arrays chunk 2's region touches do not depend on what the tail region left. -/
theorem indep2 (c : Dev nD) (o : TailArr (F := F) c) (w : Fin cfg2.W) :
    (dat2 (E2 m) c).A w = B5 m c o (Proc.devRef .tc (Pipeline.arrRef spec2 w)) := by
  rw [A_eq2]
  match w with
  | ⟨0, _⟩ => exact (B5_x m c (o₀ m c)).trans (B5_x m c o).symm
  | ⟨1, _⟩ => exact (B5_sl m c (o₀ m c)).trans (B5_sl m c o).symm
  | ⟨2, _⟩ => exact (B5_out m c (o₀ m c)).trans (B5_out m c o).symm
/-- After chunk 2's region the left factor and the transposed right factor are still as they were. -/
theorem B6_x (c : Dev nD) (o : TailArr (F := F) c) : B6 m c o (Proc.devRef .tc main_arg0) = m ((c : Thread nD τ).loc main_arg0) :=
  (B6_arr m c o 0).trans <| ((dat2 (E2 m) c).arrAt_in 0 rfl _).trans <| (A_eq2 (E2 m) c 0).trans (B5_x m c (o₀ m c))
theorem B6_v0 (c : Dev nD) (o : TailArr (F := F) c) : B6 m c o (Proc.devRef .tc main_call0_v0) = B1 m c (Proc.devRef .tc main_call0_v0) :=
  (B6_of m c o main_call0_v0 (by decide)).trans (B5_v0 m c o)

theorem B7_x (c : Dev nD) (o : TailArr (F := F) c) : B7 m c o (Proc.devRef .tc main_arg0) = m ((c : Thread nD τ).loc main_arg0) :=
  (B7_of m c o main_arg0 (by decide)).trans (B6_x m c o)
theorem B7_v0 (c : Dev nD) (o : TailArr (F := F) c) : B7 m c o (Proc.devRef .tc main_call0_v0) = B1 m c (Proc.devRef .tc main_call0_v0) :=
  (B7_of m c o main_call0_v0 (by decide)).trans (B6_v0 m c o)
/-- Chunk 3's column slice of the transposed right factor. -/
theorem B7_sl (c : Dev nD) (o : TailArr (F := F) c) : B7 m c o (Proc.devRef .tc main_call0_v8)
    = extractStridedSlice S16x24576 ![0, 49152] (B1 m c (Proc.devRef .tc main_call0_v0)) slices_S16x100000_S16x24576_0_49152 := by
  rw [← B6_v0 m c o]
  show StableHlo.after hostOps3 (B6 m c o) (Proc.devRef .tc main_call0_v8) = _
  after_results
  rfl
/-- Chunk 3's output array is as launched when its region is entered: nothing before it writes it. -/
theorem B7_out (c : Dev nD) (o : TailArr (F := F) c) : B7 m c o (Proc.devRef .tc main_call0_v9) = m ((c : Thread nD τ).loc main_call0_v9) :=
  (B7_of m c o main_call0_v9 (by decide)).trans <| (B6_of m c o main_call0_v9 (by decide)).trans <| (B5_of m c o main_call0_v9 (by decide)).trans <| (B4_of m c o main_call0_v9 (by decide)).trans <| (B3_of m c o main_call0_v9 (by decide)).trans <| (B2_of m c o main_call0_v9 (by decide)).trans <| (B1_of m c main_call0_v9 (by decide)).trans rfl
/-- The arrays chunk 3's region touches do not depend on what the tail region left. -/
theorem indep3 (c : Dev nD) (o : TailArr (F := F) c) (w : Fin cfg3.W) :
    (dat3 (E3 m) c).A w = B7 m c o (Proc.devRef .tc (Pipeline.arrRef spec3 w)) := by
  rw [A_eq3]
  match w with
  | ⟨0, _⟩ => exact (B7_x m c (o₀ m c)).trans (B7_x m c o).symm
  | ⟨1, _⟩ => exact (B7_sl m c (o₀ m c)).trans (B7_sl m c o).symm
  | ⟨2, _⟩ => exact (B7_out m c (o₀ m c)).trans (B7_out m c o).symm
/-- After chunk 3's region the left factor and the transposed right factor are still as they were. -/
theorem B8_x (c : Dev nD) (o : TailArr (F := F) c) : B8 m c o (Proc.devRef .tc main_arg0) = m ((c : Thread nD τ).loc main_arg0) :=
  (B8_arr m c o 0).trans <| ((dat3 (E3 m) c).arrAt_in 0 rfl _).trans <| (A_eq3 (E3 m) c 0).trans (B7_x m c (o₀ m c))
theorem B8_v0 (c : Dev nD) (o : TailArr (F := F) c) : B8 m c o (Proc.devRef .tc main_call0_v0) = B1 m c (Proc.devRef .tc main_call0_v0) :=
  (B8_of m c o main_call0_v0 (by decide)).trans (B7_v0 m c o)

theorem B9_x (c : Dev nD) (o : TailArr (F := F) c) : B9 m c o (Proc.devRef .tc main_arg0) = m ((c : Thread nD τ).loc main_arg0) :=
  (B9_of m c o main_arg0 (by decide)).trans (B8_x m c o)
theorem B9_v0 (c : Dev nD) (o : TailArr (F := F) c) : B9 m c o (Proc.devRef .tc main_call0_v0) = B1 m c (Proc.devRef .tc main_call0_v0) :=
  (B9_of m c o main_call0_v0 (by decide)).trans (B8_v0 m c o)
/-- Chunk 4's column slice of the transposed right factor. -/
theorem B9_sl (c : Dev nD) (o : TailArr (F := F) c) : B9 m c o (Proc.devRef .tc main_call0_v11)
    = extractStridedSlice S16x24576 ![0, 73728] (B1 m c (Proc.devRef .tc main_call0_v0)) slices_S16x100000_S16x24576_0_73728 := by
  rw [← B8_v0 m c o]
  show StableHlo.after hostOps4 (B8 m c o) (Proc.devRef .tc main_call0_v11) = _
  after_results
  rfl
/-- Chunk 4's output array is as launched when its region is entered: nothing before it writes it. -/
theorem B9_out (c : Dev nD) (o : TailArr (F := F) c) : B9 m c o (Proc.devRef .tc main_call0_v12) = m ((c : Thread nD τ).loc main_call0_v12) :=
  (B9_of m c o main_call0_v12 (by decide)).trans <| (B8_of m c o main_call0_v12 (by decide)).trans <| (B7_of m c o main_call0_v12 (by decide)).trans <| (B6_of m c o main_call0_v12 (by decide)).trans <| (B5_of m c o main_call0_v12 (by decide)).trans <| (B4_of m c o main_call0_v12 (by decide)).trans <| (B3_of m c o main_call0_v12 (by decide)).trans <| (B2_of m c o main_call0_v12 (by decide)).trans <| (B1_of m c main_call0_v12 (by decide)).trans rfl
/-- The arrays chunk 4's region touches do not depend on what the tail region left. -/
theorem indep4 (c : Dev nD) (o : TailArr (F := F) c) (w : Fin cfg4.W) :
    (dat4 (E4 m) c).A w = B9 m c o (Proc.devRef .tc (Pipeline.arrRef spec4 w)) := by
  rw [A_eq4]
  match w with
  | ⟨0, _⟩ => exact (B9_x m c (o₀ m c)).trans (B9_x m c o).symm
  | ⟨1, _⟩ => exact (B9_sl m c (o₀ m c)).trans (B9_sl m c o).symm
  | ⟨2, _⟩ => exact (B9_out m c (o₀ m c)).trans (B9_out m c o).symm
/-- After chunk 4's region the left factor and the transposed right factor are still as they were. -/
theorem B10_x (c : Dev nD) (o : TailArr (F := F) c) : B10 m c o (Proc.devRef .tc main_arg0) = m ((c : Thread nD τ).loc main_arg0) :=
  (B10_arr m c o 0).trans <| ((dat4 (E4 m) c).arrAt_in 0 rfl _).trans <| (A_eq4 (E4 m) c 0).trans (B9_x m c (o₀ m c))
theorem B10_v0 (c : Dev nD) (o : TailArr (F := F) c) : B10 m c o (Proc.devRef .tc main_call0_v0) = B1 m c (Proc.devRef .tc main_call0_v0) :=
  (B10_of m c o main_call0_v0 (by decide)).trans (B9_v0 m c o)

theorem B11_x (c : Dev nD) (o : TailArr (F := F) c) : B11 m c o (Proc.devRef .tc main_arg0) = m ((c : Thread nD τ).loc main_arg0) :=
  (B11_of m c o main_arg0 (by decide)).trans (B10_x m c o)
theorem B11_v0 (c : Dev nD) (o : TailArr (F := F) c) : B11 m c o (Proc.devRef .tc main_call0_v0) = B1 m c (Proc.devRef .tc main_call0_v0) :=
  (B11_of m c o main_call0_v0 (by decide)).trans (B10_v0 m c o)
/-- Chunk 5's column slice of the transposed right factor. -/
theorem B11_sl (c : Dev nD) (o : TailArr (F := F) c) : B11 m c o (Proc.devRef .tc main_call0_v14)
    = extractStridedSlice S16x1664 ![0, 98304] (B1 m c (Proc.devRef .tc main_call0_v0)) slices_S16x100000_S16x1664_0_98304 := by
  rw [← B10_v0 m c o]
  show StableHlo.after hostOps5 (B10 m c o) (Proc.devRef .tc main_call0_v14) = _
  after_results
  rfl
/-- Chunk 5's output array is as launched when its region is entered: nothing before it writes it. -/
theorem B11_out (c : Dev nD) (o : TailArr (F := F) c) : B11 m c o (Proc.devRef .tc main_call0_v15) = m ((c : Thread nD τ).loc main_call0_v15) :=
  (B11_of m c o main_call0_v15 (by decide)).trans <| (B10_of m c o main_call0_v15 (by decide)).trans <| (B9_of m c o main_call0_v15 (by decide)).trans <| (B8_of m c o main_call0_v15 (by decide)).trans <| (B7_of m c o main_call0_v15 (by decide)).trans <| (B6_of m c o main_call0_v15 (by decide)).trans <| (B5_of m c o main_call0_v15 (by decide)).trans <| (B4_of m c o main_call0_v15 (by decide)).trans <| (B3_of m c o main_call0_v15 (by decide)).trans <| (B2_of m c o main_call0_v15 (by decide)).trans <| (B1_of m c main_call0_v15 (by decide)).trans rfl
/-- The arrays chunk 5's region touches do not depend on what the tail region left. -/
theorem indep5 (c : Dev nD) (o : TailArr (F := F) c) (w : Fin cfg5.W) :
    (dat5 (E5 m) c).A w = B11 m c o (Proc.devRef .tc (Pipeline.arrRef spec5 w)) := by
  rw [A_eq5]
  match w with
  | ⟨0, _⟩ => exact (B11_x m c (o₀ m c)).trans (B11_x m c o).symm
  | ⟨1, _⟩ => exact (B11_sl m c (o₀ m c)).trans (B11_sl m c o).symm
  | ⟨2, _⟩ => exact (B11_out m c (o₀ m c)).trans (B11_out m c o).symm
/-- After chunk 5's region the left factor and the transposed right factor are still as they were. -/
theorem B12_x (c : Dev nD) (o : TailArr (F := F) c) : B12 m c o (Proc.devRef .tc main_arg0) = m ((c : Thread nD τ).loc main_arg0) :=
  (B12_arr m c o 0).trans <| ((dat5 (E5 m) c).arrAt_in 0 rfl _).trans <| (A_eq5 (E5 m) c 0).trans (B11_x m c (o₀ m c))
theorem B12_v0 (c : Dev nD) (o : TailArr (F := F) c) : B12 m c o (Proc.devRef .tc main_call0_v0) = B1 m c (Proc.devRef .tc main_call0_v0) :=
  (B12_of m c o main_call0_v0 (by decide)).trans (B11_v0 m c o)

/-! ## The running result: each update stretch writes the previous running result with one chunk's array laid over
    its columns -/

/-- The update after chunk 1, as the stretch computes it from the buffers it reads. -/
theorem B5_upd (c : Dev nD) (o : TailArr (F := F) c) : ∃ s : Fin 2 → Int, (s 0 = 0 ∧ s 1 = 0) ∧
    B5 m c o (Proc.devRef .tc main_call0_v4) = Host.dynamicUpdateSlice (B4 m c o (Proc.devRef .tc main_call0_v1))
      (B4 m c o (Proc.devRef .tc main_call0_v3)) s updateFits_S1024x100000_S1024x24576 := by
  apply Exists.intro
  refine And.intro ?hs ?heq
  case heq =>
    show StableHlo.after hostOps2 (B4 m c o) (Proc.devRef .tc main_call0_v4) = _
    after_results
    rfl
  case hs =>
    constructor <;> rfl

/-- The running result after chunk 1: the one before it with chunk 1's array written at column 0. -/
theorem acc1 (c : Dev nD) (o : TailArr (F := F) c) : ∃ s : Fin 2 → Int, (s 0 = 0 ∧ s 1 = 0) ∧
    B5 m c o (Proc.devRef .tc main_call0_v4) = Host.dynamicUpdateSlice o
      ((dat1 (E1 m) c).arrAt 2 cfg1.N) s updateFits_S1024x100000_S1024x24576 := by
  obtain ⟨s, hs, h⟩ := B5_upd m c o
  have e1 : B4 m c o (Proc.devRef .tc main_call0_v1) = o :=
    (B4_of m c o main_call0_v1 (by decide)).trans ((B3_of m c o main_call0_v1 (by decide)).trans (B2_tail m c o))
  have e2 : B4 m c o (Proc.devRef .tc main_call0_v3) = (dat1 (E1 m) c).arrAt 2 cfg1.N := B4_arr m c o 2
  exact ⟨s, hs, by rw [h, e1, e2]⟩

/-- The update after chunk 2, as the stretch computes it from the buffers it reads. -/
theorem B7_upd (c : Dev nD) (o : TailArr (F := F) c) : ∃ s : Fin 2 → Int, (s 0 = 0 ∧ s 1 = 24576) ∧
    B7 m c o (Proc.devRef .tc main_call0_v7) = Host.dynamicUpdateSlice (B6 m c o (Proc.devRef .tc main_call0_v4))
      (B6 m c o (Proc.devRef .tc main_call0_v6)) s updateFits_S1024x100000_S1024x24576 := by
  apply Exists.intro
  refine And.intro ?hs ?heq
  case heq =>
    show StableHlo.after hostOps3 (B6 m c o) (Proc.devRef .tc main_call0_v7) = _
    after_results
    rfl
  case hs =>
    constructor <;> rfl

/-- The running result after chunk 2: the one before it with chunk 2's array written at column 24576. -/
theorem acc2 (c : Dev nD) (o : TailArr (F := F) c) : ∃ s : Fin 2 → Int, (s 0 = 0 ∧ s 1 = 24576) ∧
    B7 m c o (Proc.devRef .tc main_call0_v7) = Host.dynamicUpdateSlice (B5 m c o (Proc.devRef .tc main_call0_v4))
      ((dat2 (E2 m) c).arrAt 2 cfg2.N) s updateFits_S1024x100000_S1024x24576 := by
  obtain ⟨s, hs, h⟩ := B7_upd m c o
  have e1 : B6 m c o (Proc.devRef .tc main_call0_v4) = B5 m c o (Proc.devRef .tc main_call0_v4) :=
    B6_of m c o main_call0_v4 (by decide)
  have e2 : B6 m c o (Proc.devRef .tc main_call0_v6) = (dat2 (E2 m) c).arrAt 2 cfg2.N := B6_arr m c o 2
  exact ⟨s, hs, by rw [h, e1, e2]⟩

/-- The update after chunk 3, as the stretch computes it from the buffers it reads. -/
theorem B9_upd (c : Dev nD) (o : TailArr (F := F) c) : ∃ s : Fin 2 → Int, (s 0 = 0 ∧ s 1 = 49152) ∧
    B9 m c o (Proc.devRef .tc main_call0_v10) = Host.dynamicUpdateSlice (B8 m c o (Proc.devRef .tc main_call0_v7))
      (B8 m c o (Proc.devRef .tc main_call0_v9)) s updateFits_S1024x100000_S1024x24576 := by
  apply Exists.intro
  refine And.intro ?hs ?heq
  case heq =>
    show StableHlo.after hostOps4 (B8 m c o) (Proc.devRef .tc main_call0_v10) = _
    after_results
    rfl
  case hs =>
    constructor <;> rfl

/-- The running result after chunk 3: the one before it with chunk 3's array written at column 49152. -/
theorem acc3 (c : Dev nD) (o : TailArr (F := F) c) : ∃ s : Fin 2 → Int, (s 0 = 0 ∧ s 1 = 49152) ∧
    B9 m c o (Proc.devRef .tc main_call0_v10) = Host.dynamicUpdateSlice (B7 m c o (Proc.devRef .tc main_call0_v7))
      ((dat3 (E3 m) c).arrAt 2 cfg3.N) s updateFits_S1024x100000_S1024x24576 := by
  obtain ⟨s, hs, h⟩ := B9_upd m c o
  have e1 : B8 m c o (Proc.devRef .tc main_call0_v7) = B7 m c o (Proc.devRef .tc main_call0_v7) :=
    B8_of m c o main_call0_v7 (by decide)
  have e2 : B8 m c o (Proc.devRef .tc main_call0_v9) = (dat3 (E3 m) c).arrAt 2 cfg3.N := B8_arr m c o 2
  exact ⟨s, hs, by rw [h, e1, e2]⟩

/-- The update after chunk 4, as the stretch computes it from the buffers it reads. -/
theorem B11_upd (c : Dev nD) (o : TailArr (F := F) c) : ∃ s : Fin 2 → Int, (s 0 = 0 ∧ s 1 = 73728) ∧
    B11 m c o (Proc.devRef .tc main_call0_v13) = Host.dynamicUpdateSlice (B10 m c o (Proc.devRef .tc main_call0_v10))
      (B10 m c o (Proc.devRef .tc main_call0_v12)) s updateFits_S1024x100000_S1024x24576 := by
  apply Exists.intro
  refine And.intro ?hs ?heq
  case heq =>
    show StableHlo.after hostOps5 (B10 m c o) (Proc.devRef .tc main_call0_v13) = _
    after_results
    rfl
  case hs =>
    constructor <;> rfl

/-- The running result after chunk 4: the one before it with chunk 4's array written at column 73728. -/
theorem acc4 (c : Dev nD) (o : TailArr (F := F) c) : ∃ s : Fin 2 → Int, (s 0 = 0 ∧ s 1 = 73728) ∧
    B11 m c o (Proc.devRef .tc main_call0_v13) = Host.dynamicUpdateSlice (B9 m c o (Proc.devRef .tc main_call0_v10))
      ((dat4 (E4 m) c).arrAt 2 cfg4.N) s updateFits_S1024x100000_S1024x24576 := by
  obtain ⟨s, hs, h⟩ := B11_upd m c o
  have e1 : B10 m c o (Proc.devRef .tc main_call0_v10) = B9 m c o (Proc.devRef .tc main_call0_v10) :=
    B10_of m c o main_call0_v10 (by decide)
  have e2 : B10 m c o (Proc.devRef .tc main_call0_v12) = (dat4 (E4 m) c).arrAt 2 cfg4.N := B10_arr m c o 2
  exact ⟨s, hs, by rw [h, e1, e2]⟩

/-- The update after chunk 5, as the stretch computes it from the buffers it reads. -/
theorem B13_upd (c : Dev nD) (o : TailArr (F := F) c) : ∃ s : Fin 2 → Int, (s 0 = 0 ∧ s 1 = 98304) ∧
    B13 m c o (Proc.devRef .tc main_v0) = Host.dynamicUpdateSlice (B12 m c o (Proc.devRef .tc main_call0_v13))
      (B12 m c o (Proc.devRef .tc main_call0_v15)) s updateFits_S1024x100000_S1024x1664 := by
  apply Exists.intro
  refine And.intro ?hs ?heq
  case heq =>
    show StableHlo.after hostOps6 (B12 m c o) (Proc.devRef .tc main_v0) = _
    after_results
    rfl
  case hs =>
    constructor <;> rfl

/-- The running result after chunk 5: the one before it with chunk 5's array written at column 98304. -/
theorem acc5 (c : Dev nD) (o : TailArr (F := F) c) : ∃ s : Fin 2 → Int, (s 0 = 0 ∧ s 1 = 98304) ∧
    B13 m c o (Proc.devRef .tc main_v0) = Host.dynamicUpdateSlice (B11 m c o (Proc.devRef .tc main_call0_v13))
      ((dat5 (E5 m) c).arrAt 2 cfg5.N) s updateFits_S1024x100000_S1024x1664 := by
  obtain ⟨s, hs, h⟩ := B13_upd m c o
  have e1 : B12 m c o (Proc.devRef .tc main_call0_v13) = B11 m c o (Proc.devRef .tc main_call0_v13) :=
    B12_of m c o main_call0_v13 (by decide)
  have e2 : B12 m c o (Proc.devRef .tc main_call0_v15) = (dat5 (E5 m) c).arrAt 2 cfg5.N := B12_arr m c o 2
  exact ⟨s, hs, by rw [h, e1, e2]⟩

end Cert.Kernel.Tiles

end
-- ==== Proof.BitsSide.Run.lean ====
/-
  The run of the whole program: @main is thirteen items — the transpose; the tail region; and five times a column
  slice (with, from the second on, the update of the running result by the previous chunk), a column chunk's region —
  then the last update. Each host stretch folds the buffers' contents forward; each region replaces its arrays by what
  its write-backs leave. What the tail region leaves in its output array is constrained, not named, so every thread
  state after it is stated for SOME such contents. The conclusion reads every unscoped buffer off the last contents.
-/
import proofs.«177054_g53008486367263_cont_8to1_c_744_45_alg».proof.Proof.BitsSide.Fold

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: thirteen items, seven host stretches and six regions

## The proof data family and the thread state -/

/-- No pipeline prefetches a table. -/
abbrev admT : (p : Fin 6) → (pcfgs (F := F) p).Adm := fun p => (cfgs p).toPCfg_adm

/-- Every pipeline's data: the tail region's relational data at its entry contents; each column chunk's named data,
    at the entry contents that do not mention what the tail leaves, read relationally. -/
def rdats : (p : Fin 6) → (c : Dev nD) → Pipeline.RDat τ (Elt F) Unit ℕ (UR sig nD τ) ℕ (Pipeline.pin (pcfgs (F := F)) admT p) c
  | ⟨0, _⟩ => fun c => tailR (R1 m) c
  | ⟨1, _⟩ => fun c => (dat1 (E1 m) c).toR
  | ⟨2, _⟩ => fun c => (dat2 (E2 m) c).toR
  | ⟨3, _⟩ => fun c => (dat3 (E3 m) c).toR
  | ⟨4, _⟩ => fun c => (dat4 (E4 m) c).toR
  | ⟨5, _⟩ => fun c => (dat5 (E5 m) c).toR

abbrev 𝒱T : Variants := Variants.none
abbrev LT : GSem nD τ sig → Finset Unit := fun _ => ∅
abbrev lvT : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-- The thread state between two items after the tail region: every unscoped buffer at the fold's contents for SOME
    contents `o` of the tail's array that the data allow, and the rest. -/
def stEx (B : (c : Dev nD) → TailArr (F := F) c → Valuation τ sig (Elt F)) (c : Dev nD) : sProp 𝕄 :=
  iprop(∃ o, ⌜TailOut m c o⌝ ∗ StableHlo.held (c : Thread nD τ) (Pipeline.ucRefs τ sig) (B c o) ∗ Rr c)

/-- The first host stretch runs from the launch contents. -/
abbrev hseg0 : Pipeline.HostSeg (Name := ℕ) (U := UR sig nD τ) (pcfgs (F := F)) defs₀ 𝒱T LT lvT :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) Rr

set_option backward.isDefEq.respectTransparency.types false in
/-- A host stretch after the tail region: whatever the tail left, the stretch folds over it. -/
def hsegEx (ops : List (HloOp τ sig (Elt F))) (hsub : ops.Forall fun op => op.bufs ⊆ StableHlo.tcRefs τ sig)
    (hfresh : ops.Forall fun op => op.fresh = ∅) (B : (c : Dev nD) → TailArr (F := F) c → Valuation τ sig (Elt F)) :
    Pipeline.HostSeg (Name := ℕ) (U := UR sig nD τ) (pcfgs (F := F)) defs₀ 𝒱T LT lvT where
  prog := StableHlo.seq ops
  pre c := stEx m B c
  post c := stEx m (fun c o => StableHlo.after ops (B c o)) c
  run c {β} k K := by
    unfold stEx
    iintro ⟨Hk, Hbd, ⟨%o, %ho, Hh, HR⟩, -⟩
    iapply (StableHlo.wp_seq (defs := Pipeline.defs (pcfgs (F := F)) defs₀) (Variants.lift 𝒱T) none Set.univ c (Pipeline.ucRefs τ sig) k (K := K) ops
      (fun op h => Pipeline.sub_ucRefs op ((List.forall_iff_forall_mem.mp hsub) op h))
      (fun op h => (List.forall_iff_forall_mem.mp hfresh) op h) (B c o)) $$ [Hbd Hh]
    · isplitl [Hbd] <;> iassumption
    iintro ⟨Hbd, Hh⟩
    iapply Hk
    isplitl [Hbd]; · iexact Hbd
    iexists o
    isplitr; · ipureintro; exact ho
    isplitl [Hh] <;> iassumption

/-- Pipeline `p`'s arrays at contents `Fw` and the unscoped rest at `V` are the core's unscoped buffers at any
    valuation `V'` that has the arrays at `Fw` and agrees with `V` off them. -/
theorem rejoin {p : Fin 6} (hw : Pipeline.WinFacts (Pipeline.pin (pcfgs (F := F)) admT p).spec)
    (harr : ∀ w, ((Pipeline.pin (pcfgs (F := F)) admT p).spec w).arr.IsWhole) (c : Dev nD)
    (hshare : ∀ w, (rdats m p c).share w = fullShare)
    (V V' : (b : Ref sig .tc) → Buf (Elt F) ((c : Thread nD τ).loc b))
    (Fw : (w : Fin (Pipeline.pin (pcfgs (F := F)) admT p).W) → Buf (Elt F) (((Pipeline.pin (pcfgs (F := F)) admT p).spec w).arr.view.loc (c : Thread nD τ)))
    (hF : ∀ w, Fw w = V' (Pipeline.arrRef (Pipeline.pin (pcfgs (F := F)) admT p).spec w))
    (hrest : ∀ b, b ∉ Finset.univ.image (Pipeline.arrRef (Pipeline.pin (pcfgs (F := F)) admT p).spec) → V' b = V b) :
    iprop((rdats m p c).arrays Fw ∗ Pipeline.unscopedRest (Pipeline.pin (pcfgs (F := F)) admT p).spec c V)
      ⊢ (unscopedBufs c V' : sProp 𝕄) := by
  rw [Pipeline.unscopedBufs_split (Pipeline.pin (pcfgs (F := F)) admT) p hw.arr_unscoped hw.arr_inj c V',
    Pipeline.RDat.arrays_eq (pcfgs (F := F)) admT (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## The regions as segments -/

/-- Every data's arrays are held at the full share. -/
theorem tailR_share (c : Dev nD) (w : Fin cfg0.W) : (tailR (R1 m) c).share w = fullShare := by
  unfold Pipeline.RDat.share; split <;> rfl

/-- The tail region's arrays when it ends, read off the fold at the contents `o` its output array then holds. -/
def tailF (c : Dev nD) (o : TailArr (F := F) c) : (w : Fin cfg0.W) → Buf (Elt F) ((cfg0.win w).arr.view.loc (c : Thread nD τ)) :=
  fun w => B2 m c o (Proc.devRef .tc (Pipeline.arrRef spec0 w))

set_option backward.isDefEq.respectTransparency.types false in
/-- THE TAIL REGION: entered from every unscoped buffer at the contents after the transpose, left at those with its
    output array at SOME contents the data allow. -/
def regTail : Pipeline.RDat.RegionSeg (pcfgs (F := F)) admT (rdats m) () defs₀ 𝒱T LT lvT 0 where
  win := launch0.win.to₀
  block_pos := launch0.block_pos
  stage_whole := launch0.stage_whole
  K := PEmpty
  osem k := k.elim
  ho := Pipeline.OwnSemFacts.none _
  hbody c := tail_obligation (R1 m) c
  hwaits := Pipeline.RDat.hwaits_of_owed_zero _ _ _ _ LT lvT 0 fun _ _ => rfl
  pre c := iprop(StableHlo.held (c : Thread nD τ) (Pipeline.ucRefs τ sig) (B1 m c) ∗ Rr c)
  post c := stEx m (B2 m) c
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.RDat.arrays_of_unscopedBufs (p := 0) (pcfgs (F := F)) admT (rdats m) launch0.win launch0.arr_whole c
      (tailR_share m c) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hA0 : (tailR (R1 m) c).ArrAt 0 cfg0.N = fun G => G = (tailR (R1 m) c).A 0 := (tailR (R1 m) c).ArrAt_in 0 rfl _
    have hA1 : (tailR (R1 m) c).ArrAt 1 cfg0.N = fun G => G = (tailR (R1 m) c).A 1 := (tailR (R1 m) c).ArrAt_in 1 rfl _
    show iprop((tailR (R1 m) c).arraysAt cfg0.N ∗ (tailR (R1 m) c).owesAt () (Fin.last cfg0.N) ∗ (∃ r, prngReg c r)
      ∗ Pipeline.unscopedRest spec0 c (R1 m c)) ⊢ _
    unfold Pipeline.RDat.arraysAt
    rw [bigSep_W0]
    iintro ⟨⟨⟨%F0, %h0, A0⟩, ⟨%F1, %h1, A1⟩, ⟨%F2, %h2, A2⟩⟩, HO, HY, Hrest⟩
    rw [hA0] at h0; rw [hA1] at h1
    have e0 : F0 = tailF m c F2 0 := h0.trans (B2_of m c F2 main_arg0 (by decide)).symm
    have e1 : F1 = tailF m c F2 1 := h1.trans (B2_of m c F2 main_call0_v0 (by decide)).symm
    have e2 : F2 = tailF m c F2 2 := (B2_tail m c F2).symm
    have hjoin := rejoin m (p := 0) launch0.win launch0.arr_whole c (tailR_share m c) (R1 m c) (fun b => B2 m c F2 b)
      (tailF m c F2) (fun _ => rfl) (fun b hb => B2_of m c F2 b fun e => hb (Finset.mem_image.mpr ⟨2, Finset.mem_univ _, e.symm⟩))
    rw [Pipeline.unscopedBufs_held] at hjoin
    have harrs : iprop(((cfg0.win 0).arr.view.loc (c : Thread nD τ) ↦[(cfg0.win 0).arr.view.set]{(tailR (R1 m) c).share 0} F0)
        ∗ ((cfg0.win 1).arr.view.loc (c : Thread nD τ) ↦[(cfg0.win 1).arr.view.set]{(tailR (R1 m) c).share 1} F1)
        ∗ ((cfg0.win 2).arr.view.loc (c : Thread nD τ) ↦[(cfg0.win 2).arr.view.set]{(tailR (R1 m) c).share 2} F2))
        ⊢ ((tailR (R1 m) c).arrays (tailF m c F2) : sProp 𝕄) := by
      unfold Pipeline.RDat.arrays
      rw [bigSep_W0, ← e0, ← e1, ← e2]
    imodintro
    unfold stEx
    iexists F2
    isplitr; · ipureintro; exact h2
    isplitl [A0 A1 A2 Hrest]
    · iapply hjoin
      isplitr [Hrest]
      · iapply harrs
        isplitl [A0]; · iexact A0
        isplitl [A1]; · iexact A1
        iexact A2
      · iexact Hrest
    isplitl [HY]; · iexact HY
    unfold Pipeline.RDat.owesAt Pipeline.owesWithin
    icases HO with ⟨%W, -, HO⟩; iexists W; iexact HO

theorem chunk1_share (c : Dev nD) (w : Fin cfg1.W) : (rdats m 1 c).share w = fullShare :=
  (dat1 (E1 m) c).share_full (fun _ => rfl) w

set_option backward.isDefEq.respectTransparency.types false in
/-- COLUMN CHUNK 1's REGION: entered from the fold's contents before it, at whatever the tail left, and left at
    the fold's contents after it, at the same. -/
def regChunk1 : Pipeline.RDat.RegionSeg (pcfgs (F := F)) admT (rdats m) () defs₀ 𝒱T LT lvT 1 where
  win := launch1.win.to₀
  block_pos := launch1.block_pos
  stage_whole := launch1.stage_whole
  K := PEmpty
  osem k := k.elim
  ho := Pipeline.OwnSemFacts.none _
  hbody c := (body_obligation1 (E1 m) c).toR
  hwaits := Pipeline.RDat.hwaits_of_owed_zero _ _ _ _ LT lvT 1 fun _ _ => rfl
  pre c := stEx m (B3 m) c
  post c := stEx m (B4 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec1 c (fun b => B3 m c o b))
  hentry c := by
    rw [Pipeline.ownSems0_none]
    unfold stEx
    iintro ⟨⟨%o, %ho, Hub, Hp, HO⟩, -, -⟩
    have hsplit := Pipeline.RDat.arrays_of_unscopedBufs (p := 1) (pcfgs (F := F)) admT (rdats m) launch1.win launch1.arr_whole c
      (chunk1_share m c) (fun b => B3 m c o b) (indep1 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hpost : ((dat1 (E1 m) c).toR.arraysAt cfg1.N : sProp 𝕄) ⊢ (rdats m 1 c).arrays ((dat1 (E1 m) c).arrAt · cfg1.N) :=
      (dat1 (E1 m) c).toR_arraysAt_post cfg1.N
    show iprop((dat1 (E1 m) c).toR.arraysAt cfg1.N ∗ (dat1 (E1 m) c).toR.owesAt () (Fin.last cfg1.N) ∗ _ ∗ _) ⊢ _
    iintro ⟨Ha, HO, HY, ⟨%o, %ho, Hrest⟩⟩
    have hjoin := rejoin m (p := 1) launch1.win launch1.arr_whole c (chunk1_share m c) (fun b => B3 m c o b) (fun b => B4 m c o b)
      ((dat1 (E1 m) c).arrAt · cfg1.N) (fun w => (B4_arr m c o w).symm)
      (fun b hb => B4_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

theorem chunk2_share (c : Dev nD) (w : Fin cfg2.W) : (rdats m 2 c).share w = fullShare :=
  (dat2 (E2 m) c).share_full (fun _ => rfl) w

set_option backward.isDefEq.respectTransparency.types false in
/-- COLUMN CHUNK 2's REGION: entered from the fold's contents before it, at whatever the tail left, and left at
    the fold's contents after it, at the same. -/
def regChunk2 : Pipeline.RDat.RegionSeg (pcfgs (F := F)) admT (rdats m) () defs₀ 𝒱T LT lvT 2 where
  win := launch2.win.to₀
  block_pos := launch2.block_pos
  stage_whole := launch2.stage_whole
  K := PEmpty
  osem k := k.elim
  ho := Pipeline.OwnSemFacts.none _
  hbody c := (body_obligation2 (E2 m) c).toR
  hwaits := Pipeline.RDat.hwaits_of_owed_zero _ _ _ _ LT lvT 2 fun _ _ => rfl
  pre c := stEx m (B5 m) c
  post c := stEx m (B6 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec2 c (fun b => B5 m c o b))
  hentry c := by
    rw [Pipeline.ownSems0_none]
    unfold stEx
    iintro ⟨⟨%o, %ho, Hub, Hp, HO⟩, -, -⟩
    have hsplit := Pipeline.RDat.arrays_of_unscopedBufs (p := 2) (pcfgs (F := F)) admT (rdats m) launch2.win launch2.arr_whole c
      (chunk2_share m c) (fun b => B5 m c o b) (indep2 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hpost : ((dat2 (E2 m) c).toR.arraysAt cfg2.N : sProp 𝕄) ⊢ (rdats m 2 c).arrays ((dat2 (E2 m) c).arrAt · cfg2.N) :=
      (dat2 (E2 m) c).toR_arraysAt_post cfg2.N
    show iprop((dat2 (E2 m) c).toR.arraysAt cfg2.N ∗ (dat2 (E2 m) c).toR.owesAt () (Fin.last cfg2.N) ∗ _ ∗ _) ⊢ _
    iintro ⟨Ha, HO, HY, ⟨%o, %ho, Hrest⟩⟩
    have hjoin := rejoin m (p := 2) launch2.win launch2.arr_whole c (chunk2_share m c) (fun b => B5 m c o b) (fun b => B6 m c o b)
      ((dat2 (E2 m) c).arrAt · cfg2.N) (fun w => (B6_arr m c o w).symm)
      (fun b hb => B6_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

theorem chunk3_share (c : Dev nD) (w : Fin cfg3.W) : (rdats m 3 c).share w = fullShare :=
  (dat3 (E3 m) c).share_full (fun _ => rfl) w

set_option backward.isDefEq.respectTransparency.types false in
/-- COLUMN CHUNK 3's REGION: entered from the fold's contents before it, at whatever the tail left, and left at
    the fold's contents after it, at the same. -/
def regChunk3 : Pipeline.RDat.RegionSeg (pcfgs (F := F)) admT (rdats m) () defs₀ 𝒱T LT lvT 3 where
  win := launch3.win.to₀
  block_pos := launch3.block_pos
  stage_whole := launch3.stage_whole
  K := PEmpty
  osem k := k.elim
  ho := Pipeline.OwnSemFacts.none _
  hbody c := (body_obligation3 (E3 m) c).toR
  hwaits := Pipeline.RDat.hwaits_of_owed_zero _ _ _ _ LT lvT 3 fun _ _ => rfl
  pre c := stEx m (B7 m) c
  post c := stEx m (B8 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec3 c (fun b => B7 m c o b))
  hentry c := by
    rw [Pipeline.ownSems0_none]
    unfold stEx
    iintro ⟨⟨%o, %ho, Hub, Hp, HO⟩, -, -⟩
    have hsplit := Pipeline.RDat.arrays_of_unscopedBufs (p := 3) (pcfgs (F := F)) admT (rdats m) launch3.win launch3.arr_whole c
      (chunk3_share m c) (fun b => B7 m c o b) (indep3 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    have hpost : ((dat3 (E3 m) c).toR.arraysAt cfg3.N : sProp 𝕄) ⊢ (rdats m 3 c).arrays ((dat3 (E3 m) c).arrAt · cfg3.N) :=
      (dat3 (E3 m) c).toR_arraysAt_post cfg3.N
    show iprop((dat3 (E3 m) c).toR.arraysAt cfg3.N ∗ (dat3 (E3 m) c).toR.owesAt () (Fin.last cfg3.N) ∗ _ ∗ _) ⊢ _
    iintro ⟨Ha, HO, HY, ⟨%o, %ho, Hrest⟩⟩
    have hjoin := rejoin m (p := 3) launch3.win launch3.arr_whole c (chunk3_share m c) (fun b => B7 m c o b) (fun b => B8 m c o b)
      ((dat3 (E3 m) c).arrAt · cfg3.N) (fun w => (B8_arr m c o w).symm)
      (fun b hb => B8_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

theorem chunk4_share (c : Dev nD) (w : Fin cfg4.W) : (rdats m 4 c).share w = fullShare :=
  (dat4 (E4 m) c).share_full (fun _ => rfl) w

set_option backward.isDefEq.respectTransparency.types false in
/-- COLUMN CHUNK 4's REGION: entered from the fold's contents before it, at whatever the tail left, and left at
    the fold's contents after it, at the same. -/
def regChunk4 : Pipeline.RDat.RegionSeg (pcfgs (F := F)) admT (rdats m) () defs₀ 𝒱T LT lvT 4 where
  win := launch4.win.to₀
  block_pos := launch4.block_pos
  stage_whole := launch4.stage_whole
  K := PEmpty
  osem k := k.elim
  ho := Pipeline.OwnSemFacts.none _
  hbody c := (body_obligation4 (E4 m) c).toR
  hwaits := Pipeline.RDat.hwaits_of_owed_zero _ _ _ _ LT lvT 4 fun _ _ => rfl
  pre c := stEx m (B9 m) c
  post c := stEx m (B10 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec4 c (fun b => B9 m c o b))
  hentry c := by
    rw [Pipeline.ownSems0_none]
    unfold stEx
    iintro ⟨⟨%o, %ho, Hub, Hp, HO⟩, -, -⟩
    have hsplit := Pipeline.RDat.arrays_of_unscopedBufs (p := 4) (pcfgs (F := F)) admT (rdats m) launch4.win launch4.arr_whole c
      (chunk4_share m c) (fun b => B9 m c o b) (indep4 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (rdats m 4 c).Φ (Fin.last _) = Pipeline.ΦA spec4 c from rfl]; unfold Pipeline.ΦA
    iintro ⟨Hr, Hp⟩
    isplitl [Hp]; · iexact Hp
    isplitr; · iempintro
    iexact Hr
  hexit c := by
    have hpost : ((dat4 (E4 m) c).toR.arraysAt cfg4.N : sProp 𝕄) ⊢ (rdats m 4 c).arrays ((dat4 (E4 m) c).arrAt · cfg4.N) :=
      (dat4 (E4 m) c).toR_arraysAt_post cfg4.N
    show iprop((dat4 (E4 m) c).toR.arraysAt cfg4.N ∗ (dat4 (E4 m) c).toR.owesAt () (Fin.last cfg4.N) ∗ _ ∗ _) ⊢ _
    iintro ⟨Ha, HO, HY, ⟨%o, %ho, Hrest⟩⟩
    have hjoin := rejoin m (p := 4) launch4.win launch4.arr_whole c (chunk4_share m c) (fun b => B9 m c o b) (fun b => B10 m c o b)
      ((dat4 (E4 m) c).arrAt · cfg4.N) (fun w => (B10_arr m c o w).symm)
      (fun b hb => B10_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

theorem chunk5_share (c : Dev nD) (w : Fin cfg5.W) : (rdats m 5 c).share w = fullShare :=
  (dat5 (E5 m) c).share_full (fun _ => rfl) w

set_option backward.isDefEq.respectTransparency.types false in
/-- COLUMN CHUNK 5's REGION: entered from the fold's contents before it, at whatever the tail left, and left at
    the fold's contents after it, at the same. -/
def regChunk5 : Pipeline.RDat.RegionSeg (pcfgs (F := F)) admT (rdats m) () defs₀ 𝒱T LT lvT 5 where
  win := launch5.win.to₀
  block_pos := launch5.block_pos
  stage_whole := launch5.stage_whole
  K := PEmpty
  osem k := k.elim
  ho := Pipeline.OwnSemFacts.none _
  hbody c := (body_obligation5 (E5 m) c).toR
  hwaits := Pipeline.RDat.hwaits_of_owed_zero _ _ _ _ LT lvT 5 fun _ _ => rfl
  pre c := stEx m (B11 m) c
  post c := stEx m (B12 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec5 c (fun b => B11 m c o b))
  hentry c := by
    rw [Pipeline.ownSems0_none]
    unfold stEx
    iintro ⟨⟨%o, %ho, Hub, Hp, HO⟩, -, -⟩
    have hsplit := Pipeline.RDat.arrays_of_unscopedBufs (p := 5) (pcfgs (F := F)) admT (rdats m) launch5.win launch5.arr_whole c
      (chunk5_share m c) (fun b => B11 m c o b) (indep5 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (rdats m 5 c).Φ (Fin.last _) = Pipeline.ΦA spec5 c from rfl]; unfold Pipeline.ΦA
    iintro ⟨Hr, Hp⟩
    isplitl [Hp]; · iexact Hp
    isplitr; · iempintro
    iexact Hr
  hexit c := by
    have hpost : ((dat5 (E5 m) c).toR.arraysAt cfg5.N : sProp 𝕄) ⊢ (rdats m 5 c).arrays ((dat5 (E5 m) c).arrAt · cfg5.N) :=
      (dat5 (E5 m) c).toR_arraysAt_post cfg5.N
    show iprop((dat5 (E5 m) c).toR.arraysAt cfg5.N ∗ (dat5 (E5 m) c).toR.owesAt () (Fin.last cfg5.N) ∗ _ ∗ _) ⊢ _
    iintro ⟨Ha, HO, HY, ⟨%o, %ho, Hrest⟩⟩
    have hjoin := rejoin m (p := 5) launch5.win launch5.arr_whole c (chunk5_share m c) (fun b => B11 m c o b) (fun b => B12 m c o b)
      ((dat5 (E5 m) c).arrAt · cfg5.N) (fun w => (B12_arr m c o w).symm)
      (fun b hb => B12_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

/-! ## @main as segments, and the launch -/

/-- @main's thirteen items in order. -/
abbrev segsT : List (Pipeline.RDat.Seg (pcfgs (F := F)) admT (rdats m) () defs₀ 𝒱T LT lvT) :=
  [ .host (hseg0 m),
    .region (regTail m),
    .host (hsegEx m hostOps1 hostOps1_sub hostOps1_fresh (B2 m)),
    .region (regChunk1 m),
    .host (hsegEx m hostOps2 hostOps2_sub hostOps2_fresh (B4 m)),
    .region (regChunk2 m),
    .host (hsegEx m hostOps3 hostOps3_sub hostOps3_fresh (B6 m)),
    .region (regChunk3 m),
    .host (hsegEx m hostOps4 hostOps4_sub hostOps4_fresh (B8 m)),
    .region (regChunk4 m),
    .host (hsegEx m hostOps5 hostOps5_sub hostOps5_fresh (B10 m)),
    .region (regChunk5 m),
    .host (hsegEx m hostOps6 hostOps6_sub hostOps6_fresh (B12 m)) ]

/-- @main is the run of the segments. -/
theorem main_run (c : Dev nD) : main (F := F) c = Pipeline.RDat.Seg.run (segsT m) := (main_chain c).trans (by chain_rfl)

/-- The last thread state without the dues: every unscoped buffer at the last contents of the fold, for some
    contents of the tail's array that the data allow, and the generator register at some state. -/
abbrev TnT (c : Dev nD) : sProp 𝕄 :=
  iprop(∃ o, ⌜TailOut m c o⌝ ∗ StableHlo.held (c : Thread nD τ) (Pipeline.ucRefs τ sig) (B13 m c o) ∗ ∃ r, prngReg c r)

set_option backward.isDefEq.respectTransparency.types false in
/-- THE RUN: at the compiled mesh, from any memory with zero counters, every weakly fair execution of @main on the
    TensorCores terminates, nothing faulting, and on every core the final memory holds every unscoped buffer at the
    fold's last contents, for some contents of the tail's array that the data allow. -/
theorem run : θ_run defs (onTc (τ := τ) (main (F := F))) ⟨m, fun _ => 0, ρ⟩ (fun r => ∀ c : Dev nD,
      ∃ o, TailOut m c o ∧ ∀ b ∈ Pipeline.ucRefs τ sig, r.2.mem (((c : Thread nD τ)).1, b) = B13 m c o b) :=
  Pipeline.RDat.θ_run_regions_kit (pcfgs (F := F)) admT (rdats m) () cellOf_inj emb₁ defs₀ 𝒱T LT lvT m ρ main (segsT m)
    (fun c Q => by rw [main_run m c])
    (by simp only [segsT, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := TnT m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show stEx m (B13 m) c ⊢ _
        unfold stEx
        iintro ⟨%o, %ho, Hh, Hp, HO⟩
        isplitr [HO]
        · iexists o; isplitr; · ipureintro; exact ho
          isplitl [Hh]; · iexact Hh
          iexact Hp
        iexact HO⟩)
    (hinit := by
      refine Pipeline.initEach LT lvT fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∃ o, TailOut m c o ∧ ∀ b ∈ Pipeline.ucRefs τ sig, s.mem (((c : Thread nD τ)).1, b) = B13 m c o b)
    (hfin := fun c s' => by
      iintro ⟨⟨%o, %ho, Hh, -⟩, HSI⟩
      unfold StableHlo.held
      ihave Hr := (pointsTo_read_all (Pipeline.ucRefs τ sig) (fun b => (((c : Thread nD τ)).1, b)) (B13 m c o) s') $$ [Hh HSI]
      · isplitl [Hh] <;> iassumption
      icases Hr with ⟨%h, HSI⟩
      imodintro
      isplitr
      · ipureintro; exact ⟨o, ho, h⟩
      · iexact HSI)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Tiles

end
-- ==== Proof.BitsSide.Frames.lean ====
/-
  The frame claim, read off the run: no host stretch writes an argument array and no region may change one (the left
  factor is an input window of every region; the right factor is read only by the transpose), so the fold's last
  contents at the two arguments are the launch contents.
-/
import proofs.«177054_g53008486367263_cont_8to1_c_744_45_alg».proof.Proof.BitsSide.Run

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The left factor ends as launched. -/
theorem B13_x (c : Dev nD) (o : TailArr (F := F) c) : B13 m c o (Proc.devRef .tc main_arg0) = m ((c : Thread nD τ).loc main_arg0) :=
  (B13_of m c o main_arg0 (by decide)).trans (B12_x m c o)

/-- The right factor ends as launched. -/
theorem B13_y (c : Dev nD) (o : TailArr (F := F) c) : B13 m c o (Proc.devRef .tc main_arg1) = m ((c : Thread nD τ).loc main_arg1) :=
  (B13_of m c o main_arg1 (by decide)).trans <| (B12_of m c o main_arg1 (by decide)).trans <| (B11_of m c o main_arg1 (by decide)).trans <| (B10_of m c o main_arg1 (by decide)).trans <| (B9_of m c o main_arg1 (by decide)).trans <| (B8_of m c o main_arg1 (by decide)).trans <| (B7_of m c o main_arg1 (by decide)).trans <| (B6_of m c o main_arg1 (by decide)).trans <| (B5_of m c o main_arg1 (by decide)).trans <| (B4_of m c o main_arg1 (by decide)).trans <| (B3_of m c o main_arg1 (by decide)).trans <| (B2_of m c o main_arg1 (by decide)).trans <| (B1_of m c main_arg1 (by decide)).trans rfl

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨o, -, hb⟩ := h c
    exact ⟨(hb _ (mem_uc main_arg0 (by decide))).trans (B13_x m c o),
      (hb _ (mem_uc main_arg1 (by decide))).trans (B13_y m c o)⟩) (run m ρ)

end Cert.Kernel.Tiles

end
-- ==== Proof.IdealSide.Tail.lean ====
/-
  The tail region of the product: one grid point, whose body multiplies the whole 1024 × 16 left factor by the 16 × 128
  column block of the transposed right factor that starts at column 99968 — of which only the first 32 columns lie
  inside the 100000-column array — divides by the temperature, and stores the 1024 × 128 block, whose first 32 columns
  the write-back lands in the output array. This module proves the body's triple and the region's body obligation,
  for any float values, over data that constrain the staging contents without naming the columns past the array's end.
-/
import proofs.«177054_g53008486367263_cont_8to1_c_744_45_alg».proof.Proof.Gen.KernelIdeal.Launch
import proofs.«177054_g53008486367263_cont_8to1_c_744_45_alg».proof.Proof.Gen.KernelIdeal.Skeleton
import proofs.«177054_g53008486367263_cont_8to1_c_744_45_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 0: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three whole-buffer rectangles the body reads and writes through. -/
abbrev rx0 : Rect S1024x16 := Rect.unit (s := S1024x16) ![0, 0] S1024x16.size inb_S1024x16_S1024x16_0_0
abbrev rm0 : Rect S16x128 := Rect.unit (s := S16x128) ![0, 0] S16x128.size inb_S16x128_S16x128_0_0
abbrev ro0 : Rect S1024x128 := Rect.unit (s := S1024x128) ![0, 0] S1024x128.size inb_S1024x128_S1024x128_0_0

/-- What the body leaves in the output's staging buffer: its one store of the scaled product of the two input blocks. -/
def out0_2 (x0 : Vec F S1024x16 .f32) (x1 : Vec F S16x128 .f32) : Vec F S1024x128 .f32 :=
  View.canon [⟨ro0, k0_pay1 (View.ld x0 rx0) (View.ld x1 rm0)⟩]

/-- That one store covers the whole buffer. -/
theorem cover0_2 (p0 : Vec F S1024x128 .f32) (y : S1024x128.Idx) :
    ∃ pc ∈ ([⟨ro0, p0⟩] : List (View.Piece (Elt F) S1024x128 .f32)), y ∈ pc.1.set :=
  View.cover_of_tiled [⟨ro0, p0⟩] S1024x128.size (by rfl) y

set_option maxHeartbeats 1000000 in
/-- The body on whole staging memrefs: the inputs' at contents `x0`, `x1`, the output's at anything, runs to the
    inputs' as they were and the output's at `out0_2 x0 x1`. -/
theorem sound_kernel0 (c : Dev nD) (E : Set ℕ) (i : grid0.Coords) (arg1 : Memref sig .tc .vmem S1024x16 .f32) (harg1 : arg1.IsWhole)
    (arg2 : Memref sig .tc .vmem S16x128 .f32) (harg2 : arg2.IsWhole) (arg3 : Memref sig .tc .vmem S1024x128 .f32) (harg3 : arg3.IsWhole)
    (x0 : Vec F S1024x16 .f32) (x1 : Vec F S16x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The relational proof data of the tail region

The right factor's block and the output's block overhang their arrays by 96 columns, so the fetch fills only the
32 leading columns of the staging buffer and the rest holds words nothing names. The data therefore CONSTRAIN what
the body leaves: each input buffer as found, the output buffer at the scaled product of the left factor with the
right block filled out by SOME contents past the array's end. -/

/-- The tail region's data on core `c`. -/
def tailR (c : Dev nD) : Pipeline.RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun _ X => ∃ d : S16x128.Idx → Elt F .f32,
        X = out0_2 (iblk0 V c 0 t) (win0_1.fill (grid0.coords t) d (iblk0 V c 1 t))
  Φ _ := Pipeline.ΦA spec0 c
  q _ := fullShare
  owed _ := 0

theorem tailR_A (c : Dev nD) (w : Fin cfg0.W) : (tailR V c).A w = V c (Pipeline.arrRef spec0 w) := by
  dsimp only [tailR]

/-- What the left factor's buffer holds when the body runs: the whole left factor (the window is not cut). -/
theorem tail_finds_0 (c : Dev nD) (t : Fin cfg0.N) (Y) (h : (tailR V c).Finds 0 t Y) : Y = iblk0 V c 0 t := by
  obtain ⟨d, hd⟩ := ((tailR V c).finds_of_fetch (fetch0_0 t) Y).mp h
  rw [hd]; unfold Pipeline.RDat.fetched Pipeline.RDat.blockOf iblk0; rw [tailR_A]; try rfl

/-- What the right factor's buffer holds: its block on the columns inside the array, anything past them. -/
theorem tail_finds_1 (c : Dev nD) (t : Fin cfg0.N) (Y) (h : (tailR V c).Finds 1 t Y) :
    ∃ d, Y = win0_1.fill (grid0.coords t) d (iblk0 V c 1 t) := by
  obtain ⟨d, hd⟩ := ((tailR V c).finds_of_fetch (fetch0_1 t) Y).mp h
  refine ⟨d, ?_⟩
  rw [hd]; unfold Pipeline.RDat.fetched Pipeline.RDat.blockOf iblk0; rw [tailR_A]; try rfl

/-- The body at the region's one point, on the buffers at any contents they may hold there. -/
theorem tail_body (c : Dev nD) (t : Fin cfg0.N) (Y : (w : Fin cfg0.W) → (cfg0.win w).block.Idx → Elt F (cfg0.win w).elt)
    (hY : ∀ w, (tailR V c).Finds w t (Y w)) :
    iprop((tailR V c).Φ t.castSucc ∗ (tailR V c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((tailR V c).Φ t.succ ∗ (tailR V c).owesAt () t.succ
            ∗ (∃ X, ⌜(tailR V c).after 0 t (Y 0) X⌝ ∗ owns (c : Thread nD τ) (st0_0 t) fullShare X)
            ∗ (∃ X, ⌜(tailR V c).after 1 t (Y 1) X⌝ ∗ owns (c : Thread nD τ) (st0_1 t) fullShare X)
            ∗ (∃ X, ⌜(tailR V c).after 2 t (Y 2) X⌝ ∗ owns (c : Thread nD τ) (st0_2 t) fullShare X))) := by
  have h0 := tail_finds_0 V c t (Y 0) (hY 0)
  obtain ⟨d1, h1⟩ := tail_finds_1 V c t (Y 1) (hY 1)
  unfold bodyAt0
  rw [show (tailR V c).Φ t.succ = (tailR V c).Φ t.castSucc from rfl,
    show (tailR V c).owesAt () t.succ = (tailR V c).owesAt () t.castSucc from rfl]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  swap; · iexact H2
  ipureintro
  exact ⟨d1, by rw [h0, h1]⟩

/-- The body obligation of the relational data, at every point. -/
theorem tail_obligation (c : Dev nD) :
    (tailR (F := F) V c).BodyObligation (defs₀ (F := F)) Variants.none () Set.univ := fun t Y hY => by
  rw [bigSep_W0, bigSep_W0]
  exact tail_body V c t Y hY

end Cert.KernelIdeal.Tiles

end
-- ==== Proof.IdealSide.Chunk1.lean ====
/-
  Column chunk 1 of the product, as one pipelined region: at each grid point the body multiplies the whole 1024 × 16
  left factor by one 16 × 4096 column block of the transposed right factor and divides by the temperature, and stores
  the 1024 × 4096 result block. This module states what each staging buffer holds around the body at every point and
  proves the body's triple and the pipeline's body obligation, for any float values, at the contents the region is
  entered from.
-/
import proofs.«177054_g53008486367263_cont_8to1_c_744_45_alg».proof.Proof.Gen.KernelIdeal.Launch
import proofs.«177054_g53008486367263_cont_8to1_c_744_45_alg».proof.Proof.Gen.KernelIdeal.Skeleton
import proofs.«177054_g53008486367263_cont_8to1_c_744_45_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 1: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds the whole left factor at every point: it is fetched once, and its block
    index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right factor's current staging buffer holds column block `t` of it at point `t`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-buffer rectangles the body reads and writes through. -/
abbrev rx1 : Rect S1024x16 := Rect.unit (s := S1024x16) ![0, 0] S1024x16.size inb_S1024x16_S1024x16_0_0
abbrev rm1 : Rect S16x4096 := Rect.unit (s := S16x4096) ![0, 0] S16x4096.size inb_S16x4096_S16x4096_0_0
abbrev ro1 : Rect S1024x4096 := Rect.unit (s := S1024x4096) ![0, 0] S1024x4096.size inb_S1024x4096_S1024x4096_0_0

/-- What the body leaves in the output's staging buffer: its one store of the scaled product of the two input blocks. -/
def out1_2 (x0 : Vec F S1024x16 .f32) (x1 : Vec F S16x4096 .f32) : Vec F S1024x4096 .f32 :=
  View.canon [⟨ro1, k1_pay1 (View.ld x0 rx1) (View.ld x1 rm1)⟩]

/-- That one store covers the whole buffer. -/
theorem cover1_2 (p0 : Vec F S1024x4096 .f32) (y : S1024x4096.Idx) :
    ∃ pc ∈ ([⟨ro1, p0⟩] : List (View.Piece (Elt F) S1024x4096 .f32)), y ∈ pc.1.set :=
  View.cover_of_tiled [⟨ro1, p0⟩] S1024x4096.size (by rfl) y

set_option maxHeartbeats 1000000 in
/-- The body on whole staging memrefs: the inputs' at contents `x0`, `x1`, the output's at anything, runs to the
    inputs' as they were and the output's at `out1_2 x0 x1`. -/
theorem sound_kernel1 (c : Dev nD) (E : Set ℕ) (i : grid1.Coords) (arg1 : Memref sig .tc .vmem S1024x16 .f32) (harg1 : arg1.IsWhole)
    (arg2 : Memref sig .tc .vmem S16x4096 .f32) (harg2 : arg2.IsWhole) (arg3 : Memref sig .tc .vmem S1024x4096 .f32) (harg3 : arg3.IsWhole)
    (x0 : Vec F S1024x16 .f32) (x1 : Vec F S16x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Tiles

end
-- ==== Proof.IdealSide.Chunk2.lean ====
/-
  Column chunk 2 of the product, as one pipelined region: at each grid point the body multiplies the whole 1024 × 16
  left factor by one 16 × 4096 column block of the transposed right factor and divides by the temperature, and stores
  the 1024 × 4096 result block. This module states what each staging buffer holds around the body at every point and
  proves the body's triple and the pipeline's body obligation, for any float values, at the contents the region is
  entered from.
-/
import proofs.«177054_g53008486367263_cont_8to1_c_744_45_alg».proof.Proof.Gen.KernelIdeal.Launch
import proofs.«177054_g53008486367263_cont_8to1_c_744_45_alg».proof.Proof.Gen.KernelIdeal.Skeleton
import proofs.«177054_g53008486367263_cont_8to1_c_744_45_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 2: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging buffer holds the whole left factor at every point: it is fetched once, and its block
    index never moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's current staging buffer holds column block `t` of it at point `t`. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-buffer rectangles the body reads and writes through. -/
abbrev rx2 : Rect S1024x16 := Rect.unit (s := S1024x16) ![0, 0] S1024x16.size inb_S1024x16_S1024x16_0_0
abbrev rm2 : Rect S16x4096 := Rect.unit (s := S16x4096) ![0, 0] S16x4096.size inb_S16x4096_S16x4096_0_0
abbrev ro2 : Rect S1024x4096 := Rect.unit (s := S1024x4096) ![0, 0] S1024x4096.size inb_S1024x4096_S1024x4096_0_0

/-- What the body leaves in the output's staging buffer: its one store of the scaled product of the two input blocks. -/
def out2_2 (x0 : Vec F S1024x16 .f32) (x1 : Vec F S16x4096 .f32) : Vec F S1024x4096 .f32 :=
  View.canon [⟨ro2, k2_pay1 (View.ld x0 rx2) (View.ld x1 rm2)⟩]

/-- That one store covers the whole buffer. -/
theorem cover2_2 (p0 : Vec F S1024x4096 .f32) (y : S1024x4096.Idx) :
    ∃ pc ∈ ([⟨ro2, p0⟩] : List (View.Piece (Elt F) S1024x4096 .f32)), y ∈ pc.1.set :=
  View.cover_of_tiled [⟨ro2, p0⟩] S1024x4096.size (by rfl) y

set_option maxHeartbeats 1000000 in
/-- The body on whole staging memrefs: the inputs' at contents `x0`, `x1`, the output's at anything, runs to the
    inputs' as they were and the output's at `out2_2 x0 x1`. -/
theorem sound_kernel2 (c : Dev nD) (E : Set ℕ) (i : grid2.Coords) (arg1 : Memref sig .tc .vmem S1024x16 .f32) (harg1 : arg1.IsWhole)
    (arg2 : Memref sig .tc .vmem S16x4096 .f32) (harg2 : arg2.IsWhole) (arg3 : Memref sig .tc .vmem S1024x4096 .f32) (harg3 : arg3.IsWhole)
    (x0 : Vec F S1024x16 .f32) (x1 : Vec F S16x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Tiles

end
-- ==== Proof.IdealSide.Chunk3.lean ====
/-
  Column chunk 3 of the product, as one pipelined region: at each grid point the body multiplies the whole 1024 × 16
  left factor by one 16 × 4096 column block of the transposed right factor and divides by the temperature, and stores
  the 1024 × 4096 result block. This module states what each staging buffer holds around the body at every point and
  proves the body's triple and the pipeline's body obligation, for any float values, at the contents the region is
  entered from.
-/
import proofs.«177054_g53008486367263_cont_8to1_c_744_45_alg».proof.Proof.Gen.KernelIdeal.Launch
import proofs.«177054_g53008486367263_cont_8to1_c_744_45_alg».proof.Proof.Gen.KernelIdeal.Skeleton
import proofs.«177054_g53008486367263_cont_8to1_c_744_45_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 3: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's staging buffer holds the whole left factor at every point: it is fetched once, and its block
    index never moves. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right factor's current staging buffer holds column block `t` of it at point `t`. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The three whole-buffer rectangles the body reads and writes through. -/
abbrev rx3 : Rect S1024x16 := Rect.unit (s := S1024x16) ![0, 0] S1024x16.size inb_S1024x16_S1024x16_0_0
abbrev rm3 : Rect S16x4096 := Rect.unit (s := S16x4096) ![0, 0] S16x4096.size inb_S16x4096_S16x4096_0_0
abbrev ro3 : Rect S1024x4096 := Rect.unit (s := S1024x4096) ![0, 0] S1024x4096.size inb_S1024x4096_S1024x4096_0_0

/-- What the body leaves in the output's staging buffer: its one store of the scaled product of the two input blocks. -/
def out3_2 (x0 : Vec F S1024x16 .f32) (x1 : Vec F S16x4096 .f32) : Vec F S1024x4096 .f32 :=
  View.canon [⟨ro3, k3_pay1 (View.ld x0 rx3) (View.ld x1 rm3)⟩]

/-- That one store covers the whole buffer. -/
theorem cover3_2 (p0 : Vec F S1024x4096 .f32) (y : S1024x4096.Idx) :
    ∃ pc ∈ ([⟨ro3, p0⟩] : List (View.Piece (Elt F) S1024x4096 .f32)), y ∈ pc.1.set :=
  View.cover_of_tiled [⟨ro3, p0⟩] S1024x4096.size (by rfl) y

set_option maxHeartbeats 1000000 in
/-- The body on whole staging memrefs: the inputs' at contents `x0`, `x1`, the output's at anything, runs to the
    inputs' as they were and the output's at `out3_2 x0 x1`. -/
theorem sound_kernel3 (c : Dev nD) (E : Set ℕ) (i : grid3.Coords) (arg1 : Memref sig .tc .vmem S1024x16 .f32) (harg1 : arg1.IsWhole)
    (arg2 : Memref sig .tc .vmem S16x4096 .f32) (harg2 : arg2.IsWhole) (arg3 : Memref sig .tc .vmem S1024x4096 .f32) (harg3 : arg3.IsWhole)
    (x0 : Vec F S1024x16 .f32) (x1 : Vec F S16x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Tiles

end
-- ==== Proof.IdealSide.Chunk4.lean ====
/-
  Column chunk 4 of the product, as one pipelined region: at each grid point the body multiplies the whole 1024 × 16
  left factor by one 16 × 4096 column block of the transposed right factor and divides by the temperature, and stores
  the 1024 × 4096 result block. This module states what each staging buffer holds around the body at every point and
  proves the body's triple and the pipeline's body obligation, for any float values, at the contents the region is
  entered from.
-/
import proofs.«177054_g53008486367263_cont_8to1_c_744_45_alg».proof.Proof.Gen.KernelIdeal.Launch
import proofs.«177054_g53008486367263_cont_8to1_c_744_45_alg».proof.Proof.Gen.KernelIdeal.Skeleton
import proofs.«177054_g53008486367263_cont_8to1_c_744_45_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 4: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left factor's staging buffer holds the whole left factor at every point: it is fetched once, and its block
    index never moves. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right factor's current staging buffer holds column block `t` of it at point `t`. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The three whole-buffer rectangles the body reads and writes through. -/
abbrev rx4 : Rect S1024x16 := Rect.unit (s := S1024x16) ![0, 0] S1024x16.size inb_S1024x16_S1024x16_0_0
abbrev rm4 : Rect S16x4096 := Rect.unit (s := S16x4096) ![0, 0] S16x4096.size inb_S16x4096_S16x4096_0_0
abbrev ro4 : Rect S1024x4096 := Rect.unit (s := S1024x4096) ![0, 0] S1024x4096.size inb_S1024x4096_S1024x4096_0_0

/-- What the body leaves in the output's staging buffer: its one store of the scaled product of the two input blocks. -/
def out4_2 (x0 : Vec F S1024x16 .f32) (x1 : Vec F S16x4096 .f32) : Vec F S1024x4096 .f32 :=
  View.canon [⟨ro4, k4_pay1 (View.ld x0 rx4) (View.ld x1 rm4)⟩]

/-- That one store covers the whole buffer. -/
theorem cover4_2 (p0 : Vec F S1024x4096 .f32) (y : S1024x4096.Idx) :
    ∃ pc ∈ ([⟨ro4, p0⟩] : List (View.Piece (Elt F) S1024x4096 .f32)), y ∈ pc.1.set :=
  View.cover_of_tiled [⟨ro4, p0⟩] S1024x4096.size (by rfl) y

set_option maxHeartbeats 1000000 in
/-- The body on whole staging memrefs: the inputs' at contents `x0`, `x1`, the output's at anything, runs to the
    inputs' as they were and the output's at `out4_2 x0 x1`. -/
theorem sound_kernel4 (c : Dev nD) (E : Set ℕ) (i : grid4.Coords) (arg1 : Memref sig .tc .vmem S1024x16 .f32) (harg1 : arg1.IsWhole)
    (arg2 : Memref sig .tc .vmem S16x4096 .f32) (harg2 : arg2.IsWhole) (arg3 : Memref sig .tc .vmem S1024x4096 .f32) (harg3 : arg3.IsWhole)
    (x0 : Vec F S1024x16 .f32) (x1 : Vec F S16x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Tiles

end
-- ==== Proof.IdealSide.Chunk5.lean ====
/-
  Column chunk 5 of the product, as one pipelined region: at each grid point the body multiplies the whole 1024 × 16
  left factor by one 16 × 1664 column block of the transposed right factor and divides by the temperature, and stores
  the 1024 × 1664 result block. This module states what each staging buffer holds around the body at every point and
  proves the body's triple and the pipeline's body obligation, for any float values, at the contents the region is
  entered from.
-/
import proofs.«177054_g53008486367263_cont_8to1_c_744_45_alg».proof.Proof.Gen.KernelIdeal.Launch
import proofs.«177054_g53008486367263_cont_8to1_c_744_45_alg».proof.Proof.Gen.KernelIdeal.Skeleton
import proofs.«177054_g53008486367263_cont_8to1_c_744_45_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Column chunk 5: the product of the whole left factor with one column block of the right factor, divided by the
    temperature, at the contents `V` the region is entered from -/

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left factor's staging buffer holds the whole left factor at every point: it is fetched once, and its block
    index never moves. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The right factor's current staging buffer holds column block `t` of it at point `t`. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The three whole-buffer rectangles the body reads and writes through. -/
abbrev rx5 : Rect S1024x16 := Rect.unit (s := S1024x16) ![0, 0] S1024x16.size inb_S1024x16_S1024x16_0_0
abbrev rm5 : Rect S16x1664 := Rect.unit (s := S16x1664) ![0, 0] S16x1664.size inb_S16x1664_S16x1664_0_0
abbrev ro5 : Rect S1024x1664 := Rect.unit (s := S1024x1664) ![0, 0] S1024x1664.size inb_S1024x1664_S1024x1664_0_0

/-- What the body leaves in the output's staging buffer: its one store of the scaled product of the two input blocks. -/
def out5_2 (x0 : Vec F S1024x16 .f32) (x1 : Vec F S16x1664 .f32) : Vec F S1024x1664 .f32 :=
  View.canon [⟨ro5, k5_pay1 (View.ld x0 rx5) (View.ld x1 rm5)⟩]

/-- That one store covers the whole buffer. -/
theorem cover5_2 (p0 : Vec F S1024x1664 .f32) (y : S1024x1664.Idx) :
    ∃ pc ∈ ([⟨ro5, p0⟩] : List (View.Piece (Elt F) S1024x1664 .f32)), y ∈ pc.1.set :=
  View.cover_of_tiled [⟨ro5, p0⟩] S1024x1664.size (by rfl) y

set_option maxHeartbeats 1000000 in
/-- The body on whole staging memrefs: the inputs' at contents `x0`, `x1`, the output's at anything, runs to the
    inputs' as they were and the output's at `out5_2 x0 x1`. -/
theorem sound_kernel5 (c : Dev nD) (E : Set ℕ) (i : grid5.Coords) (arg1 : Memref sig .tc .vmem S1024x16 .f32) (harg1 : arg1.IsWhole)
    (arg2 : Memref sig .tc .vmem S16x1664 .f32) (harg2 : arg2.IsWhole) (arg3 : Memref sig .tc .vmem S1024x1664 .f32) (harg3 : arg3.IsWhole)
    (x0 : Vec F S1024x16 .f32) (x1 : Vec F S16x1664 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point `t` each
    input's buffer at its block and the output's at the scaled product of the two input blocks; the invariant only the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Tiles

end
-- ==== Proof.IdealSide.Fold.lean ====
/-
  The contents of every buffer between the items of @main — the transpose, the tail region, and five times a column
  slice, a column chunk's region and the update of the running result by the previous chunk — as a fold from the launch
  memory, written over the one thing the data do not name: what the tail region leaves in its output array.
-/
import proofs.«177054_g53008486367263_cont_8to1_c_744_45_alg».proof.Proof.IdealSide.Tail
import proofs.«177054_g53008486367263_cont_8to1_c_744_45_alg».proof.Proof.IdealSide.Chunk1
import proofs.«177054_g53008486367263_cont_8to1_c_744_45_alg».proof.Proof.IdealSide.Chunk2
import proofs.«177054_g53008486367263_cont_8to1_c_744_45_alg».proof.Proof.IdealSide.Chunk3
import proofs.«177054_g53008486367263_cont_8to1_c_744_45_alg».proof.Proof.IdealSide.Chunk4
import proofs.«177054_g53008486367263_cont_8to1_c_744_45_alg».proof.Proof.IdealSide.Chunk5
import proofs.«177054_g53008486367263_cont_8to1_c_744_45_alg».proof.Proof.Gen.KernelIdeal.Regions
import Idealize.ShloMosaic.Lib.StableHlo.Run

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents between the items of @main, as a function of what the tail region leaves

The tail region's output array ends at contents the data constrain but do not name (`o` below). Every later item is
read from it: the host stretches fold over it, and each column chunk's region replaces its own arrays by what its
write-backs leave. No column chunk reads an array that depends on `o`: its operands are the left factor, a column
slice of the transposed right factor, and an output array no earlier item wrote. -/

/-- The contents of the tail region's output array. -/
abbrev TailArr (c : Dev nD) : Type := Buf (Elt F) ((c : Thread nD τ).loc main_call0_v1)

/-- Core `c`'s buffers at launch, -/
abbrev B0 (c : Dev nD) : Valuation τ sig (Elt F) := fun b => m (c, b)
/-- after the transpose (the tail region's entry), -/
abbrev B1 (c : Dev nD) : Valuation τ sig (Elt F) := StableHlo.after hostOps0 (B0 m c)
abbrev R1 (c : Dev nD) (b : Ref sig .tc) : Buf (Elt F) ((c : Thread nD τ).loc b) := B1 m c b
/-- after the tail region, its output array at `o`, -/
abbrev B2 (c : Dev nD) (o : TailArr (F := F) c) : Valuation τ sig (Elt F) := Function.update (B1 m c) main_call0_v1 o
/-- after the first column slice (chunk 1's entry). -/
abbrev B3 (c : Dev nD) (o : TailArr (F := F) c) : Valuation τ sig (Elt F) := StableHlo.after hostOps1 (B2 m c o)
/-- The launch contents of the tail's array: they stand in for `o` where a later region's data must be fixed
    before the run (nothing such data read depends on `o`). -/
abbrev o₀ (c : Dev nD) : TailArr (F := F) c := m ((c : Thread nD τ).loc main_call0_v1)

/-- The contents chunk 1's data are stated at. -/
abbrev E1 (c : Dev nD) (b : Ref sig .tc) : Buf (Elt F) ((c : Thread nD τ).loc b) := B3 m c (o₀ m c) b
/-- After chunk 1's region: its arrays at what its write-backs leave, every other buffer as entered. -/
def B4 (c : Dev nD) (o : TailArr (F := F) c) : Valuation τ sig (Elt F) :=
  Pipeline.withArrays spec1 c (B3 m c o) fun w => (dat1 (E1 m) c).arrAt w cfg1.N
theorem B4_arr (c : Dev nD) (o : TailArr (F := F) c) (w : Fin cfg1.W) :
    B4 m c o (Proc.devRef .tc (Pipeline.arrRef spec1 w)) = (dat1 (E1 m) c).arrAt w cfg1.N := by
  unfold B4; exact Pipeline.withArrays_arr spec1 launch1.win.arr_inj c _ _ w
theorem B4_of (c : Dev nD) (o : TailArr (F := F) c) (b : Ref sig .tc) (hb : ∀ w, Pipeline.arrRef spec1 w ≠ b) :
    B4 m c o (Proc.devRef .tc b) = B3 m c o (Proc.devRef .tc b) := by
  unfold B4; exact Pipeline.withArrays_of_ne spec1 c _ _ b hb
/-- After the host stretch that follows it. -/
abbrev B5 (c : Dev nD) (o : TailArr (F := F) c) : Valuation τ sig (Elt F) := StableHlo.after hostOps2 (B4 m c o)

/-- The contents chunk 2's data are stated at. -/
abbrev E2 (c : Dev nD) (b : Ref sig .tc) : Buf (Elt F) ((c : Thread nD τ).loc b) := B5 m c (o₀ m c) b
/-- After chunk 2's region: its arrays at what its write-backs leave, every other buffer as entered. -/
def B6 (c : Dev nD) (o : TailArr (F := F) c) : Valuation τ sig (Elt F) :=
  Pipeline.withArrays spec2 c (B5 m c o) fun w => (dat2 (E2 m) c).arrAt w cfg2.N
theorem B6_arr (c : Dev nD) (o : TailArr (F := F) c) (w : Fin cfg2.W) :
    B6 m c o (Proc.devRef .tc (Pipeline.arrRef spec2 w)) = (dat2 (E2 m) c).arrAt w cfg2.N := by
  unfold B6; exact Pipeline.withArrays_arr spec2 launch2.win.arr_inj c _ _ w
theorem B6_of (c : Dev nD) (o : TailArr (F := F) c) (b : Ref sig .tc) (hb : ∀ w, Pipeline.arrRef spec2 w ≠ b) :
    B6 m c o (Proc.devRef .tc b) = B5 m c o (Proc.devRef .tc b) := by
  unfold B6; exact Pipeline.withArrays_of_ne spec2 c _ _ b hb
/-- After the host stretch that follows it. -/
abbrev B7 (c : Dev nD) (o : TailArr (F := F) c) : Valuation τ sig (Elt F) := StableHlo.after hostOps3 (B6 m c o)

/-- The contents chunk 3's data are stated at. -/
abbrev E3 (c : Dev nD) (b : Ref sig .tc) : Buf (Elt F) ((c : Thread nD τ).loc b) := B7 m c (o₀ m c) b
/-- After chunk 3's region: its arrays at what its write-backs leave, every other buffer as entered. -/
def B8 (c : Dev nD) (o : TailArr (F := F) c) : Valuation τ sig (Elt F) :=
  Pipeline.withArrays spec3 c (B7 m c o) fun w => (dat3 (E3 m) c).arrAt w cfg3.N
theorem B8_arr (c : Dev nD) (o : TailArr (F := F) c) (w : Fin cfg3.W) :
    B8 m c o (Proc.devRef .tc (Pipeline.arrRef spec3 w)) = (dat3 (E3 m) c).arrAt w cfg3.N := by
  unfold B8; exact Pipeline.withArrays_arr spec3 launch3.win.arr_inj c _ _ w
theorem B8_of (c : Dev nD) (o : TailArr (F := F) c) (b : Ref sig .tc) (hb : ∀ w, Pipeline.arrRef spec3 w ≠ b) :
    B8 m c o (Proc.devRef .tc b) = B7 m c o (Proc.devRef .tc b) := by
  unfold B8; exact Pipeline.withArrays_of_ne spec3 c _ _ b hb
/-- After the host stretch that follows it. -/
abbrev B9 (c : Dev nD) (o : TailArr (F := F) c) : Valuation τ sig (Elt F) := StableHlo.after hostOps4 (B8 m c o)

/-- The contents chunk 4's data are stated at. -/
abbrev E4 (c : Dev nD) (b : Ref sig .tc) : Buf (Elt F) ((c : Thread nD τ).loc b) := B9 m c (o₀ m c) b
/-- After chunk 4's region: its arrays at what its write-backs leave, every other buffer as entered. -/
def B10 (c : Dev nD) (o : TailArr (F := F) c) : Valuation τ sig (Elt F) :=
  Pipeline.withArrays spec4 c (B9 m c o) fun w => (dat4 (E4 m) c).arrAt w cfg4.N
theorem B10_arr (c : Dev nD) (o : TailArr (F := F) c) (w : Fin cfg4.W) :
    B10 m c o (Proc.devRef .tc (Pipeline.arrRef spec4 w)) = (dat4 (E4 m) c).arrAt w cfg4.N := by
  unfold B10; exact Pipeline.withArrays_arr spec4 launch4.win.arr_inj c _ _ w
theorem B10_of (c : Dev nD) (o : TailArr (F := F) c) (b : Ref sig .tc) (hb : ∀ w, Pipeline.arrRef spec4 w ≠ b) :
    B10 m c o (Proc.devRef .tc b) = B9 m c o (Proc.devRef .tc b) := by
  unfold B10; exact Pipeline.withArrays_of_ne spec4 c _ _ b hb
/-- After the host stretch that follows it. -/
abbrev B11 (c : Dev nD) (o : TailArr (F := F) c) : Valuation τ sig (Elt F) := StableHlo.after hostOps5 (B10 m c o)

/-- The contents chunk 5's data are stated at. -/
abbrev E5 (c : Dev nD) (b : Ref sig .tc) : Buf (Elt F) ((c : Thread nD τ).loc b) := B11 m c (o₀ m c) b
/-- After chunk 5's region: its arrays at what its write-backs leave, every other buffer as entered. -/
def B12 (c : Dev nD) (o : TailArr (F := F) c) : Valuation τ sig (Elt F) :=
  Pipeline.withArrays spec5 c (B11 m c o) fun w => (dat5 (E5 m) c).arrAt w cfg5.N
theorem B12_arr (c : Dev nD) (o : TailArr (F := F) c) (w : Fin cfg5.W) :
    B12 m c o (Proc.devRef .tc (Pipeline.arrRef spec5 w)) = (dat5 (E5 m) c).arrAt w cfg5.N := by
  unfold B12; exact Pipeline.withArrays_arr spec5 launch5.win.arr_inj c _ _ w
theorem B12_of (c : Dev nD) (o : TailArr (F := F) c) (b : Ref sig .tc) (hb : ∀ w, Pipeline.arrRef spec5 w ≠ b) :
    B12 m c o (Proc.devRef .tc b) = B11 m c o (Proc.devRef .tc b) := by
  unfold B12; exact Pipeline.withArrays_of_ne spec5 c _ _ b hb
/-- After the host stretch that follows it. -/
abbrev B13 (c : Dev nD) (o : TailArr (F := F) c) : Valuation τ sig (Elt F) := StableHlo.after hostOps6 (B12 m c o)

/-! ## What each host stretch and the tail region leave unchanged -/

theorem B1_of (c : Dev nD) (r : Ref sig .tc) (h : r ∉ hostOps0_W) : B1 m c (Proc.devRef .tc r) = B0 m c (Proc.devRef .tc r) :=
  StableHlo.after_of_writes_sub hostOps0 _ hostOps0_writes h
theorem B2_of (c : Dev nD) (o : TailArr (F := F) c) (r : Ref sig .tc) (h : r ≠ main_call0_v1) :
    B2 m c o (Proc.devRef .tc r) = B1 m c (Proc.devRef .tc r) := by
  simp only [B2, Function.update_of_ne (StableHlo.devRef_ne_of_ne h : (Proc.devRef .tc r : DevRef τ sig) ≠ Proc.devRef .tc main_call0_v1)]
theorem B2_tail (c : Dev nD) (o : TailArr (F := F) c) : B2 m c o (Proc.devRef .tc main_call0_v1) = o := by
  simp only [B2, Function.update_self]
theorem B3_of (c : Dev nD) (o : TailArr (F := F) c) (r : Ref sig .tc) (h : r ∉ hostOps1_W) :
    B3 m c o (Proc.devRef .tc r) = B2 m c o (Proc.devRef .tc r) :=
  StableHlo.after_of_writes_sub hostOps1 _ hostOps1_writes h
theorem B5_of (c : Dev nD) (o : TailArr (F := F) c) (r : Ref sig .tc) (h : r ∉ hostOps2_W) :
    B5 m c o (Proc.devRef .tc r) = B4 m c o (Proc.devRef .tc r) :=
  StableHlo.after_of_writes_sub hostOps2 _ hostOps2_writes h
theorem B7_of (c : Dev nD) (o : TailArr (F := F) c) (r : Ref sig .tc) (h : r ∉ hostOps3_W) :
    B7 m c o (Proc.devRef .tc r) = B6 m c o (Proc.devRef .tc r) :=
  StableHlo.after_of_writes_sub hostOps3 _ hostOps3_writes h
theorem B9_of (c : Dev nD) (o : TailArr (F := F) c) (r : Ref sig .tc) (h : r ∉ hostOps4_W) :
    B9 m c o (Proc.devRef .tc r) = B8 m c o (Proc.devRef .tc r) :=
  StableHlo.after_of_writes_sub hostOps4 _ hostOps4_writes h
theorem B11_of (c : Dev nD) (o : TailArr (F := F) c) (r : Ref sig .tc) (h : r ∉ hostOps5_W) :
    B11 m c o (Proc.devRef .tc r) = B10 m c o (Proc.devRef .tc r) :=
  StableHlo.after_of_writes_sub hostOps5 _ hostOps5_writes h
theorem B13_of (c : Dev nD) (o : TailArr (F := F) c) (r : Ref sig .tc) (h : r ∉ hostOps6_W) :
    B13 m c o (Proc.devRef .tc r) = B12 m c o (Proc.devRef .tc r) :=
  StableHlo.after_of_writes_sub hostOps6 _ hostOps6_writes h

/-- What the data say of the tail region's output array after its one write-back: the entry contents with the
    block's columns inside the array overwritten by the leading columns of some contents the body may leave. -/
def TailOut (c : Dev nD) (o : TailArr (F := F) c) : Prop := (tailR (R1 m) c).ArrAt 2 cfg0.N o

/-! ## What each region is entered from: the left factor, the transposed right factor and its column slices, and the
    column chunks' output arrays, whatever the tail region left -/

/-- The transpose's result. -/
theorem B1_v0 (c : Dev nD) : B1 m c (Proc.devRef .tc main_call0_v0)
    = transpose S16x100000 [1, 0] (m ((c : Thread nD τ).loc main_arg1)) transposes_S100000x16_S16x100000_1_0 := by
  show StableHlo.after hostOps0 (B0 m c) (Proc.devRef .tc main_call0_v0) = _
  after_results
  rfl

/-- The left factor is as launched at the tail's entry, -/
theorem B1_x (c : Dev nD) : B1 m c (Proc.devRef .tc main_arg0) = m ((c : Thread nD τ).loc main_arg0) :=
  (B1_of m c main_arg0 (by decide)).trans rfl
/-- and the tail's output array too. -/
theorem B1_tail (c : Dev nD) : B1 m c (Proc.devRef .tc main_call0_v1) = o₀ m c :=
  (B1_of m c main_call0_v1 (by decide)).trans rfl
theorem B2_x (c : Dev nD) (o : TailArr (F := F) c) : B2 m c o (Proc.devRef .tc main_arg0) = m ((c : Thread nD τ).loc main_arg0) :=
  (B2_of m c o main_arg0 (by decide)).trans (B1_x m c)
theorem B2_v0 (c : Dev nD) (o : TailArr (F := F) c) : B2 m c o (Proc.devRef .tc main_call0_v0) = B1 m c (Proc.devRef .tc main_call0_v0) :=
  B2_of m c o main_call0_v0 (by decide)

theorem B3_x (c : Dev nD) (o : TailArr (F := F) c) : B3 m c o (Proc.devRef .tc main_arg0) = m ((c : Thread nD τ).loc main_arg0) :=
  (B3_of m c o main_arg0 (by decide)).trans (B2_x m c o)
theorem B3_v0 (c : Dev nD) (o : TailArr (F := F) c) : B3 m c o (Proc.devRef .tc main_call0_v0) = B1 m c (Proc.devRef .tc main_call0_v0) :=
  (B3_of m c o main_call0_v0 (by decide)).trans (B2_v0 m c o)
/-- Chunk 1's column slice of the transposed right factor. -/
theorem B3_sl (c : Dev nD) (o : TailArr (F := F) c) : B3 m c o (Proc.devRef .tc main_call0_v2)
    = extractStridedSlice S16x24576 ![0, 0] (B1 m c (Proc.devRef .tc main_call0_v0)) slices_S16x100000_S16x24576_0_0 := by
  rw [← B2_v0 m c o]
  show StableHlo.after hostOps1 (B2 m c o) (Proc.devRef .tc main_call0_v2) = _
  after_results
  rfl
/-- Chunk 1's output array is as launched when its region is entered: nothing before it writes it. -/
theorem B3_out (c : Dev nD) (o : TailArr (F := F) c) : B3 m c o (Proc.devRef .tc main_call0_v3) = m ((c : Thread nD τ).loc main_call0_v3) :=
  (B3_of m c o main_call0_v3 (by decide)).trans <| (B2_of m c o main_call0_v3 (by decide)).trans <| (B1_of m c main_call0_v3 (by decide)).trans rfl
/-- The arrays chunk 1's region touches do not depend on what the tail region left. -/
theorem indep1 (c : Dev nD) (o : TailArr (F := F) c) (w : Fin cfg1.W) :
    (dat1 (E1 m) c).A w = B3 m c o (Proc.devRef .tc (Pipeline.arrRef spec1 w)) := by
  rw [A_eq1]
  match w with
  | ⟨0, _⟩ => exact (B3_x m c (o₀ m c)).trans (B3_x m c o).symm
  | ⟨1, _⟩ => exact (B3_sl m c (o₀ m c)).trans (B3_sl m c o).symm
  | ⟨2, _⟩ => exact (B3_out m c (o₀ m c)).trans (B3_out m c o).symm
/-- After chunk 1's region the left factor and the transposed right factor are still as they were. -/
theorem B4_x (c : Dev nD) (o : TailArr (F := F) c) : B4 m c o (Proc.devRef .tc main_arg0) = m ((c : Thread nD τ).loc main_arg0) :=
  (B4_arr m c o 0).trans <| ((dat1 (E1 m) c).arrAt_in 0 rfl _).trans <| (A_eq1 (E1 m) c 0).trans (B3_x m c (o₀ m c))
theorem B4_v0 (c : Dev nD) (o : TailArr (F := F) c) : B4 m c o (Proc.devRef .tc main_call0_v0) = B1 m c (Proc.devRef .tc main_call0_v0) :=
  (B4_of m c o main_call0_v0 (by decide)).trans (B3_v0 m c o)

theorem B5_x (c : Dev nD) (o : TailArr (F := F) c) : B5 m c o (Proc.devRef .tc main_arg0) = m ((c : Thread nD τ).loc main_arg0) :=
  (B5_of m c o main_arg0 (by decide)).trans (B4_x m c o)
theorem B5_v0 (c : Dev nD) (o : TailArr (F := F) c) : B5 m c o (Proc.devRef .tc main_call0_v0) = B1 m c (Proc.devRef .tc main_call0_v0) :=
  (B5_of m c o main_call0_v0 (by decide)).trans (B4_v0 m c o)
/-- Chunk 2's column slice of the transposed right factor. -/
theorem B5_sl (c : Dev nD) (o : TailArr (F := F) c) : B5 m c o (Proc.devRef .tc main_call0_v5)
    = extractStridedSlice S16x24576 ![0, 24576] (B1 m c (Proc.devRef .tc main_call0_v0)) slices_S16x100000_S16x24576_0_24576 := by
  rw [← B4_v0 m c o]
  show StableHlo.after hostOps2 (B4 m c o) (Proc.devRef .tc main_call0_v5) = _
  after_results
  rfl
/-- Chunk 2's output array is as launched when its region is entered: nothing before it writes it. -/
theorem B5_out (c : Dev nD) (o : TailArr (F := F) c) : B5 m c o (Proc.devRef .tc main_call0_v6) = m ((c : Thread nD τ).loc main_call0_v6) :=
  (B5_of m c o main_call0_v6 (by decide)).trans <| (B4_of m c o main_call0_v6 (by decide)).trans <| (B3_of m c o main_call0_v6 (by decide)).trans <| (B2_of m c o main_call0_v6 (by decide)).trans <| (B1_of m c main_call0_v6 (by decide)).trans rfl
/-- The arrays chunk 2's region touches do not depend on what the tail region left. -/
theorem indep2 (c : Dev nD) (o : TailArr (F := F) c) (w : Fin cfg2.W) :
    (dat2 (E2 m) c).A w = B5 m c o (Proc.devRef .tc (Pipeline.arrRef spec2 w)) := by
  rw [A_eq2]
  match w with
  | ⟨0, _⟩ => exact (B5_x m c (o₀ m c)).trans (B5_x m c o).symm
  | ⟨1, _⟩ => exact (B5_sl m c (o₀ m c)).trans (B5_sl m c o).symm
  | ⟨2, _⟩ => exact (B5_out m c (o₀ m c)).trans (B5_out m c o).symm
/-- After chunk 2's region the left factor and the transposed right factor are still as they were. -/
theorem B6_x (c : Dev nD) (o : TailArr (F := F) c) : B6 m c o (Proc.devRef .tc main_arg0) = m ((c : Thread nD τ).loc main_arg0) :=
  (B6_arr m c o 0).trans <| ((dat2 (E2 m) c).arrAt_in 0 rfl _).trans <| (A_eq2 (E2 m) c 0).trans (B5_x m c (o₀ m c))
theorem B6_v0 (c : Dev nD) (o : TailArr (F := F) c) : B6 m c o (Proc.devRef .tc main_call0_v0) = B1 m c (Proc.devRef .tc main_call0_v0) :=
  (B6_of m c o main_call0_v0 (by decide)).trans (B5_v0 m c o)

theorem B7_x (c : Dev nD) (o : TailArr (F := F) c) : B7 m c o (Proc.devRef .tc main_arg0) = m ((c : Thread nD τ).loc main_arg0) :=
  (B7_of m c o main_arg0 (by decide)).trans (B6_x m c o)
theorem B7_v0 (c : Dev nD) (o : TailArr (F := F) c) : B7 m c o (Proc.devRef .tc main_call0_v0) = B1 m c (Proc.devRef .tc main_call0_v0) :=
  (B7_of m c o main_call0_v0 (by decide)).trans (B6_v0 m c o)
/-- Chunk 3's column slice of the transposed right factor. -/
theorem B7_sl (c : Dev nD) (o : TailArr (F := F) c) : B7 m c o (Proc.devRef .tc main_call0_v8)
    = extractStridedSlice S16x24576 ![0, 49152] (B1 m c (Proc.devRef .tc main_call0_v0)) slices_S16x100000_S16x24576_0_49152 := by
  rw [← B6_v0 m c o]
  show StableHlo.after hostOps3 (B6 m c o) (Proc.devRef .tc main_call0_v8) = _
  after_results
  rfl
/-- Chunk 3's output array is as launched when its region is entered: nothing before it writes it. -/
theorem B7_out (c : Dev nD) (o : TailArr (F := F) c) : B7 m c o (Proc.devRef .tc main_call0_v9) = m ((c : Thread nD τ).loc main_call0_v9) :=
  (B7_of m c o main_call0_v9 (by decide)).trans <| (B6_of m c o main_call0_v9 (by decide)).trans <| (B5_of m c o main_call0_v9 (by decide)).trans <| (B4_of m c o main_call0_v9 (by decide)).trans <| (B3_of m c o main_call0_v9 (by decide)).trans <| (B2_of m c o main_call0_v9 (by decide)).trans <| (B1_of m c main_call0_v9 (by decide)).trans rfl
/-- The arrays chunk 3's region touches do not depend on what the tail region left. -/
theorem indep3 (c : Dev nD) (o : TailArr (F := F) c) (w : Fin cfg3.W) :
    (dat3 (E3 m) c).A w = B7 m c o (Proc.devRef .tc (Pipeline.arrRef spec3 w)) := by
  rw [A_eq3]
  match w with
  | ⟨0, _⟩ => exact (B7_x m c (o₀ m c)).trans (B7_x m c o).symm
  | ⟨1, _⟩ => exact (B7_sl m c (o₀ m c)).trans (B7_sl m c o).symm
  | ⟨2, _⟩ => exact (B7_out m c (o₀ m c)).trans (B7_out m c o).symm
/-- After chunk 3's region the left factor and the transposed right factor are still as they were. -/
theorem B8_x (c : Dev nD) (o : TailArr (F := F) c) : B8 m c o (Proc.devRef .tc main_arg0) = m ((c : Thread nD τ).loc main_arg0) :=
  (B8_arr m c o 0).trans <| ((dat3 (E3 m) c).arrAt_in 0 rfl _).trans <| (A_eq3 (E3 m) c 0).trans (B7_x m c (o₀ m c))
theorem B8_v0 (c : Dev nD) (o : TailArr (F := F) c) : B8 m c o (Proc.devRef .tc main_call0_v0) = B1 m c (Proc.devRef .tc main_call0_v0) :=
  (B8_of m c o main_call0_v0 (by decide)).trans (B7_v0 m c o)

theorem B9_x (c : Dev nD) (o : TailArr (F := F) c) : B9 m c o (Proc.devRef .tc main_arg0) = m ((c : Thread nD τ).loc main_arg0) :=
  (B9_of m c o main_arg0 (by decide)).trans (B8_x m c o)
theorem B9_v0 (c : Dev nD) (o : TailArr (F := F) c) : B9 m c o (Proc.devRef .tc main_call0_v0) = B1 m c (Proc.devRef .tc main_call0_v0) :=
  (B9_of m c o main_call0_v0 (by decide)).trans (B8_v0 m c o)
/-- Chunk 4's column slice of the transposed right factor. -/
theorem B9_sl (c : Dev nD) (o : TailArr (F := F) c) : B9 m c o (Proc.devRef .tc main_call0_v11)
    = extractStridedSlice S16x24576 ![0, 73728] (B1 m c (Proc.devRef .tc main_call0_v0)) slices_S16x100000_S16x24576_0_73728 := by
  rw [← B8_v0 m c o]
  show StableHlo.after hostOps4 (B8 m c o) (Proc.devRef .tc main_call0_v11) = _
  after_results
  rfl
/-- Chunk 4's output array is as launched when its region is entered: nothing before it writes it. -/
theorem B9_out (c : Dev nD) (o : TailArr (F := F) c) : B9 m c o (Proc.devRef .tc main_call0_v12) = m ((c : Thread nD τ).loc main_call0_v12) :=
  (B9_of m c o main_call0_v12 (by decide)).trans <| (B8_of m c o main_call0_v12 (by decide)).trans <| (B7_of m c o main_call0_v12 (by decide)).trans <| (B6_of m c o main_call0_v12 (by decide)).trans <| (B5_of m c o main_call0_v12 (by decide)).trans <| (B4_of m c o main_call0_v12 (by decide)).trans <| (B3_of m c o main_call0_v12 (by decide)).trans <| (B2_of m c o main_call0_v12 (by decide)).trans <| (B1_of m c main_call0_v12 (by decide)).trans rfl
/-- The arrays chunk 4's region touches do not depend on what the tail region left. -/
theorem indep4 (c : Dev nD) (o : TailArr (F := F) c) (w : Fin cfg4.W) :
    (dat4 (E4 m) c).A w = B9 m c o (Proc.devRef .tc (Pipeline.arrRef spec4 w)) := by
  rw [A_eq4]
  match w with
  | ⟨0, _⟩ => exact (B9_x m c (o₀ m c)).trans (B9_x m c o).symm
  | ⟨1, _⟩ => exact (B9_sl m c (o₀ m c)).trans (B9_sl m c o).symm
  | ⟨2, _⟩ => exact (B9_out m c (o₀ m c)).trans (B9_out m c o).symm
/-- After chunk 4's region the left factor and the transposed right factor are still as they were. -/
theorem B10_x (c : Dev nD) (o : TailArr (F := F) c) : B10 m c o (Proc.devRef .tc main_arg0) = m ((c : Thread nD τ).loc main_arg0) :=
  (B10_arr m c o 0).trans <| ((dat4 (E4 m) c).arrAt_in 0 rfl _).trans <| (A_eq4 (E4 m) c 0).trans (B9_x m c (o₀ m c))
theorem B10_v0 (c : Dev nD) (o : TailArr (F := F) c) : B10 m c o (Proc.devRef .tc main_call0_v0) = B1 m c (Proc.devRef .tc main_call0_v0) :=
  (B10_of m c o main_call0_v0 (by decide)).trans (B9_v0 m c o)

theorem B11_x (c : Dev nD) (o : TailArr (F := F) c) : B11 m c o (Proc.devRef .tc main_arg0) = m ((c : Thread nD τ).loc main_arg0) :=
  (B11_of m c o main_arg0 (by decide)).trans (B10_x m c o)
theorem B11_v0 (c : Dev nD) (o : TailArr (F := F) c) : B11 m c o (Proc.devRef .tc main_call0_v0) = B1 m c (Proc.devRef .tc main_call0_v0) :=
  (B11_of m c o main_call0_v0 (by decide)).trans (B10_v0 m c o)
/-- Chunk 5's column slice of the transposed right factor. -/
theorem B11_sl (c : Dev nD) (o : TailArr (F := F) c) : B11 m c o (Proc.devRef .tc main_call0_v14)
    = extractStridedSlice S16x1664 ![0, 98304] (B1 m c (Proc.devRef .tc main_call0_v0)) slices_S16x100000_S16x1664_0_98304 := by
  rw [← B10_v0 m c o]
  show StableHlo.after hostOps5 (B10 m c o) (Proc.devRef .tc main_call0_v14) = _
  after_results
  rfl
/-- Chunk 5's output array is as launched when its region is entered: nothing before it writes it. -/
theorem B11_out (c : Dev nD) (o : TailArr (F := F) c) : B11 m c o (Proc.devRef .tc main_call0_v15) = m ((c : Thread nD τ).loc main_call0_v15) :=
  (B11_of m c o main_call0_v15 (by decide)).trans <| (B10_of m c o main_call0_v15 (by decide)).trans <| (B9_of m c o main_call0_v15 (by decide)).trans <| (B8_of m c o main_call0_v15 (by decide)).trans <| (B7_of m c o main_call0_v15 (by decide)).trans <| (B6_of m c o main_call0_v15 (by decide)).trans <| (B5_of m c o main_call0_v15 (by decide)).trans <| (B4_of m c o main_call0_v15 (by decide)).trans <| (B3_of m c o main_call0_v15 (by decide)).trans <| (B2_of m c o main_call0_v15 (by decide)).trans <| (B1_of m c main_call0_v15 (by decide)).trans rfl
/-- The arrays chunk 5's region touches do not depend on what the tail region left. -/
theorem indep5 (c : Dev nD) (o : TailArr (F := F) c) (w : Fin cfg5.W) :
    (dat5 (E5 m) c).A w = B11 m c o (Proc.devRef .tc (Pipeline.arrRef spec5 w)) := by
  rw [A_eq5]
  match w with
  | ⟨0, _⟩ => exact (B11_x m c (o₀ m c)).trans (B11_x m c o).symm
  | ⟨1, _⟩ => exact (B11_sl m c (o₀ m c)).trans (B11_sl m c o).symm
  | ⟨2, _⟩ => exact (B11_out m c (o₀ m c)).trans (B11_out m c o).symm
/-- After chunk 5's region the left factor and the transposed right factor are still as they were. -/
theorem B12_x (c : Dev nD) (o : TailArr (F := F) c) : B12 m c o (Proc.devRef .tc main_arg0) = m ((c : Thread nD τ).loc main_arg0) :=
  (B12_arr m c o 0).trans <| ((dat5 (E5 m) c).arrAt_in 0 rfl _).trans <| (A_eq5 (E5 m) c 0).trans (B11_x m c (o₀ m c))
theorem B12_v0 (c : Dev nD) (o : TailArr (F := F) c) : B12 m c o (Proc.devRef .tc main_call0_v0) = B1 m c (Proc.devRef .tc main_call0_v0) :=
  (B12_of m c o main_call0_v0 (by decide)).trans (B11_v0 m c o)

/-! ## The running result: each update stretch writes the previous running result with one chunk's array laid over
    its columns -/

/-- The update after chunk 1, as the stretch computes it from the buffers it reads. -/
theorem B5_upd (c : Dev nD) (o : TailArr (F := F) c) : ∃ s : Fin 2 → Int, (s 0 = 0 ∧ s 1 = 0) ∧
    B5 m c o (Proc.devRef .tc main_call0_v4) = Host.dynamicUpdateSlice (B4 m c o (Proc.devRef .tc main_call0_v1))
      (B4 m c o (Proc.devRef .tc main_call0_v3)) s updateFits_S1024x100000_S1024x24576 := by
  apply Exists.intro
  refine And.intro ?hs ?heq
  case heq =>
    show StableHlo.after hostOps2 (B4 m c o) (Proc.devRef .tc main_call0_v4) = _
    after_results
    rfl
  case hs =>
    constructor <;> rfl

/-- The running result after chunk 1: the one before it with chunk 1's array written at column 0. -/
theorem acc1 (c : Dev nD) (o : TailArr (F := F) c) : ∃ s : Fin 2 → Int, (s 0 = 0 ∧ s 1 = 0) ∧
    B5 m c o (Proc.devRef .tc main_call0_v4) = Host.dynamicUpdateSlice o
      ((dat1 (E1 m) c).arrAt 2 cfg1.N) s updateFits_S1024x100000_S1024x24576 := by
  obtain ⟨s, hs, h⟩ := B5_upd m c o
  have e1 : B4 m c o (Proc.devRef .tc main_call0_v1) = o :=
    (B4_of m c o main_call0_v1 (by decide)).trans ((B3_of m c o main_call0_v1 (by decide)).trans (B2_tail m c o))
  have e2 : B4 m c o (Proc.devRef .tc main_call0_v3) = (dat1 (E1 m) c).arrAt 2 cfg1.N := B4_arr m c o 2
  exact ⟨s, hs, by rw [h, e1, e2]⟩

/-- The update after chunk 2, as the stretch computes it from the buffers it reads. -/
theorem B7_upd (c : Dev nD) (o : TailArr (F := F) c) : ∃ s : Fin 2 → Int, (s 0 = 0 ∧ s 1 = 24576) ∧
    B7 m c o (Proc.devRef .tc main_call0_v7) = Host.dynamicUpdateSlice (B6 m c o (Proc.devRef .tc main_call0_v4))
      (B6 m c o (Proc.devRef .tc main_call0_v6)) s updateFits_S1024x100000_S1024x24576 := by
  apply Exists.intro
  refine And.intro ?hs ?heq
  case heq =>
    show StableHlo.after hostOps3 (B6 m c o) (Proc.devRef .tc main_call0_v7) = _
    after_results
    rfl
  case hs =>
    constructor <;> rfl

/-- The running result after chunk 2: the one before it with chunk 2's array written at column 24576. -/
theorem acc2 (c : Dev nD) (o : TailArr (F := F) c) : ∃ s : Fin 2 → Int, (s 0 = 0 ∧ s 1 = 24576) ∧
    B7 m c o (Proc.devRef .tc main_call0_v7) = Host.dynamicUpdateSlice (B5 m c o (Proc.devRef .tc main_call0_v4))
      ((dat2 (E2 m) c).arrAt 2 cfg2.N) s updateFits_S1024x100000_S1024x24576 := by
  obtain ⟨s, hs, h⟩ := B7_upd m c o
  have e1 : B6 m c o (Proc.devRef .tc main_call0_v4) = B5 m c o (Proc.devRef .tc main_call0_v4) :=
    B6_of m c o main_call0_v4 (by decide)
  have e2 : B6 m c o (Proc.devRef .tc main_call0_v6) = (dat2 (E2 m) c).arrAt 2 cfg2.N := B6_arr m c o 2
  exact ⟨s, hs, by rw [h, e1, e2]⟩

/-- The update after chunk 3, as the stretch computes it from the buffers it reads. -/
theorem B9_upd (c : Dev nD) (o : TailArr (F := F) c) : ∃ s : Fin 2 → Int, (s 0 = 0 ∧ s 1 = 49152) ∧
    B9 m c o (Proc.devRef .tc main_call0_v10) = Host.dynamicUpdateSlice (B8 m c o (Proc.devRef .tc main_call0_v7))
      (B8 m c o (Proc.devRef .tc main_call0_v9)) s updateFits_S1024x100000_S1024x24576 := by
  apply Exists.intro
  refine And.intro ?hs ?heq
  case heq =>
    show StableHlo.after hostOps4 (B8 m c o) (Proc.devRef .tc main_call0_v10) = _
    after_results
    rfl
  case hs =>
    constructor <;> rfl

/-- The running result after chunk 3: the one before it with chunk 3's array written at column 49152. -/
theorem acc3 (c : Dev nD) (o : TailArr (F := F) c) : ∃ s : Fin 2 → Int, (s 0 = 0 ∧ s 1 = 49152) ∧
    B9 m c o (Proc.devRef .tc main_call0_v10) = Host.dynamicUpdateSlice (B7 m c o (Proc.devRef .tc main_call0_v7))
      ((dat3 (E3 m) c).arrAt 2 cfg3.N) s updateFits_S1024x100000_S1024x24576 := by
  obtain ⟨s, hs, h⟩ := B9_upd m c o
  have e1 : B8 m c o (Proc.devRef .tc main_call0_v7) = B7 m c o (Proc.devRef .tc main_call0_v7) :=
    B8_of m c o main_call0_v7 (by decide)
  have e2 : B8 m c o (Proc.devRef .tc main_call0_v9) = (dat3 (E3 m) c).arrAt 2 cfg3.N := B8_arr m c o 2
  exact ⟨s, hs, by rw [h, e1, e2]⟩

/-- The update after chunk 4, as the stretch computes it from the buffers it reads. -/
theorem B11_upd (c : Dev nD) (o : TailArr (F := F) c) : ∃ s : Fin 2 → Int, (s 0 = 0 ∧ s 1 = 73728) ∧
    B11 m c o (Proc.devRef .tc main_call0_v13) = Host.dynamicUpdateSlice (B10 m c o (Proc.devRef .tc main_call0_v10))
      (B10 m c o (Proc.devRef .tc main_call0_v12)) s updateFits_S1024x100000_S1024x24576 := by
  apply Exists.intro
  refine And.intro ?hs ?heq
  case heq =>
    show StableHlo.after hostOps5 (B10 m c o) (Proc.devRef .tc main_call0_v13) = _
    after_results
    rfl
  case hs =>
    constructor <;> rfl

/-- The running result after chunk 4: the one before it with chunk 4's array written at column 73728. -/
theorem acc4 (c : Dev nD) (o : TailArr (F := F) c) : ∃ s : Fin 2 → Int, (s 0 = 0 ∧ s 1 = 73728) ∧
    B11 m c o (Proc.devRef .tc main_call0_v13) = Host.dynamicUpdateSlice (B9 m c o (Proc.devRef .tc main_call0_v10))
      ((dat4 (E4 m) c).arrAt 2 cfg4.N) s updateFits_S1024x100000_S1024x24576 := by
  obtain ⟨s, hs, h⟩ := B11_upd m c o
  have e1 : B10 m c o (Proc.devRef .tc main_call0_v10) = B9 m c o (Proc.devRef .tc main_call0_v10) :=
    B10_of m c o main_call0_v10 (by decide)
  have e2 : B10 m c o (Proc.devRef .tc main_call0_v12) = (dat4 (E4 m) c).arrAt 2 cfg4.N := B10_arr m c o 2
  exact ⟨s, hs, by rw [h, e1, e2]⟩

/-- The update after chunk 5, as the stretch computes it from the buffers it reads. -/
theorem B13_upd (c : Dev nD) (o : TailArr (F := F) c) : ∃ s : Fin 2 → Int, (s 0 = 0 ∧ s 1 = 98304) ∧
    B13 m c o (Proc.devRef .tc main_v0) = Host.dynamicUpdateSlice (B12 m c o (Proc.devRef .tc main_call0_v13))
      (B12 m c o (Proc.devRef .tc main_call0_v15)) s updateFits_S1024x100000_S1024x1664 := by
  apply Exists.intro
  refine And.intro ?hs ?heq
  case heq =>
    show StableHlo.after hostOps6 (B12 m c o) (Proc.devRef .tc main_v0) = _
    after_results
    rfl
  case hs =>
    constructor <;> rfl

/-- The running result after chunk 5: the one before it with chunk 5's array written at column 98304. -/
theorem acc5 (c : Dev nD) (o : TailArr (F := F) c) : ∃ s : Fin 2 → Int, (s 0 = 0 ∧ s 1 = 98304) ∧
    B13 m c o (Proc.devRef .tc main_v0) = Host.dynamicUpdateSlice (B11 m c o (Proc.devRef .tc main_call0_v13))
      ((dat5 (E5 m) c).arrAt 2 cfg5.N) s updateFits_S1024x100000_S1024x1664 := by
  obtain ⟨s, hs, h⟩ := B13_upd m c o
  have e1 : B12 m c o (Proc.devRef .tc main_call0_v13) = B11 m c o (Proc.devRef .tc main_call0_v13) :=
    B12_of m c o main_call0_v13 (by decide)
  have e2 : B12 m c o (Proc.devRef .tc main_call0_v15) = (dat5 (E5 m) c).arrAt 2 cfg5.N := B12_arr m c o 2
  exact ⟨s, hs, by rw [h, e1, e2]⟩

end Cert.KernelIdeal.Tiles

end
-- ==== Proof.IdealSide.Run.lean ====
/-
  The run of the whole program: @main is thirteen items — the transpose; the tail region; and five times a column
  slice (with, from the second on, the update of the running result by the previous chunk), a column chunk's region —
  then the last update. Each host stretch folds the buffers' contents forward; each region replaces its arrays by what
  its write-backs leave. What the tail region leaves in its output array is constrained, not named, so every thread
  state after it is stated for SOME such contents. The conclusion reads every unscoped buffer off the last contents.
-/
import proofs.«177054_g53008486367263_cont_8to1_c_744_45_alg».proof.Proof.IdealSide.Fold

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: thirteen items, seven host stretches and six regions

## The proof data family and the thread state -/

/-- No pipeline prefetches a table. -/
abbrev admT : (p : Fin 6) → (pcfgs (F := F) p).Adm := fun p => (cfgs p).toPCfg_adm

/-- Every pipeline's data: the tail region's relational data at its entry contents; each column chunk's named data,
    at the entry contents that do not mention what the tail leaves, read relationally. -/
def rdats : (p : Fin 6) → (c : Dev nD) → Pipeline.RDat τ (Elt F) Unit ℕ (UR sig nD τ) ℕ (Pipeline.pin (pcfgs (F := F)) admT p) c
  | ⟨0, _⟩ => fun c => tailR (R1 m) c
  | ⟨1, _⟩ => fun c => (dat1 (E1 m) c).toR
  | ⟨2, _⟩ => fun c => (dat2 (E2 m) c).toR
  | ⟨3, _⟩ => fun c => (dat3 (E3 m) c).toR
  | ⟨4, _⟩ => fun c => (dat4 (E4 m) c).toR
  | ⟨5, _⟩ => fun c => (dat5 (E5 m) c).toR

abbrev 𝒱T : Variants := Variants.none
abbrev LT : GSem nD τ sig → Finset Unit := fun _ => ∅
abbrev lvT : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-- The thread state between two items after the tail region: every unscoped buffer at the fold's contents for SOME
    contents `o` of the tail's array that the data allow, and the rest. -/
def stEx (B : (c : Dev nD) → TailArr (F := F) c → Valuation τ sig (Elt F)) (c : Dev nD) : sProp 𝕄 :=
  iprop(∃ o, ⌜TailOut m c o⌝ ∗ StableHlo.held (c : Thread nD τ) (Pipeline.ucRefs τ sig) (B c o) ∗ Rr c)

/-- The first host stretch runs from the launch contents. -/
abbrev hseg0 : Pipeline.HostSeg (Name := ℕ) (U := UR sig nD τ) (pcfgs (F := F)) defs₀ 𝒱T LT lvT :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) Rr

set_option backward.isDefEq.respectTransparency.types false in
/-- A host stretch after the tail region: whatever the tail left, the stretch folds over it. -/
def hsegEx (ops : List (HloOp τ sig (Elt F))) (hsub : ops.Forall fun op => op.bufs ⊆ StableHlo.tcRefs τ sig)
    (hfresh : ops.Forall fun op => op.fresh = ∅) (B : (c : Dev nD) → TailArr (F := F) c → Valuation τ sig (Elt F)) :
    Pipeline.HostSeg (Name := ℕ) (U := UR sig nD τ) (pcfgs (F := F)) defs₀ 𝒱T LT lvT where
  prog := StableHlo.seq ops
  pre c := stEx m B c
  post c := stEx m (fun c o => StableHlo.after ops (B c o)) c
  run c {β} k K := by
    unfold stEx
    iintro ⟨Hk, Hbd, ⟨%o, %ho, Hh, HR⟩, -⟩
    iapply (StableHlo.wp_seq (defs := Pipeline.defs (pcfgs (F := F)) defs₀) (Variants.lift 𝒱T) none Set.univ c (Pipeline.ucRefs τ sig) k (K := K) ops
      (fun op h => Pipeline.sub_ucRefs op ((List.forall_iff_forall_mem.mp hsub) op h))
      (fun op h => (List.forall_iff_forall_mem.mp hfresh) op h) (B c o)) $$ [Hbd Hh]
    · isplitl [Hbd] <;> iassumption
    iintro ⟨Hbd, Hh⟩
    iapply Hk
    isplitl [Hbd]; · iexact Hbd
    iexists o
    isplitr; · ipureintro; exact ho
    isplitl [Hh] <;> iassumption

/-- Pipeline `p`'s arrays at contents `Fw` and the unscoped rest at `V` are the core's unscoped buffers at any
    valuation `V'` that has the arrays at `Fw` and agrees with `V` off them. -/
theorem rejoin {p : Fin 6} (hw : Pipeline.WinFacts (Pipeline.pin (pcfgs (F := F)) admT p).spec)
    (harr : ∀ w, ((Pipeline.pin (pcfgs (F := F)) admT p).spec w).arr.IsWhole) (c : Dev nD)
    (hshare : ∀ w, (rdats m p c).share w = fullShare)
    (V V' : (b : Ref sig .tc) → Buf (Elt F) ((c : Thread nD τ).loc b))
    (Fw : (w : Fin (Pipeline.pin (pcfgs (F := F)) admT p).W) → Buf (Elt F) (((Pipeline.pin (pcfgs (F := F)) admT p).spec w).arr.view.loc (c : Thread nD τ)))
    (hF : ∀ w, Fw w = V' (Pipeline.arrRef (Pipeline.pin (pcfgs (F := F)) admT p).spec w))
    (hrest : ∀ b, b ∉ Finset.univ.image (Pipeline.arrRef (Pipeline.pin (pcfgs (F := F)) admT p).spec) → V' b = V b) :
    iprop((rdats m p c).arrays Fw ∗ Pipeline.unscopedRest (Pipeline.pin (pcfgs (F := F)) admT p).spec c V)
      ⊢ (unscopedBufs c V' : sProp 𝕄) := by
  rw [Pipeline.unscopedBufs_split (Pipeline.pin (pcfgs (F := F)) admT) p hw.arr_unscoped hw.arr_inj c V',
    Pipeline.RDat.arrays_eq (pcfgs (F := F)) admT (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## The regions as segments -/

/-- Every data's arrays are held at the full share. -/
theorem tailR_share (c : Dev nD) (w : Fin cfg0.W) : (tailR (R1 m) c).share w = fullShare := by
  unfold Pipeline.RDat.share; split <;> rfl

/-- The tail region's arrays when it ends, read off the fold at the contents `o` its output array then holds. -/
def tailF (c : Dev nD) (o : TailArr (F := F) c) : (w : Fin cfg0.W) → Buf (Elt F) ((cfg0.win w).arr.view.loc (c : Thread nD τ)) :=
  fun w => B2 m c o (Proc.devRef .tc (Pipeline.arrRef spec0 w))

set_option backward.isDefEq.respectTransparency.types false in
/-- THE TAIL REGION: entered from every unscoped buffer at the contents after the transpose, left at those with its
    output array at SOME contents the data allow. -/
def regTail : Pipeline.RDat.RegionSeg (pcfgs (F := F)) admT (rdats m) () defs₀ 𝒱T LT lvT 0 where
  win := launch0.win.to₀
  block_pos := launch0.block_pos
  stage_whole := launch0.stage_whole
  K := PEmpty
  osem k := k.elim
  ho := Pipeline.OwnSemFacts.none _
  hbody c := tail_obligation (R1 m) c
  hwaits := Pipeline.RDat.hwaits_of_owed_zero _ _ _ _ LT lvT 0 fun _ _ => rfl
  pre c := iprop(StableHlo.held (c : Thread nD τ) (Pipeline.ucRefs τ sig) (B1 m c) ∗ Rr c)
  post c := stEx m (B2 m) c
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.RDat.arrays_of_unscopedBufs (p := 0) (pcfgs (F := F)) admT (rdats m) launch0.win launch0.arr_whole c
      (tailR_share m c) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hA0 : (tailR (R1 m) c).ArrAt 0 cfg0.N = fun G => G = (tailR (R1 m) c).A 0 := (tailR (R1 m) c).ArrAt_in 0 rfl _
    have hA1 : (tailR (R1 m) c).ArrAt 1 cfg0.N = fun G => G = (tailR (R1 m) c).A 1 := (tailR (R1 m) c).ArrAt_in 1 rfl _
    show iprop((tailR (R1 m) c).arraysAt cfg0.N ∗ (tailR (R1 m) c).owesAt () (Fin.last cfg0.N) ∗ (∃ r, prngReg c r)
      ∗ Pipeline.unscopedRest spec0 c (R1 m c)) ⊢ _
    unfold Pipeline.RDat.arraysAt
    rw [bigSep_W0]
    iintro ⟨⟨⟨%F0, %h0, A0⟩, ⟨%F1, %h1, A1⟩, ⟨%F2, %h2, A2⟩⟩, HO, HY, Hrest⟩
    rw [hA0] at h0; rw [hA1] at h1
    have e0 : F0 = tailF m c F2 0 := h0.trans (B2_of m c F2 main_arg0 (by decide)).symm
    have e1 : F1 = tailF m c F2 1 := h1.trans (B2_of m c F2 main_call0_v0 (by decide)).symm
    have e2 : F2 = tailF m c F2 2 := (B2_tail m c F2).symm
    have hjoin := rejoin m (p := 0) launch0.win launch0.arr_whole c (tailR_share m c) (R1 m c) (fun b => B2 m c F2 b)
      (tailF m c F2) (fun _ => rfl) (fun b hb => B2_of m c F2 b fun e => hb (Finset.mem_image.mpr ⟨2, Finset.mem_univ _, e.symm⟩))
    rw [Pipeline.unscopedBufs_held] at hjoin
    have harrs : iprop(((cfg0.win 0).arr.view.loc (c : Thread nD τ) ↦[(cfg0.win 0).arr.view.set]{(tailR (R1 m) c).share 0} F0)
        ∗ ((cfg0.win 1).arr.view.loc (c : Thread nD τ) ↦[(cfg0.win 1).arr.view.set]{(tailR (R1 m) c).share 1} F1)
        ∗ ((cfg0.win 2).arr.view.loc (c : Thread nD τ) ↦[(cfg0.win 2).arr.view.set]{(tailR (R1 m) c).share 2} F2))
        ⊢ ((tailR (R1 m) c).arrays (tailF m c F2) : sProp 𝕄) := by
      unfold Pipeline.RDat.arrays
      rw [bigSep_W0, ← e0, ← e1, ← e2]
    imodintro
    unfold stEx
    iexists F2
    isplitr; · ipureintro; exact h2
    isplitl [A0 A1 A2 Hrest]
    · iapply hjoin
      isplitr [Hrest]
      · iapply harrs
        isplitl [A0]; · iexact A0
        isplitl [A1]; · iexact A1
        iexact A2
      · iexact Hrest
    isplitl [HY]; · iexact HY
    unfold Pipeline.RDat.owesAt Pipeline.owesWithin
    icases HO with ⟨%W, -, HO⟩; iexists W; iexact HO

theorem chunk1_share (c : Dev nD) (w : Fin cfg1.W) : (rdats m 1 c).share w = fullShare :=
  (dat1 (E1 m) c).share_full (fun _ => rfl) w

set_option backward.isDefEq.respectTransparency.types false in
/-- COLUMN CHUNK 1's REGION: entered from the fold's contents before it, at whatever the tail left, and left at
    the fold's contents after it, at the same. -/
def regChunk1 : Pipeline.RDat.RegionSeg (pcfgs (F := F)) admT (rdats m) () defs₀ 𝒱T LT lvT 1 where
  win := launch1.win.to₀
  block_pos := launch1.block_pos
  stage_whole := launch1.stage_whole
  K := PEmpty
  osem k := k.elim
  ho := Pipeline.OwnSemFacts.none _
  hbody c := (body_obligation1 (E1 m) c).toR
  hwaits := Pipeline.RDat.hwaits_of_owed_zero _ _ _ _ LT lvT 1 fun _ _ => rfl
  pre c := stEx m (B3 m) c
  post c := stEx m (B4 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec1 c (fun b => B3 m c o b))
  hentry c := by
    rw [Pipeline.ownSems0_none]
    unfold stEx
    iintro ⟨⟨%o, %ho, Hub, Hp, HO⟩, -, -⟩
    have hsplit := Pipeline.RDat.arrays_of_unscopedBufs (p := 1) (pcfgs (F := F)) admT (rdats m) launch1.win launch1.arr_whole c
      (chunk1_share m c) (fun b => B3 m c o b) (indep1 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hpost : ((dat1 (E1 m) c).toR.arraysAt cfg1.N : sProp 𝕄) ⊢ (rdats m 1 c).arrays ((dat1 (E1 m) c).arrAt · cfg1.N) :=
      (dat1 (E1 m) c).toR_arraysAt_post cfg1.N
    show iprop((dat1 (E1 m) c).toR.arraysAt cfg1.N ∗ (dat1 (E1 m) c).toR.owesAt () (Fin.last cfg1.N) ∗ _ ∗ _) ⊢ _
    iintro ⟨Ha, HO, HY, ⟨%o, %ho, Hrest⟩⟩
    have hjoin := rejoin m (p := 1) launch1.win launch1.arr_whole c (chunk1_share m c) (fun b => B3 m c o b) (fun b => B4 m c o b)
      ((dat1 (E1 m) c).arrAt · cfg1.N) (fun w => (B4_arr m c o w).symm)
      (fun b hb => B4_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

theorem chunk2_share (c : Dev nD) (w : Fin cfg2.W) : (rdats m 2 c).share w = fullShare :=
  (dat2 (E2 m) c).share_full (fun _ => rfl) w

set_option backward.isDefEq.respectTransparency.types false in
/-- COLUMN CHUNK 2's REGION: entered from the fold's contents before it, at whatever the tail left, and left at
    the fold's contents after it, at the same. -/
def regChunk2 : Pipeline.RDat.RegionSeg (pcfgs (F := F)) admT (rdats m) () defs₀ 𝒱T LT lvT 2 where
  win := launch2.win.to₀
  block_pos := launch2.block_pos
  stage_whole := launch2.stage_whole
  K := PEmpty
  osem k := k.elim
  ho := Pipeline.OwnSemFacts.none _
  hbody c := (body_obligation2 (E2 m) c).toR
  hwaits := Pipeline.RDat.hwaits_of_owed_zero _ _ _ _ LT lvT 2 fun _ _ => rfl
  pre c := stEx m (B5 m) c
  post c := stEx m (B6 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec2 c (fun b => B5 m c o b))
  hentry c := by
    rw [Pipeline.ownSems0_none]
    unfold stEx
    iintro ⟨⟨%o, %ho, Hub, Hp, HO⟩, -, -⟩
    have hsplit := Pipeline.RDat.arrays_of_unscopedBufs (p := 2) (pcfgs (F := F)) admT (rdats m) launch2.win launch2.arr_whole c
      (chunk2_share m c) (fun b => B5 m c o b) (indep2 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hpost : ((dat2 (E2 m) c).toR.arraysAt cfg2.N : sProp 𝕄) ⊢ (rdats m 2 c).arrays ((dat2 (E2 m) c).arrAt · cfg2.N) :=
      (dat2 (E2 m) c).toR_arraysAt_post cfg2.N
    show iprop((dat2 (E2 m) c).toR.arraysAt cfg2.N ∗ (dat2 (E2 m) c).toR.owesAt () (Fin.last cfg2.N) ∗ _ ∗ _) ⊢ _
    iintro ⟨Ha, HO, HY, ⟨%o, %ho, Hrest⟩⟩
    have hjoin := rejoin m (p := 2) launch2.win launch2.arr_whole c (chunk2_share m c) (fun b => B5 m c o b) (fun b => B6 m c o b)
      ((dat2 (E2 m) c).arrAt · cfg2.N) (fun w => (B6_arr m c o w).symm)
      (fun b hb => B6_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

theorem chunk3_share (c : Dev nD) (w : Fin cfg3.W) : (rdats m 3 c).share w = fullShare :=
  (dat3 (E3 m) c).share_full (fun _ => rfl) w

set_option backward.isDefEq.respectTransparency.types false in
/-- COLUMN CHUNK 3's REGION: entered from the fold's contents before it, at whatever the tail left, and left at
    the fold's contents after it, at the same. -/
def regChunk3 : Pipeline.RDat.RegionSeg (pcfgs (F := F)) admT (rdats m) () defs₀ 𝒱T LT lvT 3 where
  win := launch3.win.to₀
  block_pos := launch3.block_pos
  stage_whole := launch3.stage_whole
  K := PEmpty
  osem k := k.elim
  ho := Pipeline.OwnSemFacts.none _
  hbody c := (body_obligation3 (E3 m) c).toR
  hwaits := Pipeline.RDat.hwaits_of_owed_zero _ _ _ _ LT lvT 3 fun _ _ => rfl
  pre c := stEx m (B7 m) c
  post c := stEx m (B8 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec3 c (fun b => B7 m c o b))
  hentry c := by
    rw [Pipeline.ownSems0_none]
    unfold stEx
    iintro ⟨⟨%o, %ho, Hub, Hp, HO⟩, -, -⟩
    have hsplit := Pipeline.RDat.arrays_of_unscopedBufs (p := 3) (pcfgs (F := F)) admT (rdats m) launch3.win launch3.arr_whole c
      (chunk3_share m c) (fun b => B7 m c o b) (indep3 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    have hpost : ((dat3 (E3 m) c).toR.arraysAt cfg3.N : sProp 𝕄) ⊢ (rdats m 3 c).arrays ((dat3 (E3 m) c).arrAt · cfg3.N) :=
      (dat3 (E3 m) c).toR_arraysAt_post cfg3.N
    show iprop((dat3 (E3 m) c).toR.arraysAt cfg3.N ∗ (dat3 (E3 m) c).toR.owesAt () (Fin.last cfg3.N) ∗ _ ∗ _) ⊢ _
    iintro ⟨Ha, HO, HY, ⟨%o, %ho, Hrest⟩⟩
    have hjoin := rejoin m (p := 3) launch3.win launch3.arr_whole c (chunk3_share m c) (fun b => B7 m c o b) (fun b => B8 m c o b)
      ((dat3 (E3 m) c).arrAt · cfg3.N) (fun w => (B8_arr m c o w).symm)
      (fun b hb => B8_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

theorem chunk4_share (c : Dev nD) (w : Fin cfg4.W) : (rdats m 4 c).share w = fullShare :=
  (dat4 (E4 m) c).share_full (fun _ => rfl) w

set_option backward.isDefEq.respectTransparency.types false in
/-- COLUMN CHUNK 4's REGION: entered from the fold's contents before it, at whatever the tail left, and left at
    the fold's contents after it, at the same. -/
def regChunk4 : Pipeline.RDat.RegionSeg (pcfgs (F := F)) admT (rdats m) () defs₀ 𝒱T LT lvT 4 where
  win := launch4.win.to₀
  block_pos := launch4.block_pos
  stage_whole := launch4.stage_whole
  K := PEmpty
  osem k := k.elim
  ho := Pipeline.OwnSemFacts.none _
  hbody c := (body_obligation4 (E4 m) c).toR
  hwaits := Pipeline.RDat.hwaits_of_owed_zero _ _ _ _ LT lvT 4 fun _ _ => rfl
  pre c := stEx m (B9 m) c
  post c := stEx m (B10 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec4 c (fun b => B9 m c o b))
  hentry c := by
    rw [Pipeline.ownSems0_none]
    unfold stEx
    iintro ⟨⟨%o, %ho, Hub, Hp, HO⟩, -, -⟩
    have hsplit := Pipeline.RDat.arrays_of_unscopedBufs (p := 4) (pcfgs (F := F)) admT (rdats m) launch4.win launch4.arr_whole c
      (chunk4_share m c) (fun b => B9 m c o b) (indep4 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (rdats m 4 c).Φ (Fin.last _) = Pipeline.ΦA spec4 c from rfl]; unfold Pipeline.ΦA
    iintro ⟨Hr, Hp⟩
    isplitl [Hp]; · iexact Hp
    isplitr; · iempintro
    iexact Hr
  hexit c := by
    have hpost : ((dat4 (E4 m) c).toR.arraysAt cfg4.N : sProp 𝕄) ⊢ (rdats m 4 c).arrays ((dat4 (E4 m) c).arrAt · cfg4.N) :=
      (dat4 (E4 m) c).toR_arraysAt_post cfg4.N
    show iprop((dat4 (E4 m) c).toR.arraysAt cfg4.N ∗ (dat4 (E4 m) c).toR.owesAt () (Fin.last cfg4.N) ∗ _ ∗ _) ⊢ _
    iintro ⟨Ha, HO, HY, ⟨%o, %ho, Hrest⟩⟩
    have hjoin := rejoin m (p := 4) launch4.win launch4.arr_whole c (chunk4_share m c) (fun b => B9 m c o b) (fun b => B10 m c o b)
      ((dat4 (E4 m) c).arrAt · cfg4.N) (fun w => (B10_arr m c o w).symm)
      (fun b hb => B10_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

theorem chunk5_share (c : Dev nD) (w : Fin cfg5.W) : (rdats m 5 c).share w = fullShare :=
  (dat5 (E5 m) c).share_full (fun _ => rfl) w

set_option backward.isDefEq.respectTransparency.types false in
/-- COLUMN CHUNK 5's REGION: entered from the fold's contents before it, at whatever the tail left, and left at
    the fold's contents after it, at the same. -/
def regChunk5 : Pipeline.RDat.RegionSeg (pcfgs (F := F)) admT (rdats m) () defs₀ 𝒱T LT lvT 5 where
  win := launch5.win.to₀
  block_pos := launch5.block_pos
  stage_whole := launch5.stage_whole
  K := PEmpty
  osem k := k.elim
  ho := Pipeline.OwnSemFacts.none _
  hbody c := (body_obligation5 (E5 m) c).toR
  hwaits := Pipeline.RDat.hwaits_of_owed_zero _ _ _ _ LT lvT 5 fun _ _ => rfl
  pre c := stEx m (B11 m) c
  post c := stEx m (B12 m) c
  X c := iprop(∃ r, prngReg c r)
  Y c := iprop(∃ r, prngReg c r)
  Z c := iprop(∃ o, ⌜TailOut m c o⌝ ∗ Pipeline.unscopedRest (Ix := Unit) (Name := ℕ) (U := UR sig nD τ) (Lvl := ℕ) spec5 c (fun b => B11 m c o b))
  hentry c := by
    rw [Pipeline.ownSems0_none]
    unfold stEx
    iintro ⟨⟨%o, %ho, Hub, Hp, HO⟩, -, -⟩
    have hsplit := Pipeline.RDat.arrays_of_unscopedBufs (p := 5) (pcfgs (F := F)) admT (rdats m) launch5.win launch5.arr_whole c
      (chunk5_share m c) (fun b => B11 m c o b) (indep5 m c o)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; isplitr; · ipureintro; exact ho
    iexact Hrest
  hin c := by
    rw [show (rdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (rdats m 5 c).Φ (Fin.last _) = Pipeline.ΦA spec5 c from rfl]; unfold Pipeline.ΦA
    iintro ⟨Hr, Hp⟩
    isplitl [Hp]; · iexact Hp
    isplitr; · iempintro
    iexact Hr
  hexit c := by
    have hpost : ((dat5 (E5 m) c).toR.arraysAt cfg5.N : sProp 𝕄) ⊢ (rdats m 5 c).arrays ((dat5 (E5 m) c).arrAt · cfg5.N) :=
      (dat5 (E5 m) c).toR_arraysAt_post cfg5.N
    show iprop((dat5 (E5 m) c).toR.arraysAt cfg5.N ∗ (dat5 (E5 m) c).toR.owesAt () (Fin.last cfg5.N) ∗ _ ∗ _) ⊢ _
    iintro ⟨Ha, HO, HY, ⟨%o, %ho, Hrest⟩⟩
    have hjoin := rejoin m (p := 5) launch5.win launch5.arr_whole c (chunk5_share m c) (fun b => B11 m c o b) (fun b => B12 m c o b)
      ((dat5 (E5 m) c).arrAt · cfg5.N) (fun w => (B12_arr m c o w).symm)
      (fun b hb => B12_of m c o b fun w e => hb (Finset.mem_image.mpr ⟨w, Finset.mem_univ _, e⟩))
    rw [Pipeline.unscopedBufs_held] at hjoin
    ihave Ha' := hpost $$ Ha
    imodintro
    unfold stEx
    iexists o
    isplitr; · ipureintro; exact ho
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

/-! ## @main as segments, and the launch -/

/-- @main's thirteen items in order. -/
abbrev segsT : List (Pipeline.RDat.Seg (pcfgs (F := F)) admT (rdats m) () defs₀ 𝒱T LT lvT) :=
  [ .host (hseg0 m),
    .region (regTail m),
    .host (hsegEx m hostOps1 hostOps1_sub hostOps1_fresh (B2 m)),
    .region (regChunk1 m),
    .host (hsegEx m hostOps2 hostOps2_sub hostOps2_fresh (B4 m)),
    .region (regChunk2 m),
    .host (hsegEx m hostOps3 hostOps3_sub hostOps3_fresh (B6 m)),
    .region (regChunk3 m),
    .host (hsegEx m hostOps4 hostOps4_sub hostOps4_fresh (B8 m)),
    .region (regChunk4 m),
    .host (hsegEx m hostOps5 hostOps5_sub hostOps5_fresh (B10 m)),
    .region (regChunk5 m),
    .host (hsegEx m hostOps6 hostOps6_sub hostOps6_fresh (B12 m)) ]

/-- @main is the run of the segments. -/
theorem main_run (c : Dev nD) : main (F := F) c = Pipeline.RDat.Seg.run (segsT m) := (main_chain c).trans (by chain_rfl)

/-- The last thread state without the dues: every unscoped buffer at the last contents of the fold, for some
    contents of the tail's array that the data allow, and the generator register at some state. -/
abbrev TnT (c : Dev nD) : sProp 𝕄 :=
  iprop(∃ o, ⌜TailOut m c o⌝ ∗ StableHlo.held (c : Thread nD τ) (Pipeline.ucRefs τ sig) (B13 m c o) ∗ ∃ r, prngReg c r)

set_option backward.isDefEq.respectTransparency.types false in
/-- THE RUN: at the compiled mesh, from any memory with zero counters, every weakly fair execution of @main on the
    TensorCores terminates, nothing faulting, and on every core the final memory holds every unscoped buffer at the
    fold's last contents, for some contents of the tail's array that the data allow. -/
theorem run : θ_run defs (onTc (τ := τ) (main (F := F))) ⟨m, fun _ => 0, ρ⟩ (fun r => ∀ c : Dev nD,
      ∃ o, TailOut m c o ∧ ∀ b ∈ Pipeline.ucRefs τ sig, r.2.mem (((c : Thread nD τ)).1, b) = B13 m c o b) :=
  Pipeline.RDat.θ_run_regions_kit (pcfgs (F := F)) admT (rdats m) () cellOf_inj emb₁ defs₀ 𝒱T LT lvT m ρ main (segsT m)
    (fun c Q => by rw [main_run m c])
    (by simp only [segsT, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := TnT m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show stEx m (B13 m) c ⊢ _
        unfold stEx
        iintro ⟨%o, %ho, Hh, Hp, HO⟩
        isplitr [HO]
        · iexists o; isplitr; · ipureintro; exact ho
          isplitl [Hh]; · iexact Hh
          iexact Hp
        iexact HO⟩)
    (hinit := by
      refine Pipeline.initEach LT lvT fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∃ o, TailOut m c o ∧ ∀ b ∈ Pipeline.ucRefs τ sig, s.mem (((c : Thread nD τ)).1, b) = B13 m c o b)
    (hfin := fun c s' => by
      iintro ⟨⟨%o, %ho, Hh, -⟩, HSI⟩
      unfold StableHlo.held
      ihave Hr := (pointsTo_read_all (Pipeline.ucRefs τ sig) (fun b => (((c : Thread nD τ)).1, b)) (B13 m c o) s') $$ [Hh HSI]
      · isplitl [Hh] <;> iassumption
      icases Hr with ⟨%h, HSI⟩
      imodintro
      isplitr
      · ipureintro; exact ⟨o, ho, h⟩
      · iexact HSI)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Tiles

end
-- ==== Proof.IdealSide.Frames.lean ====
/-
  The frame claim, read off the run: no host stretch writes an argument array and no region may change one (the left
  factor is an input window of every region; the right factor is read only by the transpose), so the fold's last
  contents at the two arguments are the launch contents.
-/
import proofs.«177054_g53008486367263_cont_8to1_c_744_45_alg».proof.Proof.IdealSide.Run

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The left factor ends as launched. -/
theorem B13_x (c : Dev nD) (o : TailArr (F := F) c) : B13 m c o (Proc.devRef .tc main_arg0) = m ((c : Thread nD τ).loc main_arg0) :=
  (B13_of m c o main_arg0 (by decide)).trans (B12_x m c o)

/-- The right factor ends as launched. -/
theorem B13_y (c : Dev nD) (o : TailArr (F := F) c) : B13 m c o (Proc.devRef .tc main_arg1) = m ((c : Thread nD τ).loc main_arg1) :=
  (B13_of m c o main_arg1 (by decide)).trans <| (B12_of m c o main_arg1 (by decide)).trans <| (B11_of m c o main_arg1 (by decide)).trans <| (B10_of m c o main_arg1 (by decide)).trans <| (B9_of m c o main_arg1 (by decide)).trans <| (B8_of m c o main_arg1 (by decide)).trans <| (B7_of m c o main_arg1 (by decide)).trans <| (B6_of m c o main_arg1 (by decide)).trans <| (B5_of m c o main_arg1 (by decide)).trans <| (B4_of m c o main_arg1 (by decide)).trans <| (B3_of m c o main_arg1 (by decide)).trans <| (B2_of m c o main_arg1 (by decide)).trans <| (B1_of m c main_arg1 (by decide)).trans rfl

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨o, -, hb⟩ := h c
    exact ⟨(hb _ (mem_uc main_arg0 (by decide))).trans (B13_x m c o),
      (hb _ (mem_uc main_arg1 (by decide))).trans (B13_y m c o)⟩) (run m ρ)

end Cert.KernelIdeal.Tiles

end
-- ==== Proof.Spec.lean ====
/-
  The function both programs compute, at the extended reals: entry (r, c) of the output is the inner product of row r
  of x with row c of memory (a sum of 16 products), divided by the temperature. The reference program's result is
  this function: its transpose moves memory's row index to the column, its dot_general sums over the 16 columns,
  and its divide is by the broadcast temperature constant.
-/
import proofs.«177054_g53008486367263_cont_8to1_c_744_45_alg».proof.Proof.Gen.ReferenceIdeal.Read
import Idealize.ShloMosaic.Lib.ValueIdx
import Idealize.ShloMosaic.PureOps.Ideal.Laws

noncomputable section

namespace Cert.Spec

open Idealize.ShloMosaic

/-- The temperature: the extended real the f32 word 0x3D4CCCCD denotes, as both programs print it. -/
abbrev T : EReal := FloatOps.ofBits (F := Ideal) .f32 0x3D4CCCCD#32

/-- Entry i = (r, c): the sum over k of x (r, k) * mem (c, k), divided by the temperature. -/
def G (x : Cert.ReferenceIdeal.S1024x16.Idx → EReal) (mem : Cert.ReferenceIdeal.S100000x16.Idx → EReal) :
    Cert.ReferenceIdeal.S1024x100000.Idx → EReal :=
  fun i => Ideal.div (∑ k : Fin 16, x (ValueIdx.ix2 ⟨(i 0).val, (i 0).isLt⟩ k) * mem (ValueIdx.ix2 ⟨(i 1).val, (i 1).isLt⟩ k)) T

/-- The reference's result is G: read the divide, the dot_general, the broadcast constant and the transpose at an index. -/
theorem reference_eq (x : (⟨Cert.ReferenceIdeal.S1024x16, .f32⟩ : BufTy).Contents (Elt Ideal))
    (mem : (⟨Cert.ReferenceIdeal.S100000x16, .f32⟩ : BufTy).Contents (Elt Ideal)) :
    Cert.ReferenceIdeal.Read.val_main_v3 (F := Ideal) x mem = G x mem := by
  funext i
  rw [Cert.ReferenceIdeal.Read.val_main_v3_apply, Cert.ReferenceIdeal.Read.val_main_v1_apply,
    Cert.ReferenceIdeal.Read.val_main_v2_apply, Cert.ReferenceIdeal.Read.val_main_cst_apply]
  show Ideal.div _ _ = _
  unfold G
  congr 1
  refine Finset.sum_congr rfl fun k _ => ?_
  rw [Cert.ReferenceIdeal.Read.val_main_v0_apply]
  have el : Cert.ReferenceIdeal.Read.lidx_main_v1 i k = ValueIdx.ix2 ⟨(i 0).val, (i 0).isLt⟩ k := by
    funext a
    match a with
    | ⟨0, _⟩ => rfl
    | ⟨1, _⟩ => rfl
  have er : Cert.ReferenceIdeal.Read.idx_main_v0 (Cert.ReferenceIdeal.Read.ridx_main_v1 i k)
      = ValueIdx.ix2 ⟨(i 1).val, (i 1).isLt⟩ k := by
    funext a
    match a with
    | ⟨0, _⟩ => rfl
    | ⟨1, _⟩ => rfl
  exact congrArg₂ (· * ·) (congrArg x el) (congrArg mem er)

end Cert.Spec

end
-- ==== Proof.Payload.lean ====
/-
  Each kernel block's stored value, read at an index, at the extended reals: the block is x times a 16-row block y of
  the transposed memory, accumulated into zero, divided by the splat of the temperature. The shape cast is to the
  block's own shape, the contraction has one axis of 16, so entry (p, q) is the sum over k of x (p, k) * y (k, q),
  divided by the temperature.
-/
import proofs.«177054_g53008486367263_cont_8to1_c_744_45_alg».proof.Proof.Gen.KernelIdeal.Skeleton
import proofs.«177054_g53008486367263_cont_8to1_c_744_45_alg».proof.Proof.Spec
import Idealize.ShloMosaic.Lib.Pipeline.Value
import Idealize.ShloMosaic.Lib.ValueIdx
import Idealize.ShloMosaic.PureOps.Ideal.Laws

noncomputable section

namespace Cert.Payload

open Idealize.ShloMosaic

/-- A [1024,16] x [16,n] product with one contracting axis, into the zero accumulator, divided by a splat scalar t,
    read at (p, c): given where the product's operand indices sit (row of the output and the contraction's one
    coordinate on the left; that coordinate and the column of the output on the right), it is the 16-term sum over t. -/
theorem plain_apply {n : Nat} (D : DotDims (⟨2, ![1024, 16]⟩ : Shape) ⟨2, ![16, n]⟩ ⟨2, ![1024, n]⟩)
    (hr : D.contr.rank = 1) (hs : D.contr.size ⟨0, by omega⟩ = 16)
    (hl0 : ∀ (j : (⟨2, ![1024, n]⟩ : Shape).Idx) (q : D.contr.Idx), (D.lhsIdx j q 0).val = (j 0).val)
    (hl1 : ∀ (j : (⟨2, ![1024, n]⟩ : Shape).Idx) (q : D.contr.Idx), (D.lhsIdx j q 1).val = (q ⟨0, by omega⟩).val)
    (hr0 : ∀ (j : (⟨2, ![1024, n]⟩ : Shape).Idx) (q : D.contr.Idx), (D.rhsIdx j q 0).val = (q ⟨0, by omega⟩).val)
    (hr1 : ∀ (j : (⟨2, ![1024, n]⟩ : Shape).Idx) (q : D.contr.Idx), (D.rhsIdx j q 1).val = (j 1).val)
    (hsc : (⟨2, ![16, n]⟩ : Shape).ShapeCasts ⟨2, ![16, n]⟩)
    (x : FVec Ideal ⟨2, ![1024, 16]⟩ .f32) (y : FVec Ideal ⟨2, ![16, n]⟩ .f32) (t : Ideal .f32) (p : Fin 1024) (c : Fin n) :
    divf (matmul D none x (shapeCast ⟨2, ![16, n]⟩ y hsc) (constant ⟨2, ![1024, n]⟩ .f32 0x00000000#32))
        (broadcast ⟨2, ![1024, n]⟩ t) (ValueIdx.ix2 p c)
      = Ideal.div (∑ k : Fin 16, x (ValueIdx.ix2 p k) * y (ValueIdx.ix2 k c)) t := by
  rw [shapeCast_self, ValueIdx.divf_apply, ValueIdx.broadcast_apply]
  congr 1
  simp only [matmul]
  rw [Ideal.matmul_constant_zero_apply, ← Equiv.sum_comp (ValueIdx.contrEquiv1 D 16 hr hs).symm]
  refine Finset.sum_congr rfl fun k _ => ?_
  have hk := ValueIdx.contrEquiv1_symm_val D 16 hr hs k
  have el : D.lhsIdx (ValueIdx.ix2 p c) ((ValueIdx.contrEquiv1 D 16 hr hs).symm k) = ValueIdx.ix2 p k :=
    funext fun a => Fin.ext (by
      match a with
      | ⟨0, _⟩ => exact hl0 _ _
      | ⟨1, _⟩ => exact (hl1 _ _).trans hk)
  have er : D.rhsIdx (ValueIdx.ix2 p c) ((ValueIdx.contrEquiv1 D 16 hr hs).symm k) = ValueIdx.ix2 k c :=
    funext fun a => Fin.ext (by
      match a with
      | ⟨0, _⟩ => exact (hr0 _ _).trans hk
      | ⟨1, _⟩ => exact hr1 _ _)
  rw [el, er]

/-- The [1024,16] x [16,128] block: its product's operand indices sit as plain_apply asks. -/
theorem blk128_apply (hsc : Cert.KernelIdeal.S16x128.ShapeCasts Cert.KernelIdeal.S16x128)
    (x : FVec Ideal Cert.KernelIdeal.S1024x16 .f32) (y : FVec Ideal Cert.KernelIdeal.S16x128 .f32) (t : Ideal .f32)
    (p : Fin 1024) (q : Fin 128) :
    divf (matmul Cert.KernelIdeal.dot_S1024x16_S16x128_S1024x128_1_0_0_1_n_n none x (shapeCast Cert.KernelIdeal.S16x128 y hsc) (constant Cert.KernelIdeal.S1024x128 .f32 0x00000000#32))
        (broadcast Cert.KernelIdeal.S1024x128 t) (ValueIdx.ix2 p q)
      = Ideal.div (∑ k : Fin 16, x (ValueIdx.ix2 p k) * y (ValueIdx.ix2 k q)) t :=
  plain_apply Cert.KernelIdeal.dot_S1024x16_S16x128_S1024x128_1_0_0_1_n_n rfl rfl
    (fun j q => by
      unfold DotDims.lhsIdx
      rw [dif_neg (show ¬(0 : Fin Cert.KernelIdeal.S1024x16.rank) ∈ Cert.KernelIdeal.dot_S1024x16_S16x128_S1024x128_1_0_0_1_n_n.lhsBatch by decide),
        dif_pos (show (0 : Fin Cert.KernelIdeal.S1024x16.rank) ∈ Cert.KernelIdeal.dot_S1024x16_S16x128_S1024x128_1_0_0_1_n_n.lhsNonContracting by decide)]
      rfl)
    (fun j q => Cert.KernelIdeal.dot_S1024x16_S16x128_S1024x128_1_0_0_1_n_n.lhsIdx_val_of_single rfl j q)
    (fun j q => Cert.KernelIdeal.dot_S1024x16_S16x128_S1024x128_1_0_0_1_n_n.rhsIdx_val_of_single rfl j q)
    (fun j q => by
      unfold DotDims.rhsIdx
      rw [dif_neg (show ¬(1 : Fin Cert.KernelIdeal.S16x128.rank) ∈ Cert.KernelIdeal.dot_S1024x16_S16x128_S1024x128_1_0_0_1_n_n.rhsBatch by decide),
        dif_pos (show (1 : Fin Cert.KernelIdeal.S16x128.rank) ∈ Cert.KernelIdeal.dot_S1024x16_S16x128_S1024x128_1_0_0_1_n_n.rhsNonContracting by decide)]
      rfl)
    hsc x y t p q

/-- Block 0's stored value at (p, q). -/
theorem pay0_apply (x : Vec Ideal Cert.KernelIdeal.S1024x16 .f32) (y : Vec Ideal Cert.KernelIdeal.S16x128 .f32) (p : Fin 1024) (q : Fin 128) :
    Cert.KernelIdeal.Gen.k0_pay1 (F := Ideal) x y (ValueIdx.ix2 p q)
      = Ideal.div (∑ k : Fin 16, x (ValueIdx.ix2 p k) * y (ValueIdx.ix2 k q)) Cert.Spec.T := by
  unfold Cert.KernelIdeal.Gen.k0_pay1
  exact blk128_apply _ x y _ p q

/-- The [1024,16] x [16,4096] block: its product's operand indices sit as plain_apply asks. -/
theorem blk4096_apply (hsc : Cert.KernelIdeal.S16x4096.ShapeCasts Cert.KernelIdeal.S16x4096)
    (x : FVec Ideal Cert.KernelIdeal.S1024x16 .f32) (y : FVec Ideal Cert.KernelIdeal.S16x4096 .f32) (t : Ideal .f32)
    (p : Fin 1024) (q : Fin 4096) :
    divf (matmul Cert.KernelIdeal.dot_S1024x16_S16x4096_S1024x4096_1_0_0_1_n_n none x (shapeCast Cert.KernelIdeal.S16x4096 y hsc) (constant Cert.KernelIdeal.S1024x4096 .f32 0x00000000#32))
        (broadcast Cert.KernelIdeal.S1024x4096 t) (ValueIdx.ix2 p q)
      = Ideal.div (∑ k : Fin 16, x (ValueIdx.ix2 p k) * y (ValueIdx.ix2 k q)) t :=
  plain_apply Cert.KernelIdeal.dot_S1024x16_S16x4096_S1024x4096_1_0_0_1_n_n rfl rfl
    (fun j q => by
      unfold DotDims.lhsIdx
      rw [dif_neg (show ¬(0 : Fin Cert.KernelIdeal.S1024x16.rank) ∈ Cert.KernelIdeal.dot_S1024x16_S16x4096_S1024x4096_1_0_0_1_n_n.lhsBatch by decide),
        dif_pos (show (0 : Fin Cert.KernelIdeal.S1024x16.rank) ∈ Cert.KernelIdeal.dot_S1024x16_S16x4096_S1024x4096_1_0_0_1_n_n.lhsNonContracting by decide)]
      rfl)
    (fun j q => Cert.KernelIdeal.dot_S1024x16_S16x4096_S1024x4096_1_0_0_1_n_n.lhsIdx_val_of_single rfl j q)
    (fun j q => Cert.KernelIdeal.dot_S1024x16_S16x4096_S1024x4096_1_0_0_1_n_n.rhsIdx_val_of_single rfl j q)
    (fun j q => by
      unfold DotDims.rhsIdx
      rw [dif_neg (show ¬(1 : Fin Cert.KernelIdeal.S16x4096.rank) ∈ Cert.KernelIdeal.dot_S1024x16_S16x4096_S1024x4096_1_0_0_1_n_n.rhsBatch by decide),
        dif_pos (show (1 : Fin Cert.KernelIdeal.S16x4096.rank) ∈ Cert.KernelIdeal.dot_S1024x16_S16x4096_S1024x4096_1_0_0_1_n_n.rhsNonContracting by decide)]
      rfl)
    hsc x y t p q

/-- Block 1's stored value at (p, q). -/
theorem pay1_apply (x : Vec Ideal Cert.KernelIdeal.S1024x16 .f32) (y : Vec Ideal Cert.KernelIdeal.S16x4096 .f32) (p : Fin 1024) (q : Fin 4096) :
    Cert.KernelIdeal.Gen.k1_pay1 (F := Ideal) x y (ValueIdx.ix2 p q)
      = Ideal.div (∑ k : Fin 16, x (ValueIdx.ix2 p k) * y (ValueIdx.ix2 k q)) Cert.Spec.T := by
  unfold Cert.KernelIdeal.Gen.k1_pay1
  exact blk4096_apply _ x y _ p q

/-- Block 2's stored value at (p, q). -/
theorem pay2_apply (x : Vec Ideal Cert.KernelIdeal.S1024x16 .f32) (y : Vec Ideal Cert.KernelIdeal.S16x4096 .f32) (p : Fin 1024) (q : Fin 4096) :
    Cert.KernelIdeal.Gen.k2_pay1 (F := Ideal) x y (ValueIdx.ix2 p q)
      = Ideal.div (∑ k : Fin 16, x (ValueIdx.ix2 p k) * y (ValueIdx.ix2 k q)) Cert.Spec.T := by
  unfold Cert.KernelIdeal.Gen.k2_pay1
  exact blk4096_apply _ x y _ p q

/-- Block 3's stored value at (p, q). -/
theorem pay3_apply (x : Vec Ideal Cert.KernelIdeal.S1024x16 .f32) (y : Vec Ideal Cert.KernelIdeal.S16x4096 .f32) (p : Fin 1024) (q : Fin 4096) :
    Cert.KernelIdeal.Gen.k3_pay1 (F := Ideal) x y (ValueIdx.ix2 p q)
      = Ideal.div (∑ k : Fin 16, x (ValueIdx.ix2 p k) * y (ValueIdx.ix2 k q)) Cert.Spec.T := by
  unfold Cert.KernelIdeal.Gen.k3_pay1
  exact blk4096_apply _ x y _ p q

/-- Block 4's stored value at (p, q). -/
theorem pay4_apply (x : Vec Ideal Cert.KernelIdeal.S1024x16 .f32) (y : Vec Ideal Cert.KernelIdeal.S16x4096 .f32) (p : Fin 1024) (q : Fin 4096) :
    Cert.KernelIdeal.Gen.k4_pay1 (F := Ideal) x y (ValueIdx.ix2 p q)
      = Ideal.div (∑ k : Fin 16, x (ValueIdx.ix2 p k) * y (ValueIdx.ix2 k q)) Cert.Spec.T := by
  unfold Cert.KernelIdeal.Gen.k4_pay1
  exact blk4096_apply _ x y _ p q

/-- The [1024,16] x [16,1664] block: its product's operand indices sit as plain_apply asks. -/
theorem blk1664_apply (hsc : Cert.KernelIdeal.S16x1664.ShapeCasts Cert.KernelIdeal.S16x1664)
    (x : FVec Ideal Cert.KernelIdeal.S1024x16 .f32) (y : FVec Ideal Cert.KernelIdeal.S16x1664 .f32) (t : Ideal .f32)
    (p : Fin 1024) (q : Fin 1664) :
    divf (matmul Cert.KernelIdeal.dot_S1024x16_S16x1664_S1024x1664_1_0_0_1_n_n none x (shapeCast Cert.KernelIdeal.S16x1664 y hsc) (constant Cert.KernelIdeal.S1024x1664 .f32 0x00000000#32))
        (broadcast Cert.KernelIdeal.S1024x1664 t) (ValueIdx.ix2 p q)
      = Ideal.div (∑ k : Fin 16, x (ValueIdx.ix2 p k) * y (ValueIdx.ix2 k q)) t :=
  plain_apply Cert.KernelIdeal.dot_S1024x16_S16x1664_S1024x1664_1_0_0_1_n_n rfl rfl
    (fun j q => by
      unfold DotDims.lhsIdx
      rw [dif_neg (show ¬(0 : Fin Cert.KernelIdeal.S1024x16.rank) ∈ Cert.KernelIdeal.dot_S1024x16_S16x1664_S1024x1664_1_0_0_1_n_n.lhsBatch by decide),
        dif_pos (show (0 : Fin Cert.KernelIdeal.S1024x16.rank) ∈ Cert.KernelIdeal.dot_S1024x16_S16x1664_S1024x1664_1_0_0_1_n_n.lhsNonContracting by decide)]
      rfl)
    (fun j q => Cert.KernelIdeal.dot_S1024x16_S16x1664_S1024x1664_1_0_0_1_n_n.lhsIdx_val_of_single rfl j q)
    (fun j q => Cert.KernelIdeal.dot_S1024x16_S16x1664_S1024x1664_1_0_0_1_n_n.rhsIdx_val_of_single rfl j q)
    (fun j q => by
      unfold DotDims.rhsIdx
      rw [dif_neg (show ¬(1 : Fin Cert.KernelIdeal.S16x1664.rank) ∈ Cert.KernelIdeal.dot_S1024x16_S16x1664_S1024x1664_1_0_0_1_n_n.rhsBatch by decide),
        dif_pos (show (1 : Fin Cert.KernelIdeal.S16x1664.rank) ∈ Cert.KernelIdeal.dot_S1024x16_S16x1664_S1024x1664_1_0_0_1_n_n.rhsNonContracting by decide)]
      rfl)
    hsc x y t p q

/-- Block 5's stored value at (p, q). -/
theorem pay5_apply (x : Vec Ideal Cert.KernelIdeal.S1024x16 .f32) (y : Vec Ideal Cert.KernelIdeal.S16x1664 .f32) (p : Fin 1024) (q : Fin 1664) :
    Cert.KernelIdeal.Gen.k5_pay1 (F := Ideal) x y (ValueIdx.ix2 p q)
      = Ideal.div (∑ k : Fin 16, x (ValueIdx.ix2 p k) * y (ValueIdx.ix2 k q)) Cert.Spec.T := by
  unfold Cert.KernelIdeal.Gen.k5_pay1
  exact blk1664_apply _ x y _ p q

end Cert.Payload

end
-- ==== Proof.IdealSide.ChunkValues.lean ====
/-
  What each column chunk's region leaves in its output array, at the extended reals: entry (r, q) of chunk K's array
  is entry (r, off + q) of the product of x with the transposed memory divided by the temperature, off the chunk's
  column offset. A grid point stores one column block; the block's entry is the payload's 16-term sum of the left
  factor's row and the right block's column, the right block is a column block of the chunk's slice of the
  transposed memory, and the blocks of all points tile the chunk's array.
-/
import proofs.«177054_g53008486367263_cont_8to1_c_744_45_alg».proof.Proof.IdealSide.Fold
import proofs.«177054_g53008486367263_cont_8to1_c_744_45_alg».proof.Proof.Spec
import proofs.«177054_g53008486367263_cont_8to1_c_744_45_alg».proof.Proof.Payload
import Idealize.ShloMosaic.Lib.Pipeline.Value
import Idealize.ShloMosaic.Lib.ValueIdx

set_option maxRecDepth 16384

noncomputable section

namespace Cert.KernelIdeal.Vals

open Cert.KernelIdeal Cert.KernelIdeal.Gen Cert.KernelIdeal.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

theorem hz : (![0, 0] : Fin 2 → Nat) = fun _ => 0 := funext fun a => by fin_cases a <;> rfl

/-- An entry of a block's product is the specification's entry at the place the block's entry sits: the left block's
    row p is row (i 0) of x, and the right block's column is row (i 1) of memory. -/
theorem entry_eq (X : S1024x16.Idx → EReal) (Mm : S100000x16.Idx → EReal) (i : S1024x100000.Idx)
    (xrow ycol : Fin 16 → EReal)
    (hx : ∀ k : Fin 16, xrow k = X (ValueIdx.ix2 ⟨(i 0).val, (i 0).isLt⟩ k))
    (hy : ∀ k : Fin 16, ycol k = Mm (ValueIdx.ix2 ⟨(i 1).val, (i 1).isLt⟩ k)) :
    Ideal.div (∑ k : Fin 16, xrow k * ycol k) Cert.Spec.T = Cert.Spec.G X Mm i := by
  unfold Cert.Spec.G
  congr 1
  exact Finset.sum_congr rfl fun k _ => by rw [hx k, hy k]

/-! ## Chunk 5: columns [98304, 98304 + 1664) -/

/-- A stored block's entry, from what its two input blocks hold on the entry's row and column. -/
theorem point5 (X : S1024x16.Idx → EReal) (Mm : S100000x16.Idx → EReal)
    (x0 : Vec Ideal S1024x16 .f32) (x1 : Vec Ideal S16x1664 .f32) (yy : S1024x1664.Idx) (i : S1024x100000.Idx)
    (hx : ∀ k : Fin 16, x0 (ValueIdx.ix2 (yy 0) k) = X (ValueIdx.ix2 ⟨(i 0).val, (i 0).isLt⟩ k))
    (hy : ∀ k : Fin 16, x1 (ValueIdx.ix2 k (yy 1)) = Mm (ValueIdx.ix2 ⟨(i 1).val, (i 1).isLt⟩ k)) :
    k5_pay1 (F := Ideal) x0 x1 yy = Cert.Spec.G X Mm i :=
  (congrArg (k5_pay1 (F := Ideal) x0 x1) (ValueIdx.eq_ix2 yy)).trans
    ((Cert.Payload.pay5_apply x0 x1 (yy 0) (yy 1)).trans (entry_eq X Mm i _ _ hx hy))

/-- The array chunk 5's region leaves: the specification's columns from 98304 on. -/
abbrev A5 : S1024x1664.Idx → EReal := fun j =>
  Cert.Spec.G (m ((c : Thread nD τ).loc main_arg0)) (m ((c : Thread nD τ).loc main_arg1))
    (ValueIdx.ix2 ⟨(j 0).val, (j 0).isLt⟩ ⟨98304 + (j 1).val, by have h : (j 1).val < 1664 := (j 1).isLt; show 98304 + (j 1).val < 100000; omega⟩)

/-- The index maps over the grid: the left factor's block index never moves, the right factor's and the output's
    column block index is the point. -/
theorem idx_facts5 : ∀ t : Fin cfg5.N, win5_0.index t (0 : Fin 2) = 0 ∧ win5_0.index t (1 : Fin 2) = 0
    ∧ win5_1.index t (0 : Fin 2) = 0 ∧ win5_1.index t (1 : Fin 2) = t.val
    ∧ win5_2.index t (0 : Fin 2) = 0 ∧ win5_2.index t (1 : Fin 2) = t.val :=
  (by decide +kernel : ∀ t : Fin grid5.N, _)

/-- The left factor's block at any point is the whole left factor. -/
theorem iblk5_0_apply (t : Fin cfg5.N) (z : S1024x16.Idx) :
    iblk5 (E5 m) c 0 t z = m ((c : Thread nD τ).loc main_arg0) z := by
  obtain ⟨e0, e1, -⟩ := idx_facts5 t
  unfold iblk5
  rw [View.read_apply]
  show E5 m c main_arg0 _ = _
  rw [show E5 m c main_arg0 = m ((c : Thread nD τ).loc main_arg0) from B11_x m c (o₀ m c)]
  congr 1
  funext a
  apply Fin.ext
  match a with
  | ⟨0, _⟩ => show win5_0.index t (0 : Fin 2) * 1024 + 1 * (z 0).val = (z 0).val; rw [e0]; omega
  | ⟨1, _⟩ => show win5_0.index t (1 : Fin 2) * 16 + 1 * (z 1).val = (z 1).val; rw [e1]; omega

/-- The right factor's block at point t, at (k, q), is memory's row 98304 + t * 1664 + q at column k: the block is a
    column block of the chunk's slice of the transposed memory. -/
theorem iblk5_1_apply (t : Fin cfg5.N) (z : S16x1664.Idx) (kk : S100000x16.Idx)
    (h0 : (kk 0).val = 98304 + (t.val * 1664 + (z 1).val)) (h1 : (kk 1).val = (z 0).val) :
    iblk5 (E5 m) c 1 t z = m ((c : Thread nD τ).loc main_arg1) kk := by
  obtain ⟨-, -, e0, e1, -⟩ := idx_facts5 t
  unfold iblk5
  rw [View.read_apply]
  show E5 m c main_call0_v14 _ = _
  rw [show E5 m c main_call0_v14 = _ from B11_sl m c (o₀ m c), B1_v0]
  refine (extractStridedSlice_apply ![0, 98304] _ _ _
    (ValueIdx.ix2 ⟨(kk 1).val, (kk 1).isLt⟩ ⟨(kk 0).val, (kk 0).isLt⟩ : S16x100000.Idx) fun a => ?_).trans
    (transpose_apply [1, 0] _ _ _ kk fun b => ?_)
  · match a with
    | ⟨0, _⟩ => show (kk 1).val = 0 + (win5_1.index t (0 : Fin 2) * 16 + 1 * (z 0).val); rw [e0, h1]; omega
    | ⟨1, _⟩ => show (kk 0).val = 98304 + (win5_1.index t (1 : Fin 2) * 1664 + 1 * (z 1).val); rw [e1, h0]; omega
  · match b with
    | ⟨0, _⟩ => rfl
    | ⟨1, _⟩ => rfl

/-- What point t writes back is block t of the chunk's array. -/
theorem flushed5_eq (t : Fin cfg5.N) :
    (dat5 (E5 m) c).flushed 2 t = ((cfg5.win 2).blk t).view.read (Elt Ideal) (A5 m c) := by
  show (cfg5.win 2).cut (grid5.coords t) ((dat5 (E5 m) c).after 2 t) = _
  rw [after5_2]
  unfold out5_2
  rw [View.canon_unit_zero hz]
  simp only [View.ld_unit_zero (S := S1024x16) hz, View.ld_unit_zero (S := S16x1664) hz]
  funext y
  rw [View.read_apply]
  obtain ⟨-, -, -, -, e0, e1⟩ := idx_facts5 t
  refine point5 (m ((c : Thread nD τ).loc main_arg0)) (m ((c : Thread nD τ).loc main_arg1))
    (iblk5 (E5 m) c 0 t) (iblk5 (E5 m) c 1 t) ((win5 2).xinj (grid5.coords t) y) _ (fun k => ?_) (fun k => ?_)
  · rw [iblk5_0_apply]
    congr 1
    funext a
    apply Fin.ext
    match a with
    | ⟨0, _⟩ => show (y 0).val = win5_2.index t (0 : Fin 2) * 1024 + 1 * (y 0).val; rw [e0]; omega
    | ⟨1, _⟩ => rfl
  · refine iblk5_1_apply m c t _ _ ?_ rfl
    show 98304 + (win5_2.index t (1 : Fin 2) * 1664 + 1 * (y 1).val) = 98304 + (t.val * 1664 + (y 1).val)
    rw [e1]; omega

/-- An index of the chunk's array is in point t's block iff each coordinate is in the block's range on its axis. -/
theorem mem_blk5 (t : Fin cfg5.N) (i : S1024x1664.Idx) :
    i ∈ ((cfg5.win 2).blk t).view.set ↔ ∀ a : Fin 2, win5_2.index t a * S1024x1664.size a ≤ (i a).val
      ∧ (i a).val < win5_2.index t a * S1024x1664.size a + S1024x1664.size a := by
  show i ∈ ((View.whole main_call0_v15).slice (win5_2.rect t)).set ↔ _
  rw [View.set_slice_whole, Rect.mem_set_unit]
  exact Iff.rfl

/-- Every column lies in the block of the point (column / 1664). -/
theorem cover5 (i : S1024x1664.Idx) : ∃ t : Fin cfg5.N, (cfg5.win 2).flush t = true ∧ i ∈ ((cfg5.win 2).blk t).view.set := by
  have hi0 : (i 0).val < 1024 := (i 0).isLt
  have hi1 : (i 1).val < 1664 := (i 1).isLt
  let t : Fin cfg5.N := ⟨(i 1).val / 1664, by rw [show cfg5.N = 1 from N_5]; omega⟩
  obtain ⟨-, -, -, -, e0, e1⟩ := idx_facts5 t
  have et : t.val = (i 1).val / 1664 := rfl
  refine ⟨t, flush5_2 t, ?_⟩
  rw [mem_blk5]
  intro a
  match a with
  | ⟨0, _⟩ =>
    show win5_2.index t (0 : Fin 2) * 1024 ≤ (i 0).val ∧ (i 0).val < win5_2.index t (0 : Fin 2) * 1024 + 1024
    rw [e0]; omega
  | ⟨1, _⟩ =>
    show win5_2.index t (1 : Fin 2) * 1664 ≤ (i 1).val ∧ (i 1).val < win5_2.index t (1 : Fin 2) * 1664 + 1664
    rw [e1, et]; omega

/-- The chunk's array after its region. -/
theorem final5 : (dat5 (E5 m) c).arrAt 2 cfg5.N = A5 m c :=
  (dat5 (E5 m) c).arrAt_eq_of_cover 2 (A5 m c) (fun t _ => flushed5_eq m c t) (cover5)

/-- Entry j of chunk 5's array is the specification's entry at the same row, 98304 columns to the right. -/
theorem chunk5_value (j : S1024x1664.Idx) (i : S1024x100000.Idx) (h0 : (i 0).val = (j 0).val) (h1 : (i 1).val = 98304 + (j 1).val) :
    (dat5 (E5 m) c).arrAt 2 cfg5.N j
      = Cert.Spec.G (m ((c : Thread nD τ).loc main_arg0)) (m ((c : Thread nD τ).loc main_arg1)) i := by
  rw [final5]
  show Cert.Spec.G _ _ _ = _
  congr 1
  funext a
  apply Fin.ext
  match a with
  | ⟨0, _⟩ => exact h0.symm
  | ⟨1, _⟩ => show 98304 + (j 1).val = (i 1).val; omega

/-! ## Chunk 1: columns [0, 0 + 24576) -/

/-- A stored block's entry, from what its two input blocks hold on the entry's row and column. -/
theorem point1 (X : S1024x16.Idx → EReal) (Mm : S100000x16.Idx → EReal)
    (x0 : Vec Ideal S1024x16 .f32) (x1 : Vec Ideal S16x4096 .f32) (yy : S1024x4096.Idx) (i : S1024x100000.Idx)
    (hx : ∀ k : Fin 16, x0 (ValueIdx.ix2 (yy 0) k) = X (ValueIdx.ix2 ⟨(i 0).val, (i 0).isLt⟩ k))
    (hy : ∀ k : Fin 16, x1 (ValueIdx.ix2 k (yy 1)) = Mm (ValueIdx.ix2 ⟨(i 1).val, (i 1).isLt⟩ k)) :
    k1_pay1 (F := Ideal) x0 x1 yy = Cert.Spec.G X Mm i :=
  (congrArg (k1_pay1 (F := Ideal) x0 x1) (ValueIdx.eq_ix2 yy)).trans
    ((Cert.Payload.pay1_apply x0 x1 (yy 0) (yy 1)).trans (entry_eq X Mm i _ _ hx hy))

/-- The array chunk 1's region leaves: the specification's columns from 0 on. -/
abbrev A1 : S1024x24576.Idx → EReal := fun j =>
  Cert.Spec.G (m ((c : Thread nD τ).loc main_arg0)) (m ((c : Thread nD τ).loc main_arg1))
    (ValueIdx.ix2 ⟨(j 0).val, (j 0).isLt⟩ ⟨0 + (j 1).val, by have h : (j 1).val < 24576 := (j 1).isLt; show 0 + (j 1).val < 100000; omega⟩)

/-- The index maps over the grid: the left factor's block index never moves, the right factor's and the output's
    column block index is the point. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- The left factor's block at any point is the whole left factor. -/
theorem iblk1_0_apply (t : Fin cfg1.N) (z : S1024x16.Idx) :
    iblk1 (E1 m) c 0 t z = m ((c : Thread nD τ).loc main_arg0) z := by
  obtain ⟨e0, e1, -⟩ := idx_facts1 t
  unfold iblk1
  rw [View.read_apply]
  show E1 m c main_arg0 _ = _
  rw [show E1 m c main_arg0 = m ((c : Thread nD τ).loc main_arg0) from B3_x m c (o₀ m c)]
  congr 1
  funext a
  apply Fin.ext
  match a with
  | ⟨0, _⟩ => show win1_0.index t (0 : Fin 2) * 1024 + 1 * (z 0).val = (z 0).val; rw [e0]; omega
  | ⟨1, _⟩ => show win1_0.index t (1 : Fin 2) * 16 + 1 * (z 1).val = (z 1).val; rw [e1]; omega

/-- The right factor's block at point t, at (k, q), is memory's row 0 + t * 4096 + q at column k: the block is a
    column block of the chunk's slice of the transposed memory. -/
theorem iblk1_1_apply (t : Fin cfg1.N) (z : S16x4096.Idx) (kk : S100000x16.Idx)
    (h0 : (kk 0).val = 0 + (t.val * 4096 + (z 1).val)) (h1 : (kk 1).val = (z 0).val) :
    iblk1 (E1 m) c 1 t z = m ((c : Thread nD τ).loc main_arg1) kk := by
  obtain ⟨-, -, e0, e1, -⟩ := idx_facts1 t
  unfold iblk1
  rw [View.read_apply]
  show E1 m c main_call0_v2 _ = _
  rw [show E1 m c main_call0_v2 = _ from B3_sl m c (o₀ m c), B1_v0]
  refine (extractStridedSlice_apply ![0, 0] _ _ _
    (ValueIdx.ix2 ⟨(kk 1).val, (kk 1).isLt⟩ ⟨(kk 0).val, (kk 0).isLt⟩ : S16x100000.Idx) fun a => ?_).trans
    (transpose_apply [1, 0] _ _ _ kk fun b => ?_)
  · match a with
    | ⟨0, _⟩ => show (kk 1).val = 0 + (win1_1.index t (0 : Fin 2) * 16 + 1 * (z 0).val); rw [e0, h1]; omega
    | ⟨1, _⟩ => show (kk 0).val = 0 + (win1_1.index t (1 : Fin 2) * 4096 + 1 * (z 1).val); rw [e1, h0]; omega
  · match b with
    | ⟨0, _⟩ => rfl
    | ⟨1, _⟩ => rfl

/-- What point t writes back is block t of the chunk's array. -/
theorem flushed1_eq (t : Fin cfg1.N) :
    (dat1 (E1 m) c).flushed 2 t = ((cfg1.win 2).blk t).view.read (Elt Ideal) (A1 m c) := by
  show (cfg1.win 2).cut (grid1.coords t) ((dat1 (E1 m) c).after 2 t) = _
  rw [after1_2]
  unfold out1_2
  rw [View.canon_unit_zero hz]
  simp only [View.ld_unit_zero (S := S1024x16) hz, View.ld_unit_zero (S := S16x4096) hz]
  funext y
  rw [View.read_apply]
  obtain ⟨-, -, -, -, e0, e1⟩ := idx_facts1 t
  refine point1 (m ((c : Thread nD τ).loc main_arg0)) (m ((c : Thread nD τ).loc main_arg1))
    (iblk1 (E1 m) c 0 t) (iblk1 (E1 m) c 1 t) ((win1 2).xinj (grid1.coords t) y) _ (fun k => ?_) (fun k => ?_)
  · rw [iblk1_0_apply]
    congr 1
    funext a
    apply Fin.ext
    match a with
    | ⟨0, _⟩ => show (y 0).val = win1_2.index t (0 : Fin 2) * 1024 + 1 * (y 0).val; rw [e0]; omega
    | ⟨1, _⟩ => rfl
  · refine iblk1_1_apply m c t _ _ ?_ rfl
    show 0 + (win1_2.index t (1 : Fin 2) * 4096 + 1 * (y 1).val) = 0 + (t.val * 4096 + (y 1).val)
    rw [e1]; omega

/-- An index of the chunk's array is in point t's block iff each coordinate is in the block's range on its axis. -/
theorem mem_blk1 (t : Fin cfg1.N) (i : S1024x24576.Idx) :
    i ∈ ((cfg1.win 2).blk t).view.set ↔ ∀ a : Fin 2, win1_2.index t a * S1024x4096.size a ≤ (i a).val
      ∧ (i a).val < win1_2.index t a * S1024x4096.size a + S1024x4096.size a := by
  show i ∈ ((View.whole main_call0_v3).slice (win1_2.rect t)).set ↔ _
  rw [View.set_slice_whole, Rect.mem_set_unit]
  exact Iff.rfl

/-- Every column lies in the block of the point (column / 4096). -/
theorem cover1 (i : S1024x24576.Idx) : ∃ t : Fin cfg1.N, (cfg1.win 2).flush t = true ∧ i ∈ ((cfg1.win 2).blk t).view.set := by
  have hi0 : (i 0).val < 1024 := (i 0).isLt
  have hi1 : (i 1).val < 24576 := (i 1).isLt
  let t : Fin cfg1.N := ⟨(i 1).val / 4096, by rw [show cfg1.N = 6 from N_1]; omega⟩
  obtain ⟨-, -, -, -, e0, e1⟩ := idx_facts1 t
  have et : t.val = (i 1).val / 4096 := rfl
  refine ⟨t, flush1_2 t, ?_⟩
  rw [mem_blk1]
  intro a
  match a with
  | ⟨0, _⟩ =>
    show win1_2.index t (0 : Fin 2) * 1024 ≤ (i 0).val ∧ (i 0).val < win1_2.index t (0 : Fin 2) * 1024 + 1024
    rw [e0]; omega
  | ⟨1, _⟩ =>
    show win1_2.index t (1 : Fin 2) * 4096 ≤ (i 1).val ∧ (i 1).val < win1_2.index t (1 : Fin 2) * 4096 + 4096
    rw [e1, et]; omega

/-- The chunk's array after its region. -/
theorem final1 : (dat1 (E1 m) c).arrAt 2 cfg1.N = A1 m c :=
  (dat1 (E1 m) c).arrAt_eq_of_cover 2 (A1 m c) (fun t _ => flushed1_eq m c t) (cover1)

/-- Entry j of chunk 1's array is the specification's entry at the same row, 0 columns to the right. -/
theorem chunk1_value (j : S1024x24576.Idx) (i : S1024x100000.Idx) (h0 : (i 0).val = (j 0).val) (h1 : (i 1).val = (j 1).val) :
    (dat1 (E1 m) c).arrAt 2 cfg1.N j
      = Cert.Spec.G (m ((c : Thread nD τ).loc main_arg0)) (m ((c : Thread nD τ).loc main_arg1)) i := by
  rw [final1]
  show Cert.Spec.G _ _ _ = _
  congr 1
  funext a
  apply Fin.ext
  match a with
  | ⟨0, _⟩ => exact h0.symm
  | ⟨1, _⟩ => show 0 + (j 1).val = (i 1).val; omega

/-! ## Chunk 2: columns [24576, 24576 + 24576) -/

/-- A stored block's entry, from what its two input blocks hold on the entry's row and column. -/
theorem point2 (X : S1024x16.Idx → EReal) (Mm : S100000x16.Idx → EReal)
    (x0 : Vec Ideal S1024x16 .f32) (x1 : Vec Ideal S16x4096 .f32) (yy : S1024x4096.Idx) (i : S1024x100000.Idx)
    (hx : ∀ k : Fin 16, x0 (ValueIdx.ix2 (yy 0) k) = X (ValueIdx.ix2 ⟨(i 0).val, (i 0).isLt⟩ k))
    (hy : ∀ k : Fin 16, x1 (ValueIdx.ix2 k (yy 1)) = Mm (ValueIdx.ix2 ⟨(i 1).val, (i 1).isLt⟩ k)) :
    k2_pay1 (F := Ideal) x0 x1 yy = Cert.Spec.G X Mm i :=
  (congrArg (k2_pay1 (F := Ideal) x0 x1) (ValueIdx.eq_ix2 yy)).trans
    ((Cert.Payload.pay2_apply x0 x1 (yy 0) (yy 1)).trans (entry_eq X Mm i _ _ hx hy))

/-- The array chunk 2's region leaves: the specification's columns from 24576 on. -/
abbrev A2 : S1024x24576.Idx → EReal := fun j =>
  Cert.Spec.G (m ((c : Thread nD τ).loc main_arg0)) (m ((c : Thread nD τ).loc main_arg1))
    (ValueIdx.ix2 ⟨(j 0).val, (j 0).isLt⟩ ⟨24576 + (j 1).val, by have h : (j 1).val < 24576 := (j 1).isLt; show 24576 + (j 1).val < 100000; omega⟩)

/-- The index maps over the grid: the left factor's block index never moves, the right factor's and the output's
    column block index is the point. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- The left factor's block at any point is the whole left factor. -/
theorem iblk2_0_apply (t : Fin cfg2.N) (z : S1024x16.Idx) :
    iblk2 (E2 m) c 0 t z = m ((c : Thread nD τ).loc main_arg0) z := by
  obtain ⟨e0, e1, -⟩ := idx_facts2 t
  unfold iblk2
  rw [View.read_apply]
  show E2 m c main_arg0 _ = _
  rw [show E2 m c main_arg0 = m ((c : Thread nD τ).loc main_arg0) from B5_x m c (o₀ m c)]
  congr 1
  funext a
  apply Fin.ext
  match a with
  | ⟨0, _⟩ => show win2_0.index t (0 : Fin 2) * 1024 + 1 * (z 0).val = (z 0).val; rw [e0]; omega
  | ⟨1, _⟩ => show win2_0.index t (1 : Fin 2) * 16 + 1 * (z 1).val = (z 1).val; rw [e1]; omega

/-- The right factor's block at point t, at (k, q), is memory's row 24576 + t * 4096 + q at column k: the block is a
    column block of the chunk's slice of the transposed memory. -/
theorem iblk2_1_apply (t : Fin cfg2.N) (z : S16x4096.Idx) (kk : S100000x16.Idx)
    (h0 : (kk 0).val = 24576 + (t.val * 4096 + (z 1).val)) (h1 : (kk 1).val = (z 0).val) :
    iblk2 (E2 m) c 1 t z = m ((c : Thread nD τ).loc main_arg1) kk := by
  obtain ⟨-, -, e0, e1, -⟩ := idx_facts2 t
  unfold iblk2
  rw [View.read_apply]
  show E2 m c main_call0_v5 _ = _
  rw [show E2 m c main_call0_v5 = _ from B5_sl m c (o₀ m c), B1_v0]
  refine (extractStridedSlice_apply ![0, 24576] _ _ _
    (ValueIdx.ix2 ⟨(kk 1).val, (kk 1).isLt⟩ ⟨(kk 0).val, (kk 0).isLt⟩ : S16x100000.Idx) fun a => ?_).trans
    (transpose_apply [1, 0] _ _ _ kk fun b => ?_)
  · match a with
    | ⟨0, _⟩ => show (kk 1).val = 0 + (win2_1.index t (0 : Fin 2) * 16 + 1 * (z 0).val); rw [e0, h1]; omega
    | ⟨1, _⟩ => show (kk 0).val = 24576 + (win2_1.index t (1 : Fin 2) * 4096 + 1 * (z 1).val); rw [e1, h0]; omega
  · match b with
    | ⟨0, _⟩ => rfl
    | ⟨1, _⟩ => rfl

/-- What point t writes back is block t of the chunk's array. -/
theorem flushed2_eq (t : Fin cfg2.N) :
    (dat2 (E2 m) c).flushed 2 t = ((cfg2.win 2).blk t).view.read (Elt Ideal) (A2 m c) := by
  show (cfg2.win 2).cut (grid2.coords t) ((dat2 (E2 m) c).after 2 t) = _
  rw [after2_2]
  unfold out2_2
  rw [View.canon_unit_zero hz]
  simp only [View.ld_unit_zero (S := S1024x16) hz, View.ld_unit_zero (S := S16x4096) hz]
  funext y
  rw [View.read_apply]
  obtain ⟨-, -, -, -, e0, e1⟩ := idx_facts2 t
  refine point2 (m ((c : Thread nD τ).loc main_arg0)) (m ((c : Thread nD τ).loc main_arg1))
    (iblk2 (E2 m) c 0 t) (iblk2 (E2 m) c 1 t) ((win2 2).xinj (grid2.coords t) y) _ (fun k => ?_) (fun k => ?_)
  · rw [iblk2_0_apply]
    congr 1
    funext a
    apply Fin.ext
    match a with
    | ⟨0, _⟩ => show (y 0).val = win2_2.index t (0 : Fin 2) * 1024 + 1 * (y 0).val; rw [e0]; omega
    | ⟨1, _⟩ => rfl
  · refine iblk2_1_apply m c t _ _ ?_ rfl
    show 24576 + (win2_2.index t (1 : Fin 2) * 4096 + 1 * (y 1).val) = 24576 + (t.val * 4096 + (y 1).val)
    rw [e1]; omega

/-- An index of the chunk's array is in point t's block iff each coordinate is in the block's range on its axis. -/
theorem mem_blk2 (t : Fin cfg2.N) (i : S1024x24576.Idx) :
    i ∈ ((cfg2.win 2).blk t).view.set ↔ ∀ a : Fin 2, win2_2.index t a * S1024x4096.size a ≤ (i a).val
      ∧ (i a).val < win2_2.index t a * S1024x4096.size a + S1024x4096.size a := by
  show i ∈ ((View.whole main_call0_v6).slice (win2_2.rect t)).set ↔ _
  rw [View.set_slice_whole, Rect.mem_set_unit]
  exact Iff.rfl

/-- Every column lies in the block of the point (column / 4096). -/
theorem cover2 (i : S1024x24576.Idx) : ∃ t : Fin cfg2.N, (cfg2.win 2).flush t = true ∧ i ∈ ((cfg2.win 2).blk t).view.set := by
  have hi0 : (i 0).val < 1024 := (i 0).isLt
  have hi1 : (i 1).val < 24576 := (i 1).isLt
  let t : Fin cfg2.N := ⟨(i 1).val / 4096, by rw [show cfg2.N = 6 from N_2]; omega⟩
  obtain ⟨-, -, -, -, e0, e1⟩ := idx_facts2 t
  have et : t.val = (i 1).val / 4096 := rfl
  refine ⟨t, flush2_2 t, ?_⟩
  rw [mem_blk2]
  intro a
  match a with
  | ⟨0, _⟩ =>
    show win2_2.index t (0 : Fin 2) * 1024 ≤ (i 0).val ∧ (i 0).val < win2_2.index t (0 : Fin 2) * 1024 + 1024
    rw [e0]; omega
  | ⟨1, _⟩ =>
    show win2_2.index t (1 : Fin 2) * 4096 ≤ (i 1).val ∧ (i 1).val < win2_2.index t (1 : Fin 2) * 4096 + 4096
    rw [e1, et]; omega

/-- The chunk's array after its region. -/
theorem final2 : (dat2 (E2 m) c).arrAt 2 cfg2.N = A2 m c :=
  (dat2 (E2 m) c).arrAt_eq_of_cover 2 (A2 m c) (fun t _ => flushed2_eq m c t) (cover2)

/-- Entry j of chunk 2's array is the specification's entry at the same row, 24576 columns to the right. -/
theorem chunk2_value (j : S1024x24576.Idx) (i : S1024x100000.Idx) (h0 : (i 0).val = (j 0).val) (h1 : (i 1).val = 24576 + (j 1).val) :
    (dat2 (E2 m) c).arrAt 2 cfg2.N j
      = Cert.Spec.G (m ((c : Thread nD τ).loc main_arg0)) (m ((c : Thread nD τ).loc main_arg1)) i := by
  rw [final2]
  show Cert.Spec.G _ _ _ = _
  congr 1
  funext a
  apply Fin.ext
  match a with
  | ⟨0, _⟩ => exact h0.symm
  | ⟨1, _⟩ => show 24576 + (j 1).val = (i 1).val; omega

/-! ## Chunk 3: columns [49152, 49152 + 24576) -/

/-- A stored block's entry, from what its two input blocks hold on the entry's row and column. -/
theorem point3 (X : S1024x16.Idx → EReal) (Mm : S100000x16.Idx → EReal)
    (x0 : Vec Ideal S1024x16 .f32) (x1 : Vec Ideal S16x4096 .f32) (yy : S1024x4096.Idx) (i : S1024x100000.Idx)
    (hx : ∀ k : Fin 16, x0 (ValueIdx.ix2 (yy 0) k) = X (ValueIdx.ix2 ⟨(i 0).val, (i 0).isLt⟩ k))
    (hy : ∀ k : Fin 16, x1 (ValueIdx.ix2 k (yy 1)) = Mm (ValueIdx.ix2 ⟨(i 1).val, (i 1).isLt⟩ k)) :
    k3_pay1 (F := Ideal) x0 x1 yy = Cert.Spec.G X Mm i :=
  (congrArg (k3_pay1 (F := Ideal) x0 x1) (ValueIdx.eq_ix2 yy)).trans
    ((Cert.Payload.pay3_apply x0 x1 (yy 0) (yy 1)).trans (entry_eq X Mm i _ _ hx hy))

/-- The array chunk 3's region leaves: the specification's columns from 49152 on. -/
abbrev A3 : S1024x24576.Idx → EReal := fun j =>
  Cert.Spec.G (m ((c : Thread nD τ).loc main_arg0)) (m ((c : Thread nD τ).loc main_arg1))
    (ValueIdx.ix2 ⟨(j 0).val, (j 0).isLt⟩ ⟨49152 + (j 1).val, by have h : (j 1).val < 24576 := (j 1).isLt; show 49152 + (j 1).val < 100000; omega⟩)

/-- The index maps over the grid: the left factor's block index never moves, the right factor's and the output's
    column block index is the point. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = t.val
    ∧ win3_2.index t (0 : Fin 2) = 0 ∧ win3_2.index t (1 : Fin 2) = t.val :=
  (by decide +kernel : ∀ t : Fin grid3.N, _)

/-- The left factor's block at any point is the whole left factor. -/
theorem iblk3_0_apply (t : Fin cfg3.N) (z : S1024x16.Idx) :
    iblk3 (E3 m) c 0 t z = m ((c : Thread nD τ).loc main_arg0) z := by
  obtain ⟨e0, e1, -⟩ := idx_facts3 t
  unfold iblk3
  rw [View.read_apply]
  show E3 m c main_arg0 _ = _
  rw [show E3 m c main_arg0 = m ((c : Thread nD τ).loc main_arg0) from B7_x m c (o₀ m c)]
  congr 1
  funext a
  apply Fin.ext
  match a with
  | ⟨0, _⟩ => show win3_0.index t (0 : Fin 2) * 1024 + 1 * (z 0).val = (z 0).val; rw [e0]; omega
  | ⟨1, _⟩ => show win3_0.index t (1 : Fin 2) * 16 + 1 * (z 1).val = (z 1).val; rw [e1]; omega

/-- The right factor's block at point t, at (k, q), is memory's row 49152 + t * 4096 + q at column k: the block is a
    column block of the chunk's slice of the transposed memory. -/
theorem iblk3_1_apply (t : Fin cfg3.N) (z : S16x4096.Idx) (kk : S100000x16.Idx)
    (h0 : (kk 0).val = 49152 + (t.val * 4096 + (z 1).val)) (h1 : (kk 1).val = (z 0).val) :
    iblk3 (E3 m) c 1 t z = m ((c : Thread nD τ).loc main_arg1) kk := by
  obtain ⟨-, -, e0, e1, -⟩ := idx_facts3 t
  unfold iblk3
  rw [View.read_apply]
  show E3 m c main_call0_v8 _ = _
  rw [show E3 m c main_call0_v8 = _ from B7_sl m c (o₀ m c), B1_v0]
  refine (extractStridedSlice_apply ![0, 49152] _ _ _
    (ValueIdx.ix2 ⟨(kk 1).val, (kk 1).isLt⟩ ⟨(kk 0).val, (kk 0).isLt⟩ : S16x100000.Idx) fun a => ?_).trans
    (transpose_apply [1, 0] _ _ _ kk fun b => ?_)
  · match a with
    | ⟨0, _⟩ => show (kk 1).val = 0 + (win3_1.index t (0 : Fin 2) * 16 + 1 * (z 0).val); rw [e0, h1]; omega
    | ⟨1, _⟩ => show (kk 0).val = 49152 + (win3_1.index t (1 : Fin 2) * 4096 + 1 * (z 1).val); rw [e1, h0]; omega
  · match b with
    | ⟨0, _⟩ => rfl
    | ⟨1, _⟩ => rfl

/-- What point t writes back is block t of the chunk's array. -/
theorem flushed3_eq (t : Fin cfg3.N) :
    (dat3 (E3 m) c).flushed 2 t = ((cfg3.win 2).blk t).view.read (Elt Ideal) (A3 m c) := by
  show (cfg3.win 2).cut (grid3.coords t) ((dat3 (E3 m) c).after 2 t) = _
  rw [after3_2]
  unfold out3_2
  rw [View.canon_unit_zero hz]
  simp only [View.ld_unit_zero (S := S1024x16) hz, View.ld_unit_zero (S := S16x4096) hz]
  funext y
  rw [View.read_apply]
  obtain ⟨-, -, -, -, e0, e1⟩ := idx_facts3 t
  refine point3 (m ((c : Thread nD τ).loc main_arg0)) (m ((c : Thread nD τ).loc main_arg1))
    (iblk3 (E3 m) c 0 t) (iblk3 (E3 m) c 1 t) ((win3 2).xinj (grid3.coords t) y) _ (fun k => ?_) (fun k => ?_)
  · rw [iblk3_0_apply]
    congr 1
    funext a
    apply Fin.ext
    match a with
    | ⟨0, _⟩ => show (y 0).val = win3_2.index t (0 : Fin 2) * 1024 + 1 * (y 0).val; rw [e0]; omega
    | ⟨1, _⟩ => rfl
  · refine iblk3_1_apply m c t _ _ ?_ rfl
    show 49152 + (win3_2.index t (1 : Fin 2) * 4096 + 1 * (y 1).val) = 49152 + (t.val * 4096 + (y 1).val)
    rw [e1]; omega

/-- An index of the chunk's array is in point t's block iff each coordinate is in the block's range on its axis. -/
theorem mem_blk3 (t : Fin cfg3.N) (i : S1024x24576.Idx) :
    i ∈ ((cfg3.win 2).blk t).view.set ↔ ∀ a : Fin 2, win3_2.index t a * S1024x4096.size a ≤ (i a).val
      ∧ (i a).val < win3_2.index t a * S1024x4096.size a + S1024x4096.size a := by
  show i ∈ ((View.whole main_call0_v9).slice (win3_2.rect t)).set ↔ _
  rw [View.set_slice_whole, Rect.mem_set_unit]
  exact Iff.rfl

/-- Every column lies in the block of the point (column / 4096). -/
theorem cover3 (i : S1024x24576.Idx) : ∃ t : Fin cfg3.N, (cfg3.win 2).flush t = true ∧ i ∈ ((cfg3.win 2).blk t).view.set := by
  have hi0 : (i 0).val < 1024 := (i 0).isLt
  have hi1 : (i 1).val < 24576 := (i 1).isLt
  let t : Fin cfg3.N := ⟨(i 1).val / 4096, by rw [show cfg3.N = 6 from N_3]; omega⟩
  obtain ⟨-, -, -, -, e0, e1⟩ := idx_facts3 t
  have et : t.val = (i 1).val / 4096 := rfl
  refine ⟨t, flush3_2 t, ?_⟩
  rw [mem_blk3]
  intro a
  match a with
  | ⟨0, _⟩ =>
    show win3_2.index t (0 : Fin 2) * 1024 ≤ (i 0).val ∧ (i 0).val < win3_2.index t (0 : Fin 2) * 1024 + 1024
    rw [e0]; omega
  | ⟨1, _⟩ =>
    show win3_2.index t (1 : Fin 2) * 4096 ≤ (i 1).val ∧ (i 1).val < win3_2.index t (1 : Fin 2) * 4096 + 4096
    rw [e1, et]; omega

/-- The chunk's array after its region. -/
theorem final3 : (dat3 (E3 m) c).arrAt 2 cfg3.N = A3 m c :=
  (dat3 (E3 m) c).arrAt_eq_of_cover 2 (A3 m c) (fun t _ => flushed3_eq m c t) (cover3)

/-- Entry j of chunk 3's array is the specification's entry at the same row, 49152 columns to the right. -/
theorem chunk3_value (j : S1024x24576.Idx) (i : S1024x100000.Idx) (h0 : (i 0).val = (j 0).val) (h1 : (i 1).val = 49152 + (j 1).val) :
    (dat3 (E3 m) c).arrAt 2 cfg3.N j
      = Cert.Spec.G (m ((c : Thread nD τ).loc main_arg0)) (m ((c : Thread nD τ).loc main_arg1)) i := by
  rw [final3]
  show Cert.Spec.G _ _ _ = _
  congr 1
  funext a
  apply Fin.ext
  match a with
  | ⟨0, _⟩ => exact h0.symm
  | ⟨1, _⟩ => show 49152 + (j 1).val = (i 1).val; omega

/-! ## Chunk 4: columns [73728, 73728 + 24576) -/

/-- A stored block's entry, from what its two input blocks hold on the entry's row and column. -/
theorem point4 (X : S1024x16.Idx → EReal) (Mm : S100000x16.Idx → EReal)
    (x0 : Vec Ideal S1024x16 .f32) (x1 : Vec Ideal S16x4096 .f32) (yy : S1024x4096.Idx) (i : S1024x100000.Idx)
    (hx : ∀ k : Fin 16, x0 (ValueIdx.ix2 (yy 0) k) = X (ValueIdx.ix2 ⟨(i 0).val, (i 0).isLt⟩ k))
    (hy : ∀ k : Fin 16, x1 (ValueIdx.ix2 k (yy 1)) = Mm (ValueIdx.ix2 ⟨(i 1).val, (i 1).isLt⟩ k)) :
    k4_pay1 (F := Ideal) x0 x1 yy = Cert.Spec.G X Mm i :=
  (congrArg (k4_pay1 (F := Ideal) x0 x1) (ValueIdx.eq_ix2 yy)).trans
    ((Cert.Payload.pay4_apply x0 x1 (yy 0) (yy 1)).trans (entry_eq X Mm i _ _ hx hy))

/-- The array chunk 4's region leaves: the specification's columns from 73728 on. -/
abbrev A4 : S1024x24576.Idx → EReal := fun j =>
  Cert.Spec.G (m ((c : Thread nD τ).loc main_arg0)) (m ((c : Thread nD τ).loc main_arg1))
    (ValueIdx.ix2 ⟨(j 0).val, (j 0).isLt⟩ ⟨73728 + (j 1).val, by have h : (j 1).val < 24576 := (j 1).isLt; show 73728 + (j 1).val < 100000; omega⟩)

/-- The index maps over the grid: the left factor's block index never moves, the right factor's and the output's
    column block index is the point. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = t.val
    ∧ win4_2.index t (0 : Fin 2) = 0 ∧ win4_2.index t (1 : Fin 2) = t.val :=
  (by decide +kernel : ∀ t : Fin grid4.N, _)

/-- The left factor's block at any point is the whole left factor. -/
theorem iblk4_0_apply (t : Fin cfg4.N) (z : S1024x16.Idx) :
    iblk4 (E4 m) c 0 t z = m ((c : Thread nD τ).loc main_arg0) z := by
  obtain ⟨e0, e1, -⟩ := idx_facts4 t
  unfold iblk4
  rw [View.read_apply]
  show E4 m c main_arg0 _ = _
  rw [show E4 m c main_arg0 = m ((c : Thread nD τ).loc main_arg0) from B9_x m c (o₀ m c)]
  congr 1
  funext a
  apply Fin.ext
  match a with
  | ⟨0, _⟩ => show win4_0.index t (0 : Fin 2) * 1024 + 1 * (z 0).val = (z 0).val; rw [e0]; omega
  | ⟨1, _⟩ => show win4_0.index t (1 : Fin 2) * 16 + 1 * (z 1).val = (z 1).val; rw [e1]; omega

/-- The right factor's block at point t, at (k, q), is memory's row 73728 + t * 4096 + q at column k: the block is a
    column block of the chunk's slice of the transposed memory. -/
theorem iblk4_1_apply (t : Fin cfg4.N) (z : S16x4096.Idx) (kk : S100000x16.Idx)
    (h0 : (kk 0).val = 73728 + (t.val * 4096 + (z 1).val)) (h1 : (kk 1).val = (z 0).val) :
    iblk4 (E4 m) c 1 t z = m ((c : Thread nD τ).loc main_arg1) kk := by
  obtain ⟨-, -, e0, e1, -⟩ := idx_facts4 t
  unfold iblk4
  rw [View.read_apply]
  show E4 m c main_call0_v11 _ = _
  rw [show E4 m c main_call0_v11 = _ from B9_sl m c (o₀ m c), B1_v0]
  refine (extractStridedSlice_apply ![0, 73728] _ _ _
    (ValueIdx.ix2 ⟨(kk 1).val, (kk 1).isLt⟩ ⟨(kk 0).val, (kk 0).isLt⟩ : S16x100000.Idx) fun a => ?_).trans
    (transpose_apply [1, 0] _ _ _ kk fun b => ?_)
  · match a with
    | ⟨0, _⟩ => show (kk 1).val = 0 + (win4_1.index t (0 : Fin 2) * 16 + 1 * (z 0).val); rw [e0, h1]; omega
    | ⟨1, _⟩ => show (kk 0).val = 73728 + (win4_1.index t (1 : Fin 2) * 4096 + 1 * (z 1).val); rw [e1, h0]; omega
  · match b with
    | ⟨0, _⟩ => rfl
    | ⟨1, _⟩ => rfl

/-- What point t writes back is block t of the chunk's array. -/
theorem flushed4_eq (t : Fin cfg4.N) :
    (dat4 (E4 m) c).flushed 2 t = ((cfg4.win 2).blk t).view.read (Elt Ideal) (A4 m c) := by
  show (cfg4.win 2).cut (grid4.coords t) ((dat4 (E4 m) c).after 2 t) = _
  rw [after4_2]
  unfold out4_2
  rw [View.canon_unit_zero hz]
  simp only [View.ld_unit_zero (S := S1024x16) hz, View.ld_unit_zero (S := S16x4096) hz]
  funext y
  rw [View.read_apply]
  obtain ⟨-, -, -, -, e0, e1⟩ := idx_facts4 t
  refine point4 (m ((c : Thread nD τ).loc main_arg0)) (m ((c : Thread nD τ).loc main_arg1))
    (iblk4 (E4 m) c 0 t) (iblk4 (E4 m) c 1 t) ((win4 2).xinj (grid4.coords t) y) _ (fun k => ?_) (fun k => ?_)
  · rw [iblk4_0_apply]
    congr 1
    funext a
    apply Fin.ext
    match a with
    | ⟨0, _⟩ => show (y 0).val = win4_2.index t (0 : Fin 2) * 1024 + 1 * (y 0).val; rw [e0]; omega
    | ⟨1, _⟩ => rfl
  · refine iblk4_1_apply m c t _ _ ?_ rfl
    show 73728 + (win4_2.index t (1 : Fin 2) * 4096 + 1 * (y 1).val) = 73728 + (t.val * 4096 + (y 1).val)
    rw [e1]; omega

/-- An index of the chunk's array is in point t's block iff each coordinate is in the block's range on its axis. -/
theorem mem_blk4 (t : Fin cfg4.N) (i : S1024x24576.Idx) :
    i ∈ ((cfg4.win 2).blk t).view.set ↔ ∀ a : Fin 2, win4_2.index t a * S1024x4096.size a ≤ (i a).val
      ∧ (i a).val < win4_2.index t a * S1024x4096.size a + S1024x4096.size a := by
  show i ∈ ((View.whole main_call0_v12).slice (win4_2.rect t)).set ↔ _
  rw [View.set_slice_whole, Rect.mem_set_unit]
  exact Iff.rfl

/-- Every column lies in the block of the point (column / 4096). -/
theorem cover4 (i : S1024x24576.Idx) : ∃ t : Fin cfg4.N, (cfg4.win 2).flush t = true ∧ i ∈ ((cfg4.win 2).blk t).view.set := by
  have hi0 : (i 0).val < 1024 := (i 0).isLt
  have hi1 : (i 1).val < 24576 := (i 1).isLt
  let t : Fin cfg4.N := ⟨(i 1).val / 4096, by rw [show cfg4.N = 6 from N_4]; omega⟩
  obtain ⟨-, -, -, -, e0, e1⟩ := idx_facts4 t
  have et : t.val = (i 1).val / 4096 := rfl
  refine ⟨t, flush4_2 t, ?_⟩
  rw [mem_blk4]
  intro a
  match a with
  | ⟨0, _⟩ =>
    show win4_2.index t (0 : Fin 2) * 1024 ≤ (i 0).val ∧ (i 0).val < win4_2.index t (0 : Fin 2) * 1024 + 1024
    rw [e0]; omega
  | ⟨1, _⟩ =>
    show win4_2.index t (1 : Fin 2) * 4096 ≤ (i 1).val ∧ (i 1).val < win4_2.index t (1 : Fin 2) * 4096 + 4096
    rw [e1, et]; omega

/-- The chunk's array after its region. -/
theorem final4 : (dat4 (E4 m) c).arrAt 2 cfg4.N = A4 m c :=
  (dat4 (E4 m) c).arrAt_eq_of_cover 2 (A4 m c) (fun t _ => flushed4_eq m c t) (cover4)

/-- Entry j of chunk 4's array is the specification's entry at the same row, 73728 columns to the right. -/
theorem chunk4_value (j : S1024x24576.Idx) (i : S1024x100000.Idx) (h0 : (i 0).val = (j 0).val) (h1 : (i 1).val = 73728 + (j 1).val) :
    (dat4 (E4 m) c).arrAt 2 cfg4.N j
      = Cert.Spec.G (m ((c : Thread nD τ).loc main_arg0)) (m ((c : Thread nD τ).loc main_arg1)) i := by
  rw [final4]
  show Cert.Spec.G _ _ _ = _
  congr 1
  funext a
  apply Fin.ext
  match a with
  | ⟨0, _⟩ => exact h0.symm
  | ⟨1, _⟩ => show 73728 + (j 1).val = (i 1).val; omega

end Cert.KernelIdeal.Vals

end
-- ==== Proof.IdealSide.TailValue.lean ====
/-
  What the tail region leaves in its output array on the columns from 99968 on, at the extended reals: the region's
  one point stores the 1024 x 128 block of x times the 16 x 128 right block starting at column 99968, divided by the
  temperature; only the block's first 32 columns lie inside the 100000-column array and only those are written back.
  On them the right block is the transposed memory itself, whatever fills the buffer past the array's end, so
  entry (r, 99968 + q), q < 32, is the specification's.
-/
import proofs.«177054_g53008486367263_cont_8to1_c_744_45_alg».proof.Proof.IdealSide.Fold
import proofs.«177054_g53008486367263_cont_8to1_c_744_45_alg».proof.Proof.Spec
import proofs.«177054_g53008486367263_cont_8to1_c_744_45_alg».proof.Proof.Payload
import Idealize.ShloMosaic.Lib.Pipeline.Value
import Idealize.ShloMosaic.Lib.ValueIdx

set_option maxRecDepth 16384

noncomputable section

namespace Cert.KernelIdeal.Vals

open Cert.KernelIdeal Cert.KernelIdeal.Gen Cert.KernelIdeal.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

theorem hz0 : (![0, 0] : Fin 2 → Nat) = fun _ => 0 := funext fun a => by fin_cases a <;> rfl

/-- An entry of the block's product is the specification's entry at the place the block's entry sits. -/
theorem entry0_eq (X : S1024x16.Idx → EReal) (Mm : S100000x16.Idx → EReal) (i : S1024x100000.Idx)
    (xrow ycol : Fin 16 → EReal)
    (hx : ∀ k : Fin 16, xrow k = X (ValueIdx.ix2 ⟨(i 0).val, (i 0).isLt⟩ k))
    (hy : ∀ k : Fin 16, ycol k = Mm (ValueIdx.ix2 ⟨(i 1).val, (i 1).isLt⟩ k)) :
    Ideal.div (∑ k : Fin 16, xrow k * ycol k) Cert.Spec.T = Cert.Spec.G X Mm i := by
  unfold Cert.Spec.G
  congr 1
  exact Finset.sum_congr rfl fun k _ => by rw [hx k, hy k]

/-- The stored block's entry, from what its two input blocks hold on the entry's row and column. -/
theorem point0 (X : S1024x16.Idx → EReal) (Mm : S100000x16.Idx → EReal)
    (x0 : Vec Ideal S1024x16 .f32) (x1 : Vec Ideal S16x128 .f32) (yy : S1024x128.Idx) (i : S1024x100000.Idx)
    (hx : ∀ k : Fin 16, x0 (ValueIdx.ix2 (yy 0) k) = X (ValueIdx.ix2 ⟨(i 0).val, (i 0).isLt⟩ k))
    (hy : ∀ k : Fin 16, x1 (ValueIdx.ix2 k (yy 1)) = Mm (ValueIdx.ix2 ⟨(i 1).val, (i 1).isLt⟩ k)) :
    k0_pay1 (F := Ideal) x0 x1 yy = Cert.Spec.G X Mm i :=
  (congrArg (k0_pay1 (F := Ideal) x0 x1) (ValueIdx.eq_ix2 yy)).trans
    ((Cert.Payload.pay0_apply x0 x1 (yy 0) (yy 1)).trans (entry0_eq X Mm i _ _ hx hy))

/-- The index maps and the cut sizes at the region's point: the left factor's block is the whole array; the right
    factor's and the output's block is column block 781 (columns from 99968), cut to the 32 columns inside the array. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 781
    ∧ (win0 2).index t 0 = 0 ∧ (win0 2).index t 1 = 781
    ∧ win0_1.xsize (grid0.coords t) 0 = 16 ∧ win0_1.xsize (grid0.coords t) 1 = 32
    ∧ ((win0 2).xblock (grid0.coords t)).size 0 = 1024 ∧ ((win0 2).xblock (grid0.coords t)).size 1 = 32
    ∧ (win0 2).xsize (grid0.coords t) 0 = 1024 ∧ (win0 2).xsize (grid0.coords t) 1 = 32 :=
  (by decide +kernel : ∀ t : Fin grid0.N, _)

/-- The left factor's block is the whole left factor. -/
theorem iblk0_0_apply (t : Fin cfg0.N) (z : S1024x16.Idx) :
    iblk0 (R1 m) c 0 t z = m ((c : Thread nD τ).loc main_arg0) z := by
  obtain ⟨e0, e1, -⟩ := idx_facts0 t
  unfold iblk0
  rw [View.read_apply]
  show R1 m c main_arg0 _ = _
  rw [show R1 m c main_arg0 = m ((c : Thread nD τ).loc main_arg0) from B1_x m c]
  congr 1
  funext a
  apply Fin.ext
  match a with
  | ⟨0, _⟩ => show win0_0.index t (0 : Fin 2) * 1024 + 1 * (z 0).val = (z 0).val; rw [e0]; omega
  | ⟨1, _⟩ => show win0_0.index t (1 : Fin 2) * 16 + 1 * (z 1).val = (z 1).val; rw [e1]; omega

/-- The right factor's block, on the columns inside the array, at (k, q) is memory's row 99968 + q at column k. -/
theorem iblk0_1_apply (t : Fin cfg0.N) (z : ((cfg0.win 1).xblock (cfg0.grid.coords t)).Idx) (kk : S100000x16.Idx)
    (h0 : (kk 0).val = 99968 + (z 1).val) (h1 : (kk 1).val = (z 0).val) :
    iblk0 (R1 m) c 1 t z = m ((c : Thread nD τ).loc main_arg1) kk := by
  obtain ⟨-, -, e0, e1, -⟩ := idx_facts0 t
  unfold iblk0
  rw [View.read_apply]
  show R1 m c main_call0_v0 _ = _
  rw [show R1 m c main_call0_v0 = _ from B1_v0 m c]
  refine transpose_apply [1, 0] _ _ _ kk fun b => ?_
  match b with
  | ⟨0, _⟩ => show (kk 1).val = win0_1.index t (0 : Fin 2) * 16 + 1 * (z 0).val; rw [e0, h1]; omega
  | ⟨1, _⟩ => show (kk 0).val = win0_1.index t (1 : Fin 2) * 128 + 1 * (z 1).val; rw [e1, h0]; omega

/-- The right factor's staging buffer after its cut fetch, on a column q < 32: the fetch filled it there, with memory's
    row 99968 + q, whatever the buffer held before. -/
theorem fill_entry (t : Fin cfg0.N) (d : S16x128.Idx → EReal) (k : Fin 16) (q : Fin 128) (hq : q.val < 32)
    (kk : S100000x16.Idx) (h0 : (kk 0).val = 99968 + q.val) (h1 : (kk 1).val = k.val) :
    win0_1.fill (grid0.coords t) d (iblk0 (R1 m) c 1 t) (ValueIdx.ix2 k q) = m ((c : Thread nD τ).loc main_arg1) kk := by
  obtain ⟨-, -, -, -, -, -, s0, s1, -⟩ := idx_facts0 t
  have hmoved : win0_1.moved (grid0.coords t) (ValueIdx.ix2 k q) = true :=
    (win0_1.moved_iff _ _).mpr fun a => by
      match a with
      | ⟨0, _⟩ => show k.val < win0_1.xsize (grid0.coords t) 0; rw [s0]; exact k.isLt
      | ⟨1, _⟩ => show q.val < win0_1.xsize (grid0.coords t) 1; rw [s1]; exact hq
  unfold Window.fill
  rw [dif_pos hmoved]
  exact iblk0_1_apply m c t _ kk h0 h1

/-- An entry of the stored block's 32 leading columns is the specification's entry where the write-back puts it,
    whatever fills the right factor's buffer past the array's end. -/
theorem tail_cut_apply (t : Fin cfg0.N) (d : S16x128.Idx → EReal) (y : ((win0 2).xblock (grid0.coords t)).Idx) :
    k0_pay1 (F := Ideal) (iblk0 (R1 m) c 0 t) (win0_1.fill (grid0.coords t) d (iblk0 (R1 m) c 1 t)) ((win0 2).xinj (grid0.coords t) y)
      = Cert.Spec.G (m ((c : Thread nD τ).loc main_arg0)) (m ((c : Thread nD τ).loc main_arg1)) (((win0 2).blk t).view.emb y) := by
  obtain ⟨-, -, -, -, e0, e1, -, -, u0, u1, -⟩ := idx_facts0 t
  have hy1 : (y 1).val < 32 := by
    have h : (y 1).val < ((win0 2).xblock (grid0.coords t)).size 1 := (y 1).isLt
    exact Nat.lt_of_lt_of_eq h u1
  have hs0 : (win0 2).size 0 = 1024 := rfl
  have hs1 : (win0 2).size 1 = 128 := rfl
  have hv0 : ((win0 2).xinj (grid0.coords t) y 0).val = (y 0).val := rfl
  have hv1 : ((win0 2).xinj (grid0.coords t) y 1).val = (y 1).val := rfl
  refine point0 (m ((c : Thread nD τ).loc main_arg0)) (m ((c : Thread nD τ).loc main_arg1))
    (iblk0 (R1 m) c 0 t) (win0_1.fill (grid0.coords t) d (iblk0 (R1 m) c 1 t)) ((win0 2).xinj (grid0.coords t) y) _
    (fun k => ?_) (fun k => ?_)
  · rw [iblk0_0_apply]
    refine congrArg (m ((c : Thread nD τ).loc main_arg0)) (funext fun a => Fin.ext ?_)
    match a with
    | ⟨0, _⟩ =>
      refine Eq.symm (((win0 2).rect_emb_val t y 0).trans ?_)
      rw [e0, hs0, ← hv0]; omega
    | ⟨1, _⟩ => rfl
  · refine fill_entry m c t d k _ (by rw [hv1]; exact hy1) _ ?_ rfl
    refine ((win0 2).rect_emb_val t y 1).trans ?_
    rw [e1, hs1, hv1]

/-- What the write-back writes — the stored block's 32 leading columns — is the specification read through the block. -/
theorem tail_cut_eq (t : Fin cfg0.N) (d : S16x128.Idx → EReal) :
    (cfg0.win 2).cut (grid0.coords t) (out0_2 (iblk0 (R1 m) c 0 t) (win0_1.fill (grid0.coords t) d (iblk0 (R1 m) c 1 t)))
      = ((cfg0.win 2).blk t).view.read (Elt Ideal)
          (Cert.Spec.G (m ((c : Thread nD τ).loc main_arg0)) (m ((c : Thread nD τ).loc main_arg1))) := by
  unfold out0_2
  rw [View.canon_unit_zero hz0]
  simp only [View.ld_unit_zero (S := S1024x16) hz0, View.ld_unit_zero (S := S16x128) hz0]
  funext y
  rw [View.read_apply]
  exact tail_cut_apply m c t d y

/-- Every index from column 99968 on lies in the region's one block. -/
theorem tail_mem (t : Fin cfg0.N) (i : S1024x100000.Idx) (hi : 99968 ≤ (i 1).val) :
    i ∈ ((cfg0.win 2).blk t).view.setOn Finset.univ := by
  rw [View.setOn_univ]
  show i ∈ ((View.whole main_call0_v1).slice ((win0 2).rect t)).set
  rw [View.set_slice_whole, Rect.mem_set_unit]
  obtain ⟨-, -, -, -, e0, e1, -, -, -, -, u0, u1⟩ := idx_facts0 t
  have h0 : (i 0).val < 1024 := (i 0).isLt
  have h1 : (i 1).val < 100000 := (i 1).isLt
  have hs0 : (win0 2).size 0 = 1024 := rfl
  have hs1 : (win0 2).size 1 = 128 := rfl
  intro a
  match a with
  | ⟨0, _⟩ =>
    show (win0 2).index t 0 * (win0 2).size 0 ≤ (i 0).val ∧ (i 0).val < (win0 2).index t 0 * (win0 2).size 0 + (win0 2).xsize (grid0.coords t) 0
    rw [e0, u0, hs0]; omega
  | ⟨1, _⟩ =>
    show (win0 2).index t 1 * (win0 2).size 1 ≤ (i 1).val ∧ (i 1).val < (win0 2).index t 1 * (win0 2).size 1 + (win0 2).xsize (grid0.coords t) 1
    rw [e1, u1, hs1]; omega

/-- Whatever the tail region leaves in its output array, from column 99968 on it holds the specification's entries. -/
theorem tail_value (o : TailArr (F := Ideal) c) (ho : TailOut m c o) (i : S1024x100000.Idx) (hi : 99968 ≤ (i 1).val) :
    o i = Cert.Spec.G (m ((c : Thread nD τ).loc main_arg0)) (m ((c : Thread nD τ).loc main_arg1)) i := by
  unfold TailOut at ho
  rw [show cfg0.N = 0 + 1 from N_0] at ho
  unfold Pipeline.RDat.ArrAt at ho
  have hN : 0 < cfg0.N := by rw [show cfg0.N = 1 from N_0]; exact Nat.one_pos
  dsimp only at ho
  rw [dif_pos hN, if_pos (flush0_2 ⟨0, hN⟩)] at ho
  obtain ⟨G₀, X, hG₀, ⟨Y, -, hX⟩, rfl⟩ := ho
  have hX' : ∃ d : S16x128.Idx → EReal, X = out0_2 (iblk0 (R1 m) c 0 ⟨0, hN⟩)
      (win0_1.fill (grid0.coords ⟨0, hN⟩) d (iblk0 (R1 m) c 1 ⟨0, hN⟩)) := hX
  obtain ⟨d, rfl⟩ := hX'
  rw [show (cfg0.win 2).cut (cfg0.grid.coords ⟨0, hN⟩) _ = _ from tail_cut_eq m c ⟨0, hN⟩ d,
    View.write_read_eq_piecewise]
  exact Finset.piecewise_eq_of_mem _ _ _ (tail_mem ⟨0, hN⟩ i hi)

end Cert.KernelIdeal.Vals

end
-- ==== Proof.Pieces.lean ====
/-
  Five column windows written one after another into an array of 100000 columns cover every column below 99968
  exactly once; what is left of the array under them is its last 32 columns. If every window holds the values of
  one function G at its place and the array holds G from column 99968 on, the result is G.
-/
import Idealize.ShloMosaic.PureOps.ShapeOps

noncomputable section

namespace Cert.Pieces

open Idealize.ShloMosaic

abbrev SO : Shape := ⟨2, ![1024, 100000]⟩
abbrev SA : Shape := ⟨2, ![1024, 24576]⟩
abbrev SB : Shape := ⟨2, ![1024, 1664]⟩

/-- A full-height window of W columns written at a start whose row is 0 and whose column is c, with
    c + W ≤ 100000 (so the clamp leaves the start alone), read at an index: inside the window it is the update's
    element at the index moved left by c, outside it the array's own element. -/
theorem dus_read {α : Type} {W : Nat} (x : SO.Idx → α) (u : (⟨2, ![1024, W]⟩ : Shape).Idx → α)
    (s : Fin 2 → Int) (f : SO.Slices (fun _ => 0) ⟨2, ![1024, W]⟩) (c : Nat) (hc : c + W ≤ 100000)
    (hs : s 0 = 0 ∧ s 1 = (c : Int)) (i : SO.Idx) :
    (∀ j : (⟨2, ![1024, W]⟩ : Shape).Idx, (i 0).val = (j 0).val → (i 1).val = c + (j 1).val →
        Host.dynamicUpdateSlice x u s f i = u j) ∧
    (((i 1).val < c ∨ c + W ≤ (i 1).val) → Host.dynamicUpdateSlice x u s f i = x i) := by
  have adj0 : (min (max (s 0) 0) (((1024 - 1024 : Nat) : Nat) : Int)).toNat = 0 := by rw [hs.1]; rfl
  have adj1 : (min (max (s 1) 0) (((100000 - W : Nat) : Nat) : Int)).toNat = c := by rw [hs.2]; omega
  have i0 : (i 0).val < 1024 := (i 0).isLt
  have i1 : (i 1).val < 100000 := (i 1).isLt
  constructor
  · intro j h0 h1
    have j0 : (j 0).val < 1024 := (j 0).isLt
    have j1 : (j 1).val < W := (j 1).isLt
    unfold Host.dynamicUpdateSlice updateSlice
    simp only []
    rw [dif_pos (fun a => by
      match a with
      | ⟨0, _⟩ =>
        show (min (max (s 0) 0) (((1024 - 1024 : Nat) : Nat) : Int)).toNat ≤ (i 0).val
          ∧ (i 0).val < (min (max (s 0) 0) (((1024 - 1024 : Nat) : Nat) : Int)).toNat + 1024
        rw [adj0]; omega
      | ⟨1, _⟩ =>
        show (min (max (s 1) 0) (((100000 - W : Nat) : Nat) : Int)).toNat ≤ (i 1).val
          ∧ (i 1).val < (min (max (s 1) 0) (((100000 - W : Nat) : Nat) : Int)).toNat + W
        rw [adj1]; omega)]
    congr 1
    funext b
    apply Fin.ext
    match b with
    | ⟨0, _⟩ =>
      show (i 0).val - (min (max (s 0) 0) (((1024 - 1024 : Nat) : Nat) : Int)).toNat = (j 0).val
      rw [adj0]; omega
    | ⟨1, _⟩ =>
      show (i 1).val - (min (max (s 1) 0) (((100000 - W : Nat) : Nat) : Int)).toNat = (j 1).val
      rw [adj1]; omega
  · intro hout
    unfold Host.dynamicUpdateSlice updateSlice
    simp only []
    rw [dif_neg (fun h => by
      have h1 : (min (max (s 1) 0) (((100000 - W : Nat) : Nat) : Int)).toNat ≤ (i 1).val
          ∧ (i 1).val < (min (max (s 1) 0) (((100000 - W : Nat) : Nat) : Int)).toNat + W := h 1
      rw [adj1] at h1; omega)]

/-- Such a write keeps "equal to G at this index": if the window holds G's values at its place, and the array under it
    holds G at the index whenever the index is outside the window, the written array holds G at the index. -/
theorem dus_G {α : Type} {W : Nat} (G x : SO.Idx → α) (u : (⟨2, ![1024, W]⟩ : Shape).Idx → α)
    (s : Fin 2 → Int) (f : SO.Slices (fun _ => 0) ⟨2, ![1024, W]⟩) (c : Nat) (hc : c + W ≤ 100000)
    (hs : s 0 = 0 ∧ s 1 = (c : Int))
    (hu : ∀ (j : (⟨2, ![1024, W]⟩ : Shape).Idx) (i : SO.Idx), (i 0).val = (j 0).val → (i 1).val = c + (j 1).val → u j = G i)
    (i : SO.Idx) (hx : ((i 1).val < c ∨ c + W ≤ (i 1).val) → x i = G i) :
    Host.dynamicUpdateSlice x u s f i = G i := by
  have i0 : (i 0).val < 1024 := (i 0).isLt
  by_cases hin : c ≤ (i 1).val ∧ (i 1).val < c + W
  · let j : (⟨2, ![1024, W]⟩ : Shape).Idx := fun a => match a with
      | ⟨0, _⟩ => ⟨(i 0).val, i0⟩
      | ⟨1, _⟩ => ⟨(i 1).val - c, by show (i 1).val - c < W; omega⟩
    have e1 : (i 1).val = c + (j 1).val := by show (i 1).val = c + ((i 1).val - c); omega
    exact ((dus_read x u s f c hc hs i).1 j rfl e1).trans (hu j i rfl e1)
  · have hout : (i 1).val < c ∨ c + W ≤ (i 1).val := by omega
    exact ((dus_read x u s f c hc hs i).2 hout).trans (hx hout)

/-- The five windows [0, 24576), [24576, 49152), [49152, 73728), [73728, 98304), [98304, 99968) are disjoint and cover
    the columns below 99968, so each index is decided by the one window it lies in, or by the array under them all. -/
theorem pieces {α : Type} (G o : SO.Idx → α) (u1 u2 u3 u4 : SA.Idx → α) (u5 : SB.Idx → α)
    (s1 s2 s3 s4 s5 : Fin 2 → Int) (fA : SO.Slices (fun _ => 0) SA) (fB : SO.Slices (fun _ => 0) SB)
    (hs1 : s1 0 = 0 ∧ s1 1 = 0) (hs2 : s2 0 = 0 ∧ s2 1 = 24576) (hs3 : s3 0 = 0 ∧ s3 1 = 49152)
    (hs4 : s4 0 = 0 ∧ s4 1 = 73728) (hs5 : s5 0 = 0 ∧ s5 1 = 98304)
    (h1 : ∀ (j : SA.Idx) (i : SO.Idx), (i 0).val = (j 0).val → (i 1).val = (j 1).val → u1 j = G i)
    (h2 : ∀ (j : SA.Idx) (i : SO.Idx), (i 0).val = (j 0).val → (i 1).val = 24576 + (j 1).val → u2 j = G i)
    (h3 : ∀ (j : SA.Idx) (i : SO.Idx), (i 0).val = (j 0).val → (i 1).val = 49152 + (j 1).val → u3 j = G i)
    (h4 : ∀ (j : SA.Idx) (i : SO.Idx), (i 0).val = (j 0).val → (i 1).val = 73728 + (j 1).val → u4 j = G i)
    (h5 : ∀ (j : SB.Idx) (i : SO.Idx), (i 0).val = (j 0).val → (i 1).val = 98304 + (j 1).val → u5 j = G i)
    (ho : ∀ i : SO.Idx, 99968 ≤ (i 1).val → o i = G i) :
    Host.dynamicUpdateSlice (Host.dynamicUpdateSlice (Host.dynamicUpdateSlice (Host.dynamicUpdateSlice
      (Host.dynamicUpdateSlice o u1 s1 fA) u2 s2 fA) u3 s3 fA) u4 s4 fA) u5 s5 fB = G := by
  funext i
  refine dus_G G _ u5 s5 fB 98304 (by omega) ⟨hs5.1, by rw [hs5.2]; rfl⟩ h5 i fun o5 => ?_
  refine dus_G G _ u4 s4 fA 73728 (by omega) ⟨hs4.1, by rw [hs4.2]; rfl⟩ h4 i fun o4 => ?_
  refine dus_G G _ u3 s3 fA 49152 (by omega) ⟨hs3.1, by rw [hs3.2]; rfl⟩ h3 i fun o3 => ?_
  refine dus_G G _ u2 s2 fA 24576 (by omega) ⟨hs2.1, by rw [hs2.2]; rfl⟩ h2 i fun o2 => ?_
  refine dus_G G _ u1 s1 fA 0 (by omega) ⟨hs1.1, by rw [hs1.2]; rfl⟩
    (fun j i' a b => h1 j i' a (by omega)) i fun o1 => ?_
  exact ho i (by omega)

end Cert.Pieces

end
-- ==== Proof.IdealSide.Result.lean ====
/-
  The value of the result array at the extended reals: the fold's last contents at the result buffer are the five
  updates applied in turn to what the tail region left, and each piece is the specification on the columns it ends up
  owning — the five column chunks on [0, 99968), the tail region's array from column 99968 on.
-/
import proofs.«177054_g53008486367263_cont_8to1_c_744_45_alg».proof.Proof.IdealSide.Frames
import proofs.«177054_g53008486367263_cont_8to1_c_744_45_alg».proof.Proof.IdealSide.ChunkValues
import proofs.«177054_g53008486367263_cont_8to1_c_744_45_alg».proof.Proof.IdealSide.TailValue
import proofs.«177054_g53008486367263_cont_8to1_c_744_45_alg».proof.Proof.Spec
import proofs.«177054_g53008486367263_cont_8to1_c_744_45_alg».proof.Proof.Pieces

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (c : Dev nD)

/-- The result array ends holding the specification: the five updates lay the five column chunks, each equal to the
    specification on its columns, over the tail region's array, which equals it from column 99968 on. -/
theorem result_eq (o : TailArr (F := Ideal) c) (ho : TailOut m c o) :
    B13 m c o (Proc.devRef .tc main_v0)
      = Cert.Spec.G (m ((c : Thread nD τ).loc main_arg0)) (m ((c : Thread nD τ).loc main_arg1)) := by
  obtain ⟨s1, hs1, h1⟩ := acc1 m c o
  obtain ⟨s2, hs2, h2⟩ := acc2 m c o
  obtain ⟨s3, hs3, h3⟩ := acc3 m c o
  obtain ⟨s4, hs4, h4⟩ := acc4 m c o
  obtain ⟨s5, hs5, h5⟩ := acc5 m c o
  rw [h5, h4, h3, h2, h1]
  exact Cert.Pieces.pieces (Cert.Spec.G (m ((c : Thread nD τ).loc main_arg0)) (m ((c : Thread nD τ).loc main_arg1))) o _ _ _ _ _
    s1 s2 s3 s4 s5 _ _ hs1 hs2 hs3 hs4 hs5
    (fun j i h0 h1 => Cert.KernelIdeal.Vals.chunk1_value m c j i h0 h1)
    (fun j i h0 h1 => Cert.KernelIdeal.Vals.chunk2_value m c j i h0 h1)
    (fun j i h0 h1 => Cert.KernelIdeal.Vals.chunk3_value m c j i h0 h1)
    (fun j i h0 h1 => Cert.KernelIdeal.Vals.chunk4_value m c j i h0 h1)
    (fun j i h0 h1 => Cert.KernelIdeal.Vals.chunk5_value m c j i h0 h1)
    (fun i hi => Cert.KernelIdeal.Vals.tail_value m c o ho i hi)

end Cert.KernelIdeal.Tiles

end
-- ==== Proof.lean ====
/-
  The certificate of the chunked product against its reference.

  Both programs compute, for x of 1024 rows and memory of 100000 rows, sixteen columns each, the array whose entry
  (i, j) is the sum over k of x(i,k) · memory(j,k) divided by the temperature (the same word in both). The reference
  does it with one product against the transposed right factor. The kernel transposes the right factor once, then runs
  six pipelined regions — a tail region writing the last 32 columns into a full-width array through a 128-column block
  that overhangs it, and five column chunks of widths 24576, 24576, 24576, 24576 and 1664, each a grid of 4096-column
  blocks (the last a single 1664-column block) — and lays each chunk over the running result with an update at its
  column offset. Every region contracts all sixteen columns in one block, so no sum is split: entry by entry the two
  sides are the same sum and the same quotient, and only the arrangement differs. No law that needs finiteness is
  used; the precondition is not opened.

  The frames come from one run of @main as thirteen items (Proof/BitsSide, Proof/IdealSide: the same argument at the
  two instances). The columns of the tail block past the array's end hold words nothing names; the run is therefore
  stated for some contents of the tail's array that the region's data allow, and at the extended reals those contents
  are determined on the columns that matter because an entry of a product depends on one column of the right factor.
-/
import proofs.«177054_g53008486367263_cont_8to1_c_744_45_alg».proof.Defs
import proofs.«177054_g53008486367263_cont_8to1_c_744_45_alg».proof.Proof.Gen.Kernel
import proofs.«177054_g53008486367263_cont_8to1_c_744_45_alg».proof.Proof.Gen.KernelIdeal
import proofs.«177054_g53008486367263_cont_8to1_c_744_45_alg».proof.Proof.Gen.ReferenceIdeal
import proofs.«177054_g53008486367263_cont_8to1_c_744_45_alg».proof.Proof.Gen.ReferenceIdeal.Run
import proofs.«177054_g53008486367263_cont_8to1_c_744_45_alg».proof.Proof.Gen.ReferenceIdeal.Read
import proofs.«177054_g53008486367263_cont_8to1_c_744_45_alg».proof.Proof.Gen.Pre_finite_inputs
import proofs.«177054_g53008486367263_cont_8to1_c_744_45_alg».proof.Proof.BitsSide.Frames
import proofs.«177054_g53008486367263_cont_8to1_c_744_45_alg».proof.Proof.IdealSide.Frames
import proofs.«177054_g53008486367263_cont_8to1_c_744_45_alg».proof.Proof.Spec
import proofs.«177054_g53008486367263_cont_8to1_c_744_45_alg».proof.Proof.IdealSide.Result

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Tiles.frame (F := Bits) m ρ

/-- The idealized program runs and leaves its arguments unchanged. -/
theorem frame_ki : Cert.frame_KernelIdeal := fun m ρ _ => Cert.KernelIdeal.Tiles.frame (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the extended reals both programs end holding, at row i and column j, the sum over the sixteen k of
    x(i,k) · memory(j,k), divided by the temperature: the kernel's six regions and five updates piece that array
    together column range by column range, and the reference's product with the transposed right factor is it
    entry by entry. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Tiles.run (F := Ideal) m ρ)
    obtain ⟨o, ho, hb⟩ := h c
    exact ⟨(hb _ (Cert.KernelIdeal.Tiles.mem_uc Cert.KernelIdeal.main_v0 (by decide))).trans (Cert.KernelIdeal.Tiles.result_eq m c o ho),
      (hb _ (Cert.KernelIdeal.Tiles.mem_uc Cert.KernelIdeal.main_arg0 (by decide))).trans (Cert.KernelIdeal.Tiles.B13_x m c o),
      (hb _ (Cert.KernelIdeal.Tiles.mem_uc Cert.KernelIdeal.main_arg1 (by decide))).trans (Cert.KernelIdeal.Tiles.B13_y m c o)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v3_eq, Cert.Spec.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
